-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x3 : Shape := ⟨3, ![16, 1024, 3]⟩
abbrev S16x4096x3 : Shape := ⟨3, ![16, 4096, 3]⟩
abbrev S16x1024x256 : Shape := ⟨3, ![16, 1024, 256]⟩
abbrev S16x4096x128 : Shape := ⟨3, ![16, 4096, 128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel
  bcast_S_S16x4096x3 : S_.BroadcastsInDim S16x4096x3 (![] : Fin 0 → Fin S16x4096x3.rank)
  reducesTo_S16x4096x3_S_d0_1_2 : S16x4096x3.ReducesTo [0, 1, 2] S_
  bcast_S_S16x1024x256 : S_.BroadcastsInDim S16x1024x256 (![] : Fin 0 → Fin S16x1024x256.rank)
  reducesTo_S16x1024x256_S_d0_1_2 : S16x1024x256.ReducesTo [0, 1, 2] S_
  bcast_S_S16x4096x128 : S_.BroadcastsInDim S16x4096x128 (![] : Fin 0 → Fin S16x4096x128.rank)
  reducesTo_S16x4096x128_S_d0_1_2 : S16x4096x128.ReducesTo [0, 1, 2] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S384 .f32) (main_arg8 : FVec F S256x384 .f32) (main_arg9 : FVec F S256 .f32) (main_arg10 : FVec F S256 .f32) (main_arg11 : FVec F S256 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S256x384 .f32 := Host.absf main_arg8
  let main_cst_14 : FVec F S_ .f32 := constant S_ .f32 0x7F800000#32
  let main_v40 : FVec F S256x384 .f32 := broadcastInDim S256x384 ![] bcast_S_S256x384 main_cst_14
  let main_v41 : IVec S256x384 1 := cmpf .olt main_v39 main_v40
  let main_c_15 : IVec S_ 1 := constantI S_ 1 1#1
  let main_v42 : IVec S_ 1 := (fun x v => Host.reduce IntOp.andi x v reducesTo_S256x384_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S384x384 .f32) (main_arg5 : FVec F S384 .f32) (main_arg6 : FVec F S384 .f32) (main_arg7 : FVec F S384 .f32) (main_arg8 : FVec F S256x384 .f32) (main_arg9 : FVec F S256 .f32) (main_arg10 : FVec F S256 .f32) (main_arg11 : FVec F S256 .f32) (main_v13 : IVec S_ 1) (main_v16 : IVec S16x4096x128 1) : IVec S_ 1 :=
  let main_c_5 : IVec S_ 1 := constantI S_ 1 1#1
  let main_v17 : IVec S_ 1 := (fun x v => Host.reduce IntOp.andi x v reducesTo_S16x4096x128_S_d0_1_2 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x1024x3 .f32) (main_arg1 : FVec F S16x4096x3 .f32) (main_arg2 : FVec F S16x1024x256 .f32) (main_arg3 : FVec F S16x4096x128 .f32) (main_arg4 : FVec F S384x384 .f32) (main_arg5 : FVec F S384 .f32) (main_arg6 : FVec F S384 .f32) (main_arg7 : FVec F S384 .f32) (main_arg8 : FVec F S256x384 .f32) (main_arg9 : FVec F S256 .f32) (main_arg10 : FVec F S256 .f32) (main_arg11 : FVec F S256 .f32) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  let main_v9 : FVec F S16x1024x256 .f32 := Host.absf main_arg2
  let main_cst_2 : FVec F S_ .f32 := constant S_ .f32 0x7F800000#32
  let main_v10 : FVec F S16x1024x256 .f32 := broadcastInDim S16x1024x256 ![] bcast_S_S16x1024x256 main_cst_2
  let main_v11 : IVec S16x1024x256 1 := cmpf .olt main_v9 main_v10
  let main_c_3 : IVec S_ 1 := constantI S_ 1 1#1
  let main_v12 : IVec S_ 1 := (fun x v => Host.reduce IntOp.andi x v reducesTo_S16x1024x256_S_d0_1_2 h_S_) main_v11 main_c_3
  let main_v13 : IVec S_ 1 := andi main_v8 main_v12
  let main_v14 : FVec F S16x4096x128 .f32 := Host.absf main_arg3
  let main_cst_4 : FVec F S_ .f32 := constant S_ .f32 0x7F800000#32
  let main_v15 : FVec F S16x4096x128 .f32 := broadcastInDim S16x4096x128 ![] bcast_S_S16x4096x128 main_cst_4
  let main_v16 : IVec S16x4096x128 1 := cmpf .olt main_v14 main_v15
  fn_part1 (F := F) main_arg4 main_arg5 main_arg6 main_arg7 main_arg8 main_arg9 main_arg10 main_arg11 main_v13 main_v16
-- ==== Kernel.lean ====
abbrev S16x1024x3 : Shape := ⟨3, ![16, 1024, 3]⟩
abbrev S16x4096x3 : Shape := ⟨3, ![16, 4096, 3]⟩
abbrev S16x1024x256 : Shape := ⟨3, ![16, 1024, 256]⟩
abbrev S16x4096x128 : Shape := ⟨3, ![16, 4096, 128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S384x256 : Shape := ⟨2, ![384, 256]⟩
abbrev S1x384 : Shape := ⟨2, ![1, 384]⟩
abbrev S1x256 : Shape := ⟨2, ![1, 256]⟩
abbrev S16x4096x384 : Shape := ⟨3, ![16, 4096, 384]⟩
abbrev S16x1x384 : Shape := ⟨3, ![16, 1, 384]⟩
abbrev S1x1024x3 : Shape := ⟨3, ![1, 1024, 3]⟩
abbrev S1x1024x256 : Shape := ⟨3, ![1, 1024, 256]⟩
abbrev S1x1024x128 : Shape := ⟨3, ![1, 1024, 128]⟩
abbrev S1x1024x384 : Shape := ⟨3, ![1, 1024, 384]⟩
abbrev S1x1x384 : Shape := ⟨3, ![1, 1, 384]⟩
abbrev S1024x3 : Shape := ⟨2, ![1024, 3]⟩
abbrev S1024x256 : Shape := ⟨2, ![1024, 256]⟩
abbrev S1024x128 : Shape := ⟨2, ![1024, 128]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S1024x384 : Shape := ⟨2, ![1024, 384]⟩
abbrev S_ : Shape := ⟨0, ![]⟩
abbrev S16x4096x256 : Shape := ⟨3, ![16, 4096, 256]⟩
abbrev S16x1x256 : Shape := ⟨3, ![16, 1, 256]⟩
abbrev S1x1x256 : Shape := ⟨3, ![1, 1, 256]⟩
abbrev S1x2048x256 : Shape := ⟨3, ![1, 2048, 256]⟩
abbrev S2048x256 : Shape := ⟨2, ![2048, 256]⟩

abbrev nBuf : Space → Nat
  | .hbm => 57
  | .vmem => 38
  | .smem => 0
  | _ => 0

abbrev bufTy : (tb : Table) → Fin (tcTables nBuf tb) → BufTy
  | .hbm, ⟨0, _⟩ => ⟨S16x1024x3, .f32⟩
  | .hbm, ⟨1, _⟩ => ⟨S16x4096x3, .f32⟩
  | .hbm, ⟨2, _⟩ => ⟨S16x1024x256, .f32⟩
  | .hbm, ⟨3, _⟩ => ⟨S16x4096x128, .f32⟩
  | .hbm, ⟨4, _⟩ => ⟨S384x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S256x384, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S384x384, .f32⟩
  | .hbm, ⟨13, _⟩ => ⟨S384x256, .f32⟩
  | .hbm, ⟨14, _⟩ => ⟨S1x384, .f32⟩
  | .hbm, ⟨15, _⟩ => ⟨S1x256, .f32⟩
  | .hbm, ⟨16, _⟩ => ⟨S1x384, .f32⟩
  | .hbm, ⟨17, _⟩ => ⟨S1x384, .f32⟩
  | .hbm, ⟨18, _⟩ => ⟨S1x256, .f32⟩
  | .hbm, ⟨19, _⟩ => ⟨S1x256, .f32⟩
  | .hbm, ⟨20, _⟩ => ⟨S16x4096x384, .bf16⟩
  | .hbm, ⟨21, _⟩ => ⟨S16x1x384, .f32⟩
  | .hbm, ⟨22, _⟩ => ⟨S16x1x384, .f32⟩
  | .hbm, ⟨23, _⟩ => ⟨S_, .f32⟩
  | .hbm, ⟨24, _⟩ => ⟨S1x384, .f32⟩
  | .hbm, ⟨25, _⟩ => ⟨S_, .f32⟩
  | .hbm, ⟨26, _⟩ => ⟨S1x384, .f32⟩
  | .hbm, ⟨27, _⟩ => ⟨S1x384, .f32⟩
  | .hbm, ⟨28, _⟩ => ⟨S_, .f32⟩
  | .hbm, ⟨29, _⟩ => ⟨S1x384, .f32⟩
  | .hbm, ⟨30, _⟩ => ⟨S_, .f32⟩
  | .hbm, ⟨31, _⟩ => ⟨S1x384, .f32⟩
  | .hbm, ⟨32, _⟩ => ⟨S1x384, .f32⟩
  | .hbm, ⟨33, _⟩ => ⟨S1x384, .f32⟩
  | .hbm, ⟨34, _⟩ => ⟨S1x384, .f32⟩
  | .hbm, ⟨35, _⟩ => ⟨S_, .f32⟩
  | .hbm, ⟨36, _⟩ => ⟨S1x384, .f32⟩
  | .hbm, ⟨37, _⟩ => ⟨S1x384, .f32⟩
  | .hbm, ⟨38, _⟩ => ⟨S16x4096x256, .bf16⟩
  | .hbm, ⟨39, _⟩ => ⟨S16x1x256, .f32⟩
  | .hbm, ⟨40, _⟩ => ⟨S16x1x256, .f32⟩
  | .hbm, ⟨41, _⟩ => ⟨S_, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S_, .f32⟩
  | .hbm, ⟨54, _⟩ => ⟨S1x256, .f32⟩
  | .hbm, ⟨55, _⟩ => ⟨S1x256, .f32⟩
  | .hbm, ⟨56, _⟩ => ⟨S16x4096x256, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x128, .f32⟩
  | .local _ .vmem, ⟨7, _⟩ => ⟨S1x1024x128, .f32⟩
  | .local _ .vmem, ⟨8, _⟩ => ⟨S384x384, .f32⟩
  | .local _ .vmem, ⟨9, _⟩ => ⟨S1x384, .f32⟩
  | .local _ .vmem, ⟨10, _⟩ => ⟨S1x1024x384, .bf16⟩
  | .local _ .vmem, ⟨11, _⟩ => ⟨S1x1024x384, .bf16⟩
  | .local _ .vmem, ⟨12, _⟩ => ⟨S1x1x384, .f32⟩
  | .local _ .vmem, ⟨13, _⟩ => ⟨S1x1x384, .f32⟩
  | .local _ .vmem, ⟨14, _⟩ => ⟨S1x1x384, .f32⟩
  | .local _ .vmem, ⟨15, _⟩ => ⟨S1x1x384, .f32⟩
  | .local _ .vmem, ⟨16, _⟩ => ⟨S1x1024x384, .bf16⟩
  | .local _ .vmem, ⟨17, _⟩ => ⟨S1x1024x384, .bf16⟩
  | .local _ .vmem, ⟨18, _⟩ => ⟨S1x384, .f32⟩
  | .local _ .vmem, ⟨19, _⟩ => ⟨S1x384, .f32⟩
  | .local _ .vmem, ⟨20, _⟩ => ⟨S1x384, .f32⟩
  | .local _ .vmem, ⟨21, _⟩ => ⟨S1x384, .f32⟩
  | .local _ .vmem, ⟨22, _⟩ => ⟨S384x256, .f32⟩
  | .local _ .vmem, ⟨23, _⟩ => ⟨S1x256, .f32⟩
  | .local _ .vmem, ⟨24, _⟩ => ⟨S1x1024x256, .bf16⟩
  | .local _ .vmem, ⟨25, _⟩ => ⟨S1x1024x256, .bf16⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S1x2048x256, .bf16⟩
  | .local _ .vmem, ⟨31, _⟩ => ⟨S1x2048x256, .bf16⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x2048x256, .f32⟩
  | .local _ .vmem, ⟨37, _⟩ => ⟨S1x2048x256, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_cst_4 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S384x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![16, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  transposes_S384x384_S384x384_1_0 : S384x384.Transposes [1, 0] S384x384
  transposes_S256x384_S384x256_1_0 : S256x384.Transposes [1, 0] S384x256
  shapeCasts_S384_S1x384 : S384.ShapeCasts S1x384
  shapeCasts_S256_S1x256 : S256.ShapeCasts S1x256
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x3_o0_0_S1024x1 : S1024x3.Slices ![0, 0] S1024x1
  shapeCasts_S1024x1_S1024 : S1024x1.ShapeCasts S1024
  shapeCasts_S1024_S1x1024 : S1024.ShapeCasts S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S1024x3_o0_2_S1024x1 : S1024x3.Slices ![0, 2] S1024x1
  reduces_S1024x1024_S1024 : S1024x1024.Reduces [1] S1024
  shapeCasts_S1024_S1024x1 : S1024.ShapeCasts S1024x1
  bitsLt_bf16_f32 : FTy.bits .bf16 < FTy.bits .f32
  concatenates_S1024x128_S1024x256_S1024x384_d1 : Shape.Concatenates [S1024x128, S1024x256] S1024x384 1
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  inb_S1x1x384_S1x1x384_0_0_0 : ∀ a, (![0, 0, 0] : Fin 3 → Nat) a + S1x1x384.size a ≤ S1x1x384.size a
  h_S1x1x384 : 0 < S1x1x384.numel
  shapeCasts_S1x1x384_S1x384 : S1x1x384.ShapeCasts S1x384
  shapeCasts_S1x384_S1x1x384 : S1x384.ShapeCasts S1x1x384
  reduces_S1024x384_S384 : S1024x384.Reduces [0] S384
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  shapeCasts_S1024x384_S1x1024x384 : S1024x384.ShapeCasts S1x1024x384
  packedbf16_S1x1024x384_S1x1024x384_0_0_0 : (Rect.unit (s := S1x1024x384) ![0, 0, 0] S1x1024x384.size inb_S1x1024x384_S1x1024x384_0_0_0).PackedRows (EltTy.packing .bf16)
  reducesTo_S16x1x384_S1x384_d0 : S16x1x384.ReducesTo [0] S1x384
  h_S_ : 0 < S_.numel
  bcast_S_S1x384 : S_.BroadcastsInDim S1x384 (![] : Fin 0 → Fin S1x384.rank)
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reduces_S1024x256_S256 : S1024x256.Reduces [0] S256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  reducesTo_S16x1x256_S1x256_d0 : S16x1x256.ReducesTo [0] S1x256
  bcast_S_S1x256 : S_.BroadcastsInDim S1x256 (![] : Fin 0 → Fin S1x256.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  broadcasts_S1x256_S2048x256 : S1x256.Broadcasts S2048x256
  shapeCasts_S2048x256_S1x2048x256 : S2048x256.ShapeCasts S1x2048x256
  dot_S1024x1024_S1024x256_S1024x256_1_0_0_1_n_n_wf : DotDims.WF S1024x1024 S1024x256 S1024x256 [1] [0] [0] [1] [] []
  dot_S1024x384_S384x384_S1024x384_1_0_0_1_n_n_wf : DotDims.WF S1024x384 S384x384 S1024x384 [1] [0] [0] [1] [] []
  dot_S1024x384_S384x256_S1024x256_1_0_0_1_n_n_wf : DotDims.WF S1024x384 S384x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x1024x3.size a
  hwx0_0 : ∀ i : grid0.Coords, EltTy.bits .f32 = 32 ∨ (Rect.block (s := S16x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x4096x3.size a
  hwx0_1 : ∀ i : grid0.Coords, EltTy.bits .f32 = 32 ∨ (Rect.block (s := S16x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x256.size a
  hwx0_2 : ∀ i : grid0.Coords, EltTy.bits .f32 = 32 ∨ (Rect.block (s := S16x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x4096x128.size a
  hwx0_3 : ∀ i : grid0.Coords, EltTy.bits .f32 = 32 ∨ (Rect.block (s := S16x4096x128) S1x1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .f32 = 32 ∨ (Rect.block (s := S384x384) S384x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x384.size a ≤ S16x4096x384.size a
  hwx0_6 : ∀ i : grid0.Coords, EltTy.bits .bf16 = 32 ∨ (Rect.block (s := S16x4096x384) S1x1024x384.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x384.size a ≤ S16x1x384.size a
  hwx0_7 : ∀ i : grid0.Coords, EltTy.bits .f32 = 32 ∨ (Rect.block (s := S16x1x384) S1x1x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x384.size a ≤ S16x1x384.size a
  hwx0_8 : ∀ i : grid0.Coords, EltTy.bits .f32 = 32 ∨ (Rect.block (s := S16x1x384) S1x1x384.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x384.size a ≤ S16x4096x384.size a
  hwx1_0 : ∀ i : grid1.Coords, EltTy.bits .bf16 = 32 ∨ (Rect.block (s := S16x4096x384) S1x1024x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x384.size a ≤ S1x384.size a
  hwx1_1 : ∀ i : grid1.Coords, EltTy.bits .f32 = 32 ∨ (Rect.block (s := S1x384) S1x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x256.size a ≤ S384x256.size a
  hwx1_5 : ∀ i : grid1.Coords, EltTy.bits .f32 = 32 ∨ (Rect.block (s := S384x256) S384x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x256.size a ≤ S16x4096x256.size a
  hwx1_7 : ∀ i : grid1.Coords, EltTy.bits .bf16 = 32 ∨ (Rect.block (s := S16x4096x256) S1x1024x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x256.size a ≤ S16x1x256.size a
  hwx1_8 : ∀ i : grid1.Coords, EltTy.bits .f32 = 32 ∨ (Rect.block (s := S16x1x256) S1x1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x256.size a ≤ S16x1x256.size a
  hwx1_9 : ∀ i : grid1.Coords, EltTy.bits .f32 = 32 ∨ (Rect.block (s := S16x1x256) S1x1x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x256.size a ≤ S16x4096x256.size a
  hwx2_0 : ∀ i : grid2.Coords, EltTy.bits .bf16 = 32 ∨ (Rect.block (s := S16x4096x256) S1x2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x256.size a ≤ S16x4096x256.size a
  hwx2_5 : ∀ i : grid2.Coords, EltTy.bits .f32 = 32 ∨ (Rect.block (s := S16x4096x256) S1x2048x256.size (cc2_transform_5 i) (hinb2_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1x1024x384.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1x1x384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_2) S1x1x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8_0) S1x1024x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S384x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S1x1024x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S1x1x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v19_2) S1x1x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v19_0) S1x2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x1024x3 : Shape := ⟨3, ![16, 1024, 3]⟩
abbrev S16x4096x3 : Shape := ⟨3, ![16, 4096, 3]⟩
abbrev S16x1024x256 : Shape := ⟨3, ![16, 1024, 256]⟩
abbrev S16x4096x128 : Shape := ⟨3, ![16, 4096, 128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩
abbrev S16x4096 : Shape := ⟨2, ![16, 4096]⟩
abbrev S16x1024 : Shape := ⟨2, ![16, 1024]⟩
abbrev S16x4096x1024 : Shape := ⟨3, ![16, 4096, 1024]⟩
abbrev S16x4096x1 : Shape := ⟨3, ![16, 4096, 1]⟩
abbrev S16x1x1024 : Shape := ⟨3, ![16, 1, 1024]⟩
abbrev S16x4096x256 : Shape := ⟨3, ![16, 4096, 256]⟩
abbrev S16x4096x384 : Shape := ⟨3, ![16, 4096, 384]⟩
abbrev S1x1x384 : Shape := ⟨3, ![1, 1, 384]⟩
abbrev S1x1x256 : Shape := ⟨3, ![1, 1, 256]⟩

abbrev nBuf : Space → Nat
  | .hbm => 110
  | .vmem => 0
  | .smem => 0
  | _ => 0

abbrev bufTy : (tb : Table) → Fin (tcTables nBuf tb) → BufTy
  | .hbm, ⟨0, _⟩ => ⟨S16x1024x3, .f32⟩
  | .hbm, ⟨1, _⟩ => ⟨S16x4096x3, .f32⟩
  | .hbm, ⟨2, _⟩ => ⟨S16x1024x256, .f32⟩
  | .hbm, ⟨3, _⟩ => ⟨S16x4096x128, .f32⟩
  | .hbm, ⟨4, _⟩ => ⟨S384x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S256x384, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S16x4096x3, .f32⟩
  | .hbm, ⟨13, _⟩ => ⟨S_, .f32⟩
  | .hbm, ⟨14, _⟩ => ⟨S16x4096, .f32⟩
  | .hbm, ⟨15, _⟩ => ⟨S16x1024x3, .f32⟩
  | .hbm, ⟨16, _⟩ => ⟨S_, .f32⟩
  | .hbm, ⟨17, _⟩ => ⟨S16x1024, .f32⟩
  | .hbm, ⟨18, _⟩ => ⟨S16x4096x1024, .f32⟩
  | .hbm, ⟨19, _⟩ => ⟨S16x4096x1, .f32⟩
  | .hbm, ⟨20, _⟩ => ⟨S16x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S16x4096x256, .f32⟩
  | .hbm, ⟨40, _⟩ => ⟨S16x4096x384, .f32⟩
  | .hbm, ⟨41, _⟩ => ⟨S16x4096x384, .f32⟩
  | .hbm, ⟨42, _⟩ => ⟨S1x1x384, .f32⟩
  | .hbm, ⟨43, _⟩ => ⟨S16x4096x384, .f32⟩
  | .hbm, ⟨44, _⟩ => ⟨S16x4096x384, .f32⟩
  | .hbm, ⟨45, _⟩ => ⟨S_, .f32⟩
  | .hbm, ⟨46, _⟩ => ⟨S384, .f32⟩
  | .hbm, ⟨47, _⟩ => ⟨S1x1x384, .f32⟩
  | .hbm, ⟨48, _⟩ => ⟨S_, .f32⟩
  | .hbm, ⟨49, _⟩ => ⟨S1x1x384, .f32⟩
  | .hbm, ⟨50, _⟩ => ⟨S1x1x384, .f32⟩
  | .hbm, ⟨51, _⟩ => ⟨S16x4096x384, .f32⟩
  | .hbm, ⟨52, _⟩ => ⟨S16x4096x384, .f32⟩
  | .hbm, ⟨53, _⟩ => ⟨S16x4096x384, .f32⟩
  | .hbm, ⟨54, _⟩ => ⟨S_, .f32⟩
  | .hbm, ⟨55, _⟩ => ⟨S384, .f32⟩
  | .hbm, ⟨56, _⟩ => ⟨S1x1x384, .f32⟩
  | .hbm, ⟨57, _⟩ => ⟨S_, .f32⟩
  | .hbm, ⟨58, _⟩ => ⟨S1x1x384, .f32⟩
  | .hbm, ⟨59, _⟩ => ⟨S1x1x384, .f32⟩
  | .hbm, ⟨60, _⟩ => ⟨S16x4096x384, .f32⟩
  | .hbm, ⟨61, _⟩ => ⟨S16x4096x384, .f32⟩
  | .hbm, ⟨62, _⟩ => ⟨S_, .f32⟩
  | .hbm, ⟨63, _⟩ => ⟨S1x1x384, .f32⟩
  | .hbm, ⟨64, _⟩ => ⟨S1x1x384, .f32⟩
  | .hbm, ⟨65, _⟩ => ⟨S1x1x384, .f32⟩
  | .hbm, ⟨66, _⟩ => ⟨S16x4096x384, .f32⟩
  | .hbm, ⟨67, _⟩ => ⟨S16x4096x384, .f32⟩
  | .hbm, ⟨68, _⟩ => ⟨S1x1x384, .f32⟩
  | .hbm, ⟨69, _⟩ => ⟨S16x4096x384, .f32⟩
  | .hbm, ⟨70, _⟩ => ⟨S16x4096x384, .f32⟩
  | .hbm, ⟨71, _⟩ => ⟨S1x1x384, .f32⟩
  | .hbm, ⟨72, _⟩ => ⟨S16x4096x384, .f32⟩
  | .hbm, ⟨73, _⟩ => ⟨S16x4096x384, .f32⟩
  | .hbm, ⟨74, _⟩ => ⟨S_, .f32⟩
  | .hbm, ⟨75, _⟩ => ⟨S16x4096x384, .f32⟩
  | .hbm, ⟨76, _⟩ => ⟨S16x4096x384, .f32⟩
  | .hbm, ⟨77, _⟩ => ⟨S16x4096x256, .f32⟩
  | .hbm, ⟨78, _⟩ => ⟨S1x1x256, .f32⟩
  | .hbm, ⟨79, _⟩ => ⟨S16x4096x256, .f32⟩
  | .hbm, ⟨80, _⟩ => ⟨S16x4096x256, .f32⟩
  | .hbm, ⟨81, _⟩ => ⟨S_, .f32⟩
  | .hbm, ⟨82, _⟩ => ⟨S256, .f32⟩
  | .hbm, ⟨83, _⟩ => ⟨S1x1x256, .f32⟩
  | .hbm, ⟨84, _⟩ => ⟨S_, .f32⟩
  | .hbm, ⟨85, _⟩ => ⟨S1x1x256, .f32⟩
  | .hbm, ⟨86, _⟩ => ⟨S1x1x256, .f32⟩
  | .hbm, ⟨87, _⟩ => ⟨S16x4096x256, .f32⟩
  | .hbm, ⟨88, _⟩ => ⟨S16x4096x256, .f32⟩
  | .hbm, ⟨89, _⟩ => ⟨S16x4096x256, .f32⟩
  | .hbm, ⟨90, _⟩ => ⟨S_, .f32⟩
  | .hbm, ⟨91, _⟩ => ⟨S256, .f32⟩
  | .hbm, ⟨92, _⟩ => ⟨S1x1x256, .f32⟩
  | .hbm, ⟨93, _⟩ => ⟨S_, .f32⟩
  | .hbm, ⟨94, _⟩ => ⟨S1x1x256, .f32⟩
  | .hbm, ⟨95, _⟩ => ⟨S1x1x256, .f32⟩
  | .hbm, ⟨96, _⟩ => ⟨S16x4096x256, .f32⟩
  | .hbm, ⟨97, _⟩ => ⟨S16x4096x256, .f32⟩
  | .hbm, ⟨98, _⟩ => ⟨S_, .f32⟩
  | .hbm, ⟨99, _⟩ => ⟨S1x1x256, .f32⟩
  | .hbm, ⟨100, _⟩ => ⟨S1x1x256, .f32⟩
  | .hbm, ⟨101, _⟩ => ⟨S1x1x256, .f32⟩
  | .hbm, ⟨102, _⟩ => ⟨S16x4096x256, .f32⟩
  | .hbm, ⟨103, _⟩ => ⟨S16x4096x256, .f32⟩
  | .hbm, ⟨104, _⟩ => ⟨S1x1x256, .f32⟩
  | .hbm, ⟨105, _⟩ => ⟨S16x4096x256, .f32⟩
  | .hbm, ⟨106, _⟩ => ⟨S16x4096x256, .f32⟩
  | .hbm, ⟨107, _⟩ => ⟨S1x1x256, .f32⟩
  | .hbm, ⟨108, _⟩ => ⟨S16x4096x256, .f32⟩
  | .hbm, ⟨109, _⟩ => ⟨S16x4096x256, .f32⟩
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call0_cst : Ref sig .tc := ⟨.hbm, 74, rfl⟩
abbrev main_call0_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  reducesTo_S16x1024x3_S16x1024_d2 : S16x1024x3.ReducesTo [2] S16x1024
  bcast_S16x4096_S16x4096x1_0_1 : S16x4096.BroadcastsInDim S16x4096x1 (![0, 1] : Fin 2 → Fin S16x4096x1.rank)
  bcast_S16x1024_S16x1x1024_0_2 : S16x1024.BroadcastsInDim S16x1x1024 (![0, 2] : Fin 2 → Fin S16x1x1024.rank)
  bcast_S16x4096x1_S16x4096x1024_0_1_2 : S16x4096x1.BroadcastsInDim S16x4096x1024 (![0, 1, 2] : Fin 3 → Fin S16x4096x1024.rank)
  bcast_S16x1x1024_S16x4096x1024_0_1_2 : S16x1x1024.BroadcastsInDim S16x4096x1024 (![0, 1, 2] : Fin 3 → Fin S16x4096x1024.rank)
  bcast_S_S16x4096x1024 : S_.BroadcastsInDim S16x4096x1024 (![] : Fin 0 → Fin S16x4096x1024.rank)
  reducesTo_S16x4096x1024_S16x4096_d2 : S16x4096x1024.ReducesTo [2] S16x4096
  concatenates_S16x4096x128_S16x4096x256_S16x4096x384_d2 : Shape.Concatenates [S16x4096x128, S16x4096x256] S16x4096x384 2
  bcast_S384_S1x1x384_2 : S384.BroadcastsInDim S1x1x384 (![2] : Fin 1 → Fin S1x1x384.rank)
  bcast_S1x1x384_S16x4096x384_0_1_2 : S1x1x384.BroadcastsInDim S16x4096x384 (![0, 1, 2] : Fin 3 → Fin S16x4096x384.rank)
  reducesTo_S16x4096x384_S384_d0_1 : S16x4096x384.ReducesTo [0, 1] S384
  bcast_S_S1x1x384 : S_.BroadcastsInDim S1x1x384 (![] : Fin 0 → Fin S1x1x384.rank)
  bcast_S_S16x4096x384 : S_.BroadcastsInDim S16x4096x384 (![] : Fin 0 → Fin S16x4096x384.rank)
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  reducesTo_S16x4096x256_S256_d0_1 : S16x4096x256.ReducesTo [0, 1] S256
  bcast_S_S1x1x256 : S_.BroadcastsInDim S1x1x256 (![] : Fin 0 → Fin S1x1x256.rank)
  dot_S16x4096x3_S16x1024x3_S16x4096x1024_2_2_1_1_0_0_wf : DotDims.WF S16x4096x3 S16x1024x3 S16x4096x1024 [2] [2] [1] [1] [0] [0]
  dot_S16x4096x1024_S16x1024x256_S16x4096x256_2_1_1_2_0_0_wf : DotDims.WF S16x4096x1024 S16x1024x256 S16x4096x256 [2] [1] [1] [2] [0] [0]
  dot_S16x4096x384_S384x384_S16x4096x384_2_1_01_0_n_n_wf : DotDims.WF S16x4096x384 S384x384 S16x4096x384 [2] [1] [0, 1] [0] [] []
  dot_S16x4096x384_S256x384_S16x4096x256_2_1_01_0_n_n_wf : DotDims.WF S16x4096x384 S256x384 S16x4096x256 [2] [1] [0, 1] [0] [] []

variable [Facts₀]

def dot_S16x4096x3_S16x1024x3_S16x4096x1024_2_2_1_1_0_0 : DotDims S16x4096x3 S16x1024x3 S16x4096x1024 where
  lhsContracting := [2]
  rhsContracting := [2]
  lhsNonContracting := [1]
  rhsNonContracting := [1]
  lhsBatch := [0]
  rhsBatch := [0]
  wf := dot_S16x4096x3_S16x1024x3_S16x4096x1024_2_2_1_1_0_0_wf
def dot_S16x4096x1024_S16x1024x256_S16x4096x256_2_1_1_2_0_0 : DotDims S16x4096x1024 S16x1024x256 S16x4096x256 where
  lhsContracting := [2]
  rhsContracting := [1]
  lhsNonContracting := [1]
  rhsNonContracting := [2]
  lhsBatch := [0]
  rhsBatch := [0]
  wf := dot_S16x4096x1024_S16x1024x256_S16x4096x256_2_1_1_2_0_0_wf
def dot_S16x4096x384_S384x384_S16x4096x384_2_1_01_0_n_n : DotDims S16x4096x384 S384x384 S16x4096x384 where
  lhsContracting := [2]
  rhsContracting := [1]
  lhsNonContracting := [0, 1]
  rhsNonContracting := [0]
  lhsBatch := []
  rhsBatch := []
  wf := dot_S16x4096x384_S384x384_S16x4096x384_2_1_01_0_n_n_wf
def dot_S16x4096x384_S256x384_S16x4096x256_2_1_01_0_n_n : DotDims S16x4096x384 S256x384 S16x4096x256 where
  lhsContracting := [2]
  rhsContracting := [1]
  lhsNonContracting := [0, 1]
  rhsNonContracting := [0]
  lhsBatch := []
  rhsBatch := []
  wf := dot_S16x4096x384_S256x384_S16x4096x256_2_1_01_0_n_n_wf

class Facts : Prop extends Facts₀ where

variable [Facts]
-- ==== Proof.Spec.lean ====
/-
  The mathematics both programs compute, written once over the extended reals, index by index.

  A point cloud is upsampled by inverse-distance weights, joined with the fine features, and sent
  through two per-point linear layers, each followed by a batch normalisation over all 16 · 4096
  points (the first one also by a rectifier).  Every stage below is a function of the arrays it
  reads; the stages that the two programs spell differently (the squared distance, and the
  variance) are parameters, so that both programs are instances of the SAME chain.
-/
import Idealize.ShloMosaic.PureOps.Ideal
import Idealize.ShloMosaic.PureOps.Ideal.Laws
import Idealize.ShloMosaic.Lib.ValueIdx

noncomputable section

open scoped BigOperators

namespace Spec

open Idealize.ShloMosaic Idealize.ShloMosaic.ValueIdx

/-- Arrays of rank 3, 2 and 1 with literal extents, over the extended reals. -/
abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

/-- The literals of the two programs (the same words on both sides): 1e-8, 1, 1e-5, 65536, 2. -/
abbrev eps8 : EReal := Ideal.ofBits .f32 0x322BCC77#32
abbrev one : EReal := Ideal.ofBits .f32 0x3F800000#32
abbrev eps5 : EReal := Ideal.ofBits .f32 0x3727C5AC#32
abbrev cnt : EReal := Ideal.ofBits .f32 0x47800000#32
abbrev two : EReal := Ideal.ofBits .f32 0x40000000#32

/-! ## The squared distance, in its two spellings -/

/-- Sum of squared coordinate differences between fine point n and coarse point m of cloud b. -/
def distK (xd : A3 16 1024 3) (xu : A3 16 4096 3) (b : Fin 16) (n : Fin 4096) (m : Fin 1024) : EReal :=
  (xu (ix3 b n 0) - xd (ix3 b m 0)) * (xu (ix3 b n 0) - xd (ix3 b m 0))
    + (xu (ix3 b n 1) - xd (ix3 b m 1)) * (xu (ix3 b n 1) - xd (ix3 b m 1))
    + (xu (ix3 b n 2) - xd (ix3 b m 2)) * (xu (ix3 b n 2) - xd (ix3 b m 2))

/-- The same by the polarisation identity: |u|² + |d|² - 2 u·d. -/
def distR (xd : A3 16 1024 3) (xu : A3 16 4096 3) (b : Fin 16) (n : Fin 4096) (m : Fin 1024) : EReal :=
  ((∑ k : Fin 3, xu (ix3 b n k) * xu (ix3 b n k)) + (∑ k : Fin 3, xd (ix3 b m k) * xd (ix3 b m k)))
    - two * (∑ k : Fin 3, xu (ix3 b n k) * xd (ix3 b m k))

/-! ## From a distance to the first linear layer -/

section chain
variable (D : Fin 16 → Fin 4096 → Fin 1024 → EReal)

/-- Inverse distance, regularised. -/
def recip (b : Fin 16) (n : Fin 4096) (m : Fin 1024) : EReal := Ideal.div one (D b n m + eps8)

/-- The normaliser of the weights of fine point n. -/
def denom (b : Fin 16) (n : Fin 4096) : EReal := ∑ m : Fin 1024, recip D b n m

/-- Interpolation weight of coarse point m for fine point n. -/
def weight (b : Fin 16) (n : Fin 4096) (m : Fin 1024) : EReal := Ideal.div (recip D b n m) (denom D b n)

/-- Coarse features interpolated at fine point n. -/
def interp (fd : A3 16 1024 256) (b : Fin 16) (n : Fin 4096) (d : Fin 256) : EReal :=
  ∑ m : Fin 1024, weight D b n m * fd (ix3 b m d)

/-- Fine features (first 128 channels) joined with the interpolated ones (next 256). -/
def xcat (fd : A3 16 1024 256) (fu : A3 16 4096 128) (b : Fin 16) (n : Fin 4096) (j : Fin 384) : EReal :=
  if h : j.val < 128 then fu (ix3 b n ⟨j.val, h⟩)
  else interp D fd b n ⟨j.val - 128, by have := j.isLt; omega⟩

/-- The first linear layer; `w` is read as (input channel, output channel). -/
def lin1 (fd : A3 16 1024 256) (fu : A3 16 4096 128) (w : Fin 384 → Fin 384 → EReal) (bias : Fin 384 → EReal)
    (b : Fin 16) (n : Fin 4096) (o : Fin 384) : EReal :=
  (∑ j : Fin 384, xcat D fd fu b n j * w j o) + bias o

end chain

/-! ## Batch statistics over all points, normalisation, second layer -/

/-- Sum over the points of cloud b, then over the clouds. -/
def total {C : Nat} (h : Fin 16 → Fin 4096 → Fin C → EReal) (o : Fin C) : EReal := ∑ b : Fin 16, ∑ n : Fin 4096, h b n o

/-- The mean over all 65536 points. -/
def mean {C : Nat} (h : Fin 16 → Fin 4096 → Fin C → EReal) (o : Fin C) : EReal := Ideal.div (total h o) cnt

/-- Variance as mean of squares minus squared mean, clipped at zero. -/
def varK {C : Nat} (h : Fin 16 → Fin 4096 → Fin C → EReal) (o : Fin C) : EReal :=
  max (Ideal.div (total (fun b n o => h b n o * h b n o) o) cnt - mean h o * mean h o) 0

/-- Variance as mean squared deviation. -/
def varR {C : Nat} (h : Fin 16 → Fin 4096 → Fin C → EReal) (o : Fin C) : EReal :=
  Ideal.div (total (fun b n o => (h b n o - mean h o) * (h b n o - mean h o)) o) cnt

/-- Normalise, scale and shift one entry. -/
def norm1 (x mu var g be : EReal) : EReal := (x - mu) * Ideal.rsqrt (var + eps5) * g + be

/-- The second linear layer on rectified inputs; `w` is read as (input channel, output channel). -/
def lin2 (a : Fin 16 → Fin 4096 → Fin 384 → EReal) (w : Fin 384 → Fin 256 → EReal) (bias : Fin 256 → EReal)
    (b : Fin 16) (n : Fin 4096) (o : Fin 256) : EReal :=
  (∑ j : Fin 384, a b n j * w j o) + bias o

/-! ## The whole map, with the distance and the variance as parameters -/

section whole
variable (D : Fin 16 → Fin 4096 → Fin 1024 → EReal)
variable (var1 : (Fin 16 → Fin 4096 → Fin 384 → EReal) → Fin 384 → EReal)
variable (var2 : (Fin 16 → Fin 4096 → Fin 256 → EReal) → Fin 256 → EReal)
variable (fd : A3 16 1024 256) (fu : A3 16 4096 128) (W1 : A2 384 384) (b1 g1 be1 : A1 384)
  (W2 : A2 256 384) (b2 g2 be2 : A1 256)

/-- First layer before normalisation. -/
def H1 : Fin 16 → Fin 4096 → Fin 384 → EReal :=
  lin1 D fd fu (fun j o => W1 (ix2 o j)) (fun o => b1 (ix1 o))

/-- First layer normalised and rectified. -/
def A1' : Fin 16 → Fin 4096 → Fin 384 → EReal := fun b n j =>
  max (norm1 (H1 D fd fu W1 b1 b n j) (mean (H1 D fd fu W1 b1) j) (var1 (H1 D fd fu W1 b1) j) (g1 (ix1 j)) (be1 (ix1 j))) 0

/-- Second layer before normalisation. -/
def H2 : Fin 16 → Fin 4096 → Fin 256 → EReal :=
  lin2 (A1' D var1 fd fu W1 b1 g1 be1) (fun j o => W2 (ix2 o j)) (fun o => b2 (ix1 o))

/-- The result. -/
def OUT : A3 16 4096 256 := fun i =>
  norm1 (H2 D var1 fd fu W1 b1 g1 be1 W2 b2 ⟨(i 0).val, (i 0).isLt⟩ ⟨(i 1).val, (i 1).isLt⟩ ⟨(i 2).val, (i 2).isLt⟩)
    (mean (H2 D var1 fd fu W1 b1 g1 be1 W2 b2) ⟨(i 2).val, (i 2).isLt⟩)
    (var2 (H2 D var1 fd fu W1 b1 g1 be1 W2 b2) ⟨(i 2).val, (i 2).isLt⟩)
    (g2 (ix1 ⟨(i 2).val, (i 2).isLt⟩)) (be2 (ix1 ⟨(i 2).val, (i 2).isLt⟩))

end whole

end Spec

end
-- ==== Proof.MathLit.lean ====
/-
  The literals of the chain as real numbers: one, two and the point count are the reals
  1, 2 and 65536; the two regularisers are positive reals.
-/
import proofs.«113022_j46755013984985_2_alg».proof.Proof.Spec

noncomputable section

namespace Spec

open Idealize.ShloMosaic

/-- The literal one is the real 1. -/
theorem one_eq : one = ((1 : ℝ) : EReal) := by
  simp [one, Ideal.ofBits, Ideal.ieee, -EReal.coe_mul]; norm_num

/-- The literal two is the real 2. -/
theorem two_eq : two = ((2 : ℝ) : EReal) := by
  simp [two, Ideal.ofBits, Ideal.ieee, -EReal.coe_mul]; norm_num

/-- The point count is the real 65536. -/
theorem cnt_eq : cnt = ((65536 : ℝ) : EReal) := by
  simp [cnt, Ideal.ofBits, Ideal.ieee, -EReal.coe_mul]; norm_num

/-- The distance regulariser is a positive real. -/
theorem eps8_pos : ∃ e : ℝ, 0 < e ∧ eps8 = (e : EReal) := by
  refine ⟨_, ?_, by simp [eps8, Ideal.ofBits, Ideal.ieee, -EReal.coe_mul]; rfl⟩
  positivity

/-- The variance regulariser is a positive real. -/
theorem eps5_pos : ∃ e : ℝ, 0 < e ∧ eps5 = (e : EReal) := by
  refine ⟨_, ?_, by simp [eps5, Ideal.ofBits, Ideal.ieee, -EReal.coe_mul]; rfl⟩
  positivity

end Spec

end
-- ==== Proof.MathReal.lean ====
/-
  Extended reals that are real numbers: the predicates "is a real", "is a real ≥ 0",
  "is a real > 0", and their closure under the operations of the chain (sums, products,
  maxima, finite sums, division by a positive real, reciprocal square root of a positive real).
-/
import proofs.«113022_j46755013984985_2_alg».proof.Proof.Spec

noncomputable section

open scoped BigOperators

namespace Spec

open Idealize.ShloMosaic

/-- x is (the image of) a real number. -/
def IsReal (x : EReal) : Prop := ∃ r : ℝ, x = (r : EReal)
/-- x is a real number ≥ 0. -/
def IsNonneg (x : EReal) : Prop := ∃ r : ℝ, 0 ≤ r ∧ x = (r : EReal)
/-- x is a real number > 0. -/
def IsPos (x : EReal) : Prop := ∃ r : ℝ, 0 < r ∧ x = (r : EReal)

theorem IsPos.isNonneg {x : EReal} (h : IsPos x) : IsNonneg x := by
  obtain ⟨r, hr, rfl⟩ := h; exact ⟨r, hr.le, rfl⟩
theorem IsNonneg.isReal {x : EReal} (h : IsNonneg x) : IsReal x := by
  obtain ⟨r, _, rfl⟩ := h; exact ⟨r, rfl⟩
theorem IsPos.isReal {x : EReal} (h : IsPos x) : IsReal x := h.isNonneg.isReal

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem isReal_max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isNonneg_mul_self {x : EReal} (hx : IsReal x) : IsNonneg (x * x) := by
  obtain ⟨a, rfl⟩ := hx; exact ⟨a * a, mul_self_nonneg a, (EReal.coe_mul a a).symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

theorem IsPos.add {x y : EReal} (hx : IsPos x) (hy : IsPos y) : IsPos (x + y) := hx.isNonneg.add_pos hy

/-- The maximum of a real with zero is a real ≥ 0. -/
theorem isNonneg_max_zero {x : EReal} (hx : IsReal x) : IsNonneg (max x 0) := by
  obtain ⟨a, rfl⟩ := hx
  refine ⟨max a 0, le_max_right a 0, ?_⟩
  rcases le_total a 0 with h | h
  · rw [max_eq_right h, max_eq_right (by exact_mod_cast h)]; rfl
  · rw [max_eq_left h, max_eq_left (by exact_mod_cast h)]

/-- A finite nonempty sum of positive reals is a positive real. -/
theorem IsPos.sum {ι : Type} (s : Finset ι) (hs : s.Nonempty) (f : ι → EReal) (h : ∀ i ∈ s, IsPos (f i)) :
    IsPos (∑ i ∈ s, f i) := by
  classical
  induction hs using Finset.Nonempty.cons_induction with
  | singleton a => simpa using h a (by simp)
  | cons a s ha hs ih =>
    rw [Finset.sum_cons]
    exact (h a (Finset.mem_cons_self a s)).add (ih fun i hi => h i (Finset.mem_cons.2 (Or.inr hi)))

/-- Division by a positive real is multiplication by its inverse. -/
theorem div_pos_eq {x : EReal} {b : ℝ} (hb : 0 < b) : Ideal.div x (b : EReal) = x * ((b⁻¹ : ℝ) : EReal) := by
  rw [Ideal.div_coe hb.ne', one_div]

theorem IsReal.div {x y : EReal} (hx : IsReal x) (hy : IsPos y) : IsReal (Ideal.div x y) := by
  obtain ⟨a, rfl⟩ := hx; obtain ⟨b, hb, rfl⟩ := hy
  rw [div_pos_eq hb]; exact ⟨a * b⁻¹, (EReal.coe_mul a b⁻¹).symm⟩

theorem IsPos.div {x y : EReal} (hx : IsPos x) (hy : IsPos y) : IsPos (Ideal.div x y) := by
  obtain ⟨a, ha, rfl⟩ := hx; obtain ⟨b, hb, rfl⟩ := hy
  rw [div_pos_eq hb]; exact ⟨a * b⁻¹, mul_pos ha (inv_pos.2 hb), (EReal.coe_mul a b⁻¹).symm⟩

/-- The reciprocal square root of a positive real is a real. -/
theorem IsPos.rsqrt {x : EReal} (hx : IsPos x) : IsReal (Ideal.rsqrt x) := by
  obtain ⟨a, ha, rfl⟩ := hx
  rw [Ideal.rsqrt_coe, if_neg (not_lt.2 ha.le), if_neg ha.ne']
  exact ⟨_, rfl⟩

end Spec

end
-- ==== Proof.MathDist.lean ====
/-
  The squared distance in its two spellings.  For real coordinates
      (u0-d0)² + (u1-d1)² + (u2-d2)² = (Σ u_k² + Σ d_k²) - 2 · Σ u_k d_k,
  and the left-hand side is a real ≥ 0.
-/
import proofs.«113022_j46755013984985_2_alg».proof.Proof.MathLit
import proofs.«113022_j46755013984985_2_alg».proof.Proof.MathReal

noncomputable section

open scoped BigOperators

namespace Spec

open Idealize.ShloMosaic Idealize.ShloMosaic.ValueIdx

variable (xd : A3 16 1024 3) (xu : A3 16 4096 3)

/-- The polarisation identity at real coordinates. -/
theorem distK_eq_distR (hxd : ∀ i, IsReal (xd i)) (hxu : ∀ i, IsReal (xu i))
    (b : Fin 16) (n : Fin 4096) (m : Fin 1024) : distK xd xu b n m = distR xd xu b n m := by
  unfold distK distR
  rw [Fin.sum_univ_three, Fin.sum_univ_three, Fin.sum_univ_three, two_eq]
  obtain ⟨u0, h0⟩ := hxu (ix3 b n 0)
  obtain ⟨u1, h1⟩ := hxu (ix3 b n 1)
  obtain ⟨u2, h2⟩ := hxu (ix3 b n 2)
  obtain ⟨d0, k0⟩ := hxd (ix3 b m 0)
  obtain ⟨d1, k1⟩ := hxd (ix3 b m 1)
  obtain ⟨d2, k2⟩ := hxd (ix3 b m 2)
  rw [h0, h1, h2, k0, k1, k2]
  simp only [← EReal.coe_mul, ← EReal.coe_add, ← EReal.coe_sub]
  rw [EReal.coe_eq_coe_iff]
  ring

/-- The squared distance of real points is a real ≥ 0. -/
theorem distK_nonneg (hxd : ∀ i, IsReal (xd i)) (hxu : ∀ i, IsReal (xu i))
    (b : Fin 16) (n : Fin 4096) (m : Fin 1024) : IsNonneg (distK xd xu b n m) := by
  unfold distK
  exact ((isNonneg_mul_self ((hxu _).sub (hxd _))).add (isNonneg_mul_self ((hxu _).sub (hxd _)))).add
    (isNonneg_mul_self ((hxu _).sub (hxd _)))

end Spec

end
-- ==== Proof.MathChain.lean ====
/-
  Every stage of the chain is real-valued when its inputs are: the regularised inverse distances
  are positive reals, so the weights are reals; sums, products and maxima of reals are reals; the
  clipped variance is a real ≥ 0, so the reciprocal square root of (variance + regulariser) is a real.
-/
import proofs.«113022_j46755013984985_2_alg».proof.Proof.MathLit
import proofs.«113022_j46755013984985_2_alg».proof.Proof.MathReal

noncomputable section

open scoped BigOperators

namespace Spec

open Idealize.ShloMosaic Idealize.ShloMosaic.ValueIdx

theorem one_isPos : IsPos one := ⟨1, one_pos, one_eq⟩
theorem cnt_isPos : IsPos cnt := ⟨65536, by norm_num, cnt_eq⟩

section chain
variable (D : Fin 16 → Fin 4096 → Fin 1024 → EReal) (hD : ∀ b n m, IsNonneg (D b n m))
include hD

theorem recip_pos (b : Fin 16) (n : Fin 4096) (m : Fin 1024) : IsPos (recip D b n m) := by
  unfold recip
  obtain ⟨e, he, h8⟩ := eps8_pos
  exact one_isPos.div ((hD b n m).add_pos ⟨e, he, h8⟩)

theorem denom_pos (b : Fin 16) (n : Fin 4096) : IsPos (denom D b n) := by
  unfold denom
  exact IsPos.sum _ ⟨0, Finset.mem_univ _⟩ _ fun m _ => recip_pos D hD b n m

theorem weight_real (b : Fin 16) (n : Fin 4096) (m : Fin 1024) : IsReal (weight D b n m) :=
  (recip_pos D hD b n m).isReal.div (denom_pos D hD b n)

variable (fd : A3 16 1024 256) (fu : A3 16 4096 128) (hfd : ∀ i, IsReal (fd i)) (hfu : ∀ i, IsReal (fu i))
include hfd

theorem interp_real (b : Fin 16) (n : Fin 4096) (d : Fin 256) : IsReal (interp D fd b n d) :=
  IsReal.sum _ _ fun m _ => (weight_real D hD b n m).mul (hfd _)

include hfu

theorem xcat_real (b : Fin 16) (n : Fin 4096) (j : Fin 384) : IsReal (xcat D fd fu b n j) := by
  unfold xcat
  split
  · exact hfu _
  · exact interp_real D hD fd hfd b n _

theorem lin1_real (w : Fin 384 → Fin 384 → EReal) (bias : Fin 384 → EReal)
    (hw : ∀ j o, IsReal (w j o)) (hb : ∀ o, IsReal (bias o))
    (b : Fin 16) (n : Fin 4096) (o : Fin 384) : IsReal (lin1 D fd fu w bias b n o) :=
  (IsReal.sum _ _ fun j _ => (xcat_real D hD fd fu hfd hfu b n j).mul (hw j o)).add (hb o)

end chain

section stats
variable {C : Nat} (h : Fin 16 → Fin 4096 → Fin C → EReal) (hr : ∀ b n o, IsReal (h b n o))
include hr

theorem total_real (o : Fin C) : IsReal (total h o) :=
  IsReal.sum _ _ fun b _ => IsReal.sum _ _ fun n _ => hr b n o

theorem mean_real (o : Fin C) : IsReal (mean h o) := (total_real h hr o).div cnt_isPos

theorem varK_nonneg (o : Fin C) : IsNonneg (varK h o) := by
  unfold varK
  refine isNonneg_max_zero (IsReal.sub ?_ ((mean_real h hr o).mul (mean_real h hr o)))
  exact (total_real (fun b n o => h b n o * h b n o) (fun b n o => (hr b n o).mul (hr b n o)) o).div cnt_isPos

end stats

theorem norm1_real {x mu var g be : EReal} (hx : IsReal x) (hmu : IsReal mu) (hvar : IsNonneg var)
    (hg : IsReal g) (hbe : IsReal be) : IsReal (norm1 x mu var g be) := by
  unfold norm1
  obtain ⟨e, he, h5⟩ := eps5_pos
  exact (((hx.sub hmu).mul (hvar.add_pos ⟨e, he, h5⟩).rsqrt).mul hg).add hbe

theorem lin2_real (a : Fin 16 → Fin 4096 → Fin 384 → EReal) (w : Fin 384 → Fin 256 → EReal) (bias : Fin 256 → EReal)
    (ha : ∀ b n j, IsReal (a b n j)) (hw : ∀ j o, IsReal (w j o)) (hb : ∀ o, IsReal (bias o))
    (b : Fin 16) (n : Fin 4096) (o : Fin 256) : IsReal (lin2 a w bias b n o) :=
  (IsReal.sum _ _ fun j _ => (ha b n j).mul (hw j o)).add (hb o)

section whole
variable (D : Fin 16 → Fin 4096 → Fin 1024 → EReal) (hD : ∀ b n m, IsNonneg (D b n m))
variable (fd : A3 16 1024 256) (fu : A3 16 4096 128) (W1 : A2 384 384) (b1 g1 be1 : A1 384)
  (W2 : A2 256 384) (b2 : A1 256)
variable (hfd : ∀ i, IsReal (fd i)) (hfu : ∀ i, IsReal (fu i)) (hW1 : ∀ i, IsReal (W1 i)) (hb1 : ∀ i, IsReal (b1 i))
include hD hfd hfu hW1 hb1

/-- The first layer is real-valued. -/
theorem H1_real (b : Fin 16) (n : Fin 4096) (o : Fin 384) : IsReal (H1 D fd fu W1 b1 b n o) :=
  lin1_real D hD fd fu hfd hfu _ _ (fun _ _ => hW1 _) (fun _ => hb1 _) b n o

variable (hg1 : ∀ i, IsReal (g1 i)) (hbe1 : ∀ i, IsReal (be1 i))
include hg1 hbe1

/-- The first layer, normalised with the clipped variance and rectified, is real-valued. -/
theorem A1'_real (b : Fin 16) (n : Fin 4096) (j : Fin 384) : IsReal (A1' D varK fd fu W1 b1 g1 be1 b n j) := by
  have hH := H1_real D hD fd fu W1 b1 hfd hfu hW1 hb1
  unfold A1'
  exact isReal_max (norm1_real (hH b n j) (mean_real _ hH j) (varK_nonneg _ hH j) (hg1 _) (hbe1 _)) isReal_zero

variable (hW2 : ∀ i, IsReal (W2 i)) (hb2 : ∀ i, IsReal (b2 i))
include hW2 hb2

/-- The second layer (over the clipped variance) is real-valued. -/
theorem H2_real (b : Fin 16) (n : Fin 4096) (o : Fin 256) : IsReal (H2 D varK fd fu W1 b1 g1 be1 W2 b2 b n o) :=
  lin2_real _ _ _ (A1'_real D hD fd fu W1 b1 g1 be1 hfd hfu hW1 hb1 hg1 hbe1) (fun _ _ => hW2 _) (fun _ => hb2 _) b n o

end whole

end Spec

end
-- ==== Proof.MathVar.lean ====
/-
  The variance in its two spellings.  For a family of reals h over the 16 · 4096 points, with
  N = 65536 and μ = (Σ h)/N:
      max ((Σ h²)/N - μ², 0) = (Σ (h - μ)²)/N,
  because Σ (h - μ)² = Σ h² - 2 μ Σ h + N μ² = Σ h² - N μ², which is a sum of squares, so the
  left-hand maximum is attained by its first argument.
-/
import proofs.«113022_j46755013984985_2_alg».proof.Proof.MathLit
import proofs.«113022_j46755013984985_2_alg».proof.Proof.MathReal

noncomputable section

open scoped BigOperators

namespace Spec

open Idealize.ShloMosaic

/-- The identity over the reals, for any finite index type with N elements. -/
theorem real_var {ι : Type} [Fintype ι] (r : ι → ℝ) (N : ℝ) (hN : (Fintype.card ι : ℝ) = N) (hN0 : 0 < N) :
    max ((∑ i, r i * r i) / N - (∑ i, r i) / N * ((∑ i, r i) / N)) 0
      = (∑ i, (r i - (∑ i, r i) / N) * (r i - (∑ i, r i) / N)) / N := by
  set S := ∑ i, r i with hS
  set Q := ∑ i, r i * r i with hQ
  set μ := S / N with hμ
  have hSμ : S = N * μ := by rw [hμ]; field_simp
  have key : ∑ i, (r i - μ) * (r i - μ) = Q - N * μ * μ := by
    have e : ∀ i, (r i - μ) * (r i - μ) = r i * r i - 2 * μ * r i + μ * μ := fun i => by ring
    simp only [e]
    rw [Finset.sum_add_distrib, Finset.sum_sub_distrib, ← Finset.mul_sum, Finset.sum_const,
      Finset.card_univ, nsmul_eq_mul, hN, ← hS, ← hQ, hSμ]
    ring
  have hnn : 0 ≤ ∑ i, (r i - μ) * (r i - μ) := Finset.sum_nonneg fun i _ => mul_self_nonneg _
  rw [key] at hnn ⊢
  have e2 : Q / N - μ * μ = (Q - N * μ * μ) / N := by field_simp
  rw [e2, max_eq_left (div_nonneg hnn hN0.le)]

section ereal
variable {C : Nat}

/-- The total of a real family is the real double sum, written over the pairs (cloud, point). -/
theorem total_coe (f : Fin 16 → Fin 4096 → Fin C → ℝ) (o : Fin C) :
    total (fun b n o => (f b n o : EReal)) o = ((∑ p : Fin 16 × Fin 4096, f p.1 p.2 o : ℝ) : EReal) := by
  rw [total, Fintype.sum_prod_type, coe_sum]
  refine Finset.sum_congr rfl fun b _ => ?_
  rw [coe_sum]

/-- Division by the point count is the real division by 65536. -/
theorem div_cnt (a : ℝ) : Ideal.div (a : EReal) cnt = ((a / 65536 : ℝ) : EReal) := by
  rw [cnt_eq, div_pos_eq (by norm_num : (0 : ℝ) < 65536), ← EReal.coe_mul, div_eq_mul_inv]

/-- The mean of a real family is the real mean. -/
theorem mean_coe (f : Fin 16 → Fin 4096 → Fin C → ℝ) (o : Fin C) :
    mean (fun b n o => (f b n o : EReal)) o = (((∑ p : Fin 16 × Fin 4096, f p.1 p.2 o) / 65536 : ℝ) : EReal) := by
  rw [mean, total_coe, div_cnt]

/-- On a family of reals the two variances agree. -/
theorem varK_eq_varR (h : Fin 16 → Fin 4096 → Fin C → EReal) (hr : ∀ b n o, IsReal (h b n o)) (o : Fin C) :
    varK h o = varR h o := by
  choose r hr using hr
  obtain rfl : h = fun b n o => (r b n o : EReal) := by funext b n o; exact hr b n o
  have eK : (fun b n o => ((r b n o : ℝ) : EReal) * (r b n o : EReal))
      = fun b n o => ((r b n o * r b n o : ℝ) : EReal) := by
    funext b n o; exact (EReal.coe_mul _ _).symm
  have eR : (fun b n o => (((r b n o : ℝ) : EReal) - mean (fun b n o => (r b n o : EReal)) o)
        * ((r b n o : EReal) - mean (fun b n o => (r b n o : EReal)) o))
      = fun b n o => (((r b n o - (∑ p : Fin 16 × Fin 4096, r p.1 p.2 o) / 65536)
          * (r b n o - (∑ p : Fin 16 × Fin 4096, r p.1 p.2 o) / 65536) : ℝ) : EReal) := by
    funext b n o; rw [mean_coe, ← EReal.coe_sub, ← EReal.coe_mul]
  have hcard : (Fintype.card (Fin 16 × Fin 4096) : ℝ) = 65536 := by
    rw [Fintype.card_prod, Fintype.card_fin, Fintype.card_fin]; norm_num
  rw [varK, varR, eK, eR, total_coe, total_coe, mean_coe, div_cnt, div_cnt, ← EReal.coe_mul, ← EReal.coe_sub,
    ← EReal.coe_zero, ← EReal.coe_strictMono.monotone.map_max, EReal.coe_eq_coe_iff]
  exact real_var (fun p : Fin 16 × Fin 4096 => r p.1 p.2 o) 65536 hcard (by norm_num)

end ereal

end Spec

end
-- ==== Proof.MathOut.lean ====
/-
  The two spellings of the chain are the same function on real inputs: the two squared distances
  agree pointwise, so both chains share the first layer; that layer is real-valued, so its two
  variances agree, hence the second layers agree; the second layer is real-valued as well, so
  its two variances agree, and the results are equal.
-/
import proofs.«113022_j46755013984985_2_alg».proof.Proof.MathDist
import proofs.«113022_j46755013984985_2_alg».proof.Proof.MathChain
import proofs.«113022_j46755013984985_2_alg».proof.Proof.MathVar

noncomputable section

open scoped BigOperators

namespace Spec

open Idealize.ShloMosaic Idealize.ShloMosaic.ValueIdx

/-- On real inputs the chain over (distance by differences, clipped variance) equals the chain over
    (distance by polarisation, mean squared deviation). -/
theorem OUT_eq (xd : Spec.A3 16 1024 3) (xu : Spec.A3 16 4096 3) (fd : Spec.A3 16 1024 256) (fu : Spec.A3 16 4096 128)
    (W1 : Spec.A2 384 384) (b1 g1 be1 : Spec.A1 384) (W2 : Spec.A2 256 384) (b2 g2 be2 : Spec.A1 256)
    (hxd : ∀ i, ∃ r : ℝ, xd i = (r : EReal)) (hxu : ∀ i, ∃ r : ℝ, xu i = (r : EReal))
    (hfd : ∀ i, ∃ r : ℝ, fd i = (r : EReal)) (hfu : ∀ i, ∃ r : ℝ, fu i = (r : EReal))
    (hW1 : ∀ i, ∃ r : ℝ, W1 i = (r : EReal)) (hb1 : ∀ i, ∃ r : ℝ, b1 i = (r : EReal))
    (hg1 : ∀ i, ∃ r : ℝ, g1 i = (r : EReal)) (hbe1 : ∀ i, ∃ r : ℝ, be1 i = (r : EReal))
    (hW2 : ∀ i, ∃ r : ℝ, W2 i = (r : EReal)) (hb2 : ∀ i, ∃ r : ℝ, b2 i = (r : EReal))
    (hg2 : ∀ i, ∃ r : ℝ, g2 i = (r : EReal)) (hbe2 : ∀ i, ∃ r : ℝ, be2 i = (r : EReal)) :
    Spec.OUT (Spec.distK xd xu) Spec.varK Spec.varK fd fu W1 b1 g1 be1 W2 b2 g2 be2
      = Spec.OUT (Spec.distR xd xu) Spec.varR Spec.varR fd fu W1 b1 g1 be1 W2 b2 g2 be2 := by
  have hD : distR xd xu = distK xd xu := by
    funext b n m; exact (distK_eq_distR xd xu hxd hxu b n m).symm
  rw [hD]
  have hDnn : ∀ b n m, IsNonneg (distK xd xu b n m) := distK_nonneg xd xu hxd hxu
  have hH1 := H1_real (distK xd xu) hDnn fd fu W1 b1 hfd hfu hW1 hb1
  have hv1 : varR (H1 (distK xd xu) fd fu W1 b1) = varK (H1 (distK xd xu) fd fu W1 b1) :=
    funext fun o => (varK_eq_varR _ hH1 o).symm
  have hA : A1' (distK xd xu) varR fd fu W1 b1 g1 be1 = A1' (distK xd xu) varK fd fu W1 b1 g1 be1 := by
    funext b n j; unfold A1'; rw [hv1]
  have hH2 : H2 (distK xd xu) varR fd fu W1 b1 g1 be1 W2 b2 = H2 (distK xd xu) varK fd fu W1 b1 g1 be1 W2 b2 := by
    unfold H2; rw [hA]
  have hH2r := H2_real (distK xd xu) hDnn fd fu W1 b1 g1 be1 W2 b2 hfd hfu hW1 hb1 hg1 hbe1 hW2 hb2
  have hv2 : varR (H2 (distK xd xu) varK fd fu W1 b1 g1 be1 W2 b2) = varK (H2 (distK xd xu) varK fd fu W1 b1 g1 be1 W2 b2) :=
    funext fun o => (varK_eq_varR _ hH2r o).symm
  funext i
  unfold OUT
  rw [hH2, hv2]

end Spec

end
-- ==== Proof.FinLemma.lean ====
/-
  An array of extended reals all of whose entries pass the test |x| < +∞ has only real entries.

  The test is spelt as the programs' precondition spells it: the entrywise absolute value is compared
  (strictly below) with an array filled with the word of +∞, and the resulting bits are folded by
  "and" over every axis, starting from the bit 1.  If the fold comes out 1, every bit was 1, so
  every entry x satisfies max x (-x) < ⊤, which excludes both infinities.
-/
import Idealize.ShloMosaic.Lib.ReduceAll
import Idealize.ShloMosaic.PureOps.Ideal
import Idealize.ShloMosaic.PureOps.Ideal.Laws
import Idealize.ShloMosaic.PureOps

noncomputable section

namespace Cert.KernelIdeal.Finite

open Idealize.ShloMosaic

/-- The word 0x7F800000 denotes +∞. -/
theorem ofBits_inf : Ideal.ofBits .f32 0x7F800000#32 = (⊤ : EReal) := by
  simp [Ideal.ofBits, Ideal.ieee]

/-- One entry: if the bit of "|x| < +∞" is 1 then x is a real. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  have hlt : max x (-x) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- The whole array: a fold by "and" over all axes of the bits "|x i| < +∞" that equals 1 makes every entry a real. -/
theorem real_of_all_lt_inf {S T U V : Shape} [Subsingleton T.Idx] {axes : List (Fin S.rank)}
    (dims : Fin V.rank → Fin S.rank) (hb : V.BroadcastsInDim S dims) (hr : S.ReducesTo axes T) (hu : 0 < U.numel)
    (x : FVec Ideal S .f32) (init : IVec U 1) (j : T.Idx)
    (h : Host.reduce IntOp.andi
          (cmpf .olt (Host.absf x) (broadcastInDim S dims hb (constant (F := Ideal) V .f32 0x7F800000#32)))
          init hr hu j = 1#1) :
    ∀ i : S.Idx, ∃ r : ℝ, x i = (r : EReal) := by
  intro i
  exact real_of_abs_lt_inf (x i) (Host.reduce_andi_all _ init hr hu j h i)

end Cert.KernelIdeal.Finite

end
-- ==== Proof.FinPre.lean ====
/-
  The precondition read back: each of the twelve argument arrays has only real entries.

  The precondition tests every array entrywise for |x| < +∞, folds each array's bits by "and" over
  all axes, and joins the twelve resulting bits by "and" again; it asserts that the outcome is 1.
  A conjunction of bits that is 1 has every bit 1, so each array passes its own test, and an array
  that passes the test has only real entries.
-/
import proofs.«113022_j46755013984985_2_alg».proof.Defs
import proofs.«113022_j46755013984985_2_alg».proof.Proof.FinLemma
import Idealize.ShloMosaic.Lib.ValueIdx

noncomputable section

namespace Cert.KernelIdeal.Finite

open Idealize.ShloMosaic Idealize.SL.Sem Cert.Pre_finite_inputs

/-- A shape of rank zero has exactly one index. -/
instance subsingleton_rank_zero_idx : Subsingleton Cert.Pre_finite_inputs.S_.Idx :=
  ⟨fun a b => funext fun d => d.elim0⟩

/-- The test over twelve arbitrary arrays of the arguments' shapes: if it comes out 1, all their entries are reals. -/
theorem real_of_fn [hPre : Cert.Pre_finite_inputs.Facts]
    (a0 : FVec Ideal S16x1024x3 .f32)
    (a1 : FVec Ideal S16x4096x3 .f32)
    (a2 : FVec Ideal S16x1024x256 .f32)
    (a3 : FVec Ideal S16x4096x128 .f32)
    (a4 : FVec Ideal S384x384 .f32)
    (a5 : FVec Ideal S384 .f32)
    (a6 : FVec Ideal S384 .f32)
    (a7 : FVec Ideal S384 .f32)
    (a8 : FVec Ideal S256x384 .f32)
    (a9 : FVec Ideal S256 .f32)
    (a10 : FVec Ideal S256 .f32)
    (a11 : FVec Ideal S256 .f32)
    (h : Cert.Pre_finite_inputs.fn (F := Ideal) a0 a1 a2 a3 a4 a5 a6 a7 a8 a9 a10 a11 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3, andi] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_lt_inf _ _ _ _ _ _ _ e0,
    real_of_all_lt_inf _ _ _ _ _ _ _ e1,
    real_of_all_lt_inf _ _ _ _ _ _ _ e2,
    real_of_all_lt_inf _ _ _ _ _ _ _ e3,
    real_of_all_lt_inf _ _ _ _ _ _ _ e4,
    real_of_all_lt_inf _ _ _ _ _ _ _ e5,
    real_of_all_lt_inf _ _ _ _ _ _ _ e6,
    real_of_all_lt_inf _ _ _ _ _ _ _ e7,
    real_of_all_lt_inf _ _ _ _ _ _ _ e8,
    real_of_all_lt_inf _ _ _ _ _ _ _ e9,
    real_of_all_lt_inf _ _ _ _ _ _ _ e10,
    real_of_all_lt_inf _ _ _ _ _ _ _ e11⟩

/-- The same at a memory satisfying the precondition, on every device. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ Cert.KernelIdeal.τ).loc Cert.KernelIdeal.main_arg0) i = (r : EReal)) ∧
    (∀ i, ∃ r : ℝ, m ((c.tc : Thread _ Cert.KernelIdeal.τ).loc Cert.KernelIdeal.main_arg1) i = (r : EReal)) ∧
    (∀ i, ∃ r : ℝ, m ((c.tc : Thread _ Cert.KernelIdeal.τ).loc Cert.KernelIdeal.main_arg2) i = (r : EReal)) ∧
    (∀ i, ∃ r : ℝ, m ((c.tc : Thread _ Cert.KernelIdeal.τ).loc Cert.KernelIdeal.main_arg3) i = (r : EReal)) ∧
    (∀ i, ∃ r : ℝ, m ((c.tc : Thread _ Cert.KernelIdeal.τ).loc Cert.KernelIdeal.main_arg4) i = (r : EReal)) ∧
    (∀ i, ∃ r : ℝ, m ((c.tc : Thread _ Cert.KernelIdeal.τ).loc Cert.KernelIdeal.main_arg5) i = (r : EReal)) ∧
    (∀ i, ∃ r : ℝ, m ((c.tc : Thread _ Cert.KernelIdeal.τ).loc Cert.KernelIdeal.main_arg6) i = (r : EReal)) ∧
    (∀ i, ∃ r : ℝ, m ((c.tc : Thread _ Cert.KernelIdeal.τ).loc Cert.KernelIdeal.main_arg7) i = (r : EReal)) ∧
    (∀ i, ∃ r : ℝ, m ((c.tc : Thread _ Cert.KernelIdeal.τ).loc Cert.KernelIdeal.main_arg8) i = (r : EReal)) ∧
    (∀ i, ∃ r : ℝ, m ((c.tc : Thread _ Cert.KernelIdeal.τ).loc Cert.KernelIdeal.main_arg9) i = (r : EReal)) ∧
    (∀ i, ∃ r : ℝ, m ((c.tc : Thread _ Cert.KernelIdeal.τ).loc Cert.KernelIdeal.main_arg10) i = (r : EReal)) ∧
    (∀ i, ∃ r : ℝ, m ((c.tc : Thread _ Cert.KernelIdeal.τ).loc Cert.KernelIdeal.main_arg11) i = (r : EReal)) :=
  real_of_fn _ _ _ _ _ _ _ _ _ _ _ _ (h c)

end Cert.KernelIdeal.Finite

end
-- ==== Proof.KRun.lean ====
/-
  The idealized kernel's run with its result named: every weakly fair execution of the three
  launches and the host operations between them terminates, nothing faulting, with the result
  array at what the last launch's write-backs leave (the fold `W6` of the generated frame read
  at the result's buffer) and the twelve argument arrays as launched.
-/
import proofs.«113022_j46755013984985_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the final state holds, at every unscoped buffer, the last
    boundary's contents; read at the result and at each argument. -/
theorem run : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.GlueStages.lean ====
/-
  The host operations between two launches, read at an index: per channel, the running sums of
  the 16 clouds are added up and divided by the number of points, giving the batch mean and the
  batch variance (mean of squares minus squared mean, clipped at zero).
-/
import proofs.«113022_j46755013984985_2_alg».proof.Proof.Gen.KernelIdeal.Frame
import proofs.«113022_j46755013984985_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx Idealize.ShloMosaic.StableHlo

/-! ## The statistics between two launches -/

/-- The host's sum over the 16 clouds of a [16,1,384] array, at channel o. -/
theorem sum16_384 (s : S16x1x384.Idx → EReal) (u : Fin 1) (o : Fin 384) :
    Host.reduceAdd (F := Ideal) s (constant S_ .f32 0x00000000#32) reducesTo_S16x1x384_S1x384_d0 h_S_ (ix2 u o) = ∑ b : Fin 16, s (ix3 b (0 : Fin 1) o) := by
  simp only [Host.reduceAdd, Ideal.hostReduceAdd_def]
  rw [Ideal.hostReduceAdd_single reducesTo_S16x1x384_S1x384_d0 (by decide)]
  rw [constant_apply, Ideal.ofBits_zero_f32, zero_add]
  refine Finset.sum_congr rfl fun k _ => congrArg s (funext fun a => Fin.ext ?_)
  match a with
  | ⟨0, _⟩ => rfl
  | ⟨1, _⟩ => show u.val = 0; omega
  | ⟨2, _⟩ => rfl

/-- That sum divided by the broadcast count 65536. -/
theorem mean_384 (s : S16x1x384.Idx → EReal) (u : Fin 1) (o : Fin 384) :
    Host.divf (F := Ideal) (Host.reduceAdd s (constant S_ .f32 0x00000000#32) reducesTo_S16x1x384_S1x384_d0 h_S_)
      (broadcastInDim S1x384 ![] bcast_S_S1x384 (constant S_ .f32 0x47800000#32)) (ix2 u o)
      = Ideal.div (∑ b : Fin 16, s (ix3 b (0 : Fin 1) o)) Spec.cnt := by
  show Ideal.div (Host.reduceAdd (F := Ideal) s (constant S_ .f32 0x00000000#32) reducesTo_S16x1x384_S1x384_d0 h_S_ (ix2 u o))
      (broadcastInDim S1x384 ![] bcast_S_S1x384 (constant (F := Ideal) S_ .f32 0x47800000#32) (ix2 u o)) = _
  rw [sum16_384, broadcastInDim_scalar_apply]
  rfl

/-- Mean of squares minus squared mean, clipped at zero. -/
theorem var_384 (s q : S16x1x384.Idx → EReal) (u : Fin 1) (o : Fin 384) :
    maximumf (F := Ideal)
      (subf
        (Host.divf (Host.reduceAdd q (constant S_ .f32 0x00000000#32) reducesTo_S16x1x384_S1x384_d0 h_S_)
          (broadcastInDim S1x384 ![] bcast_S_S1x384 (constant S_ .f32 0x47800000#32)))
        (mulf
          (Host.divf (Host.reduceAdd s (constant S_ .f32 0x00000000#32) reducesTo_S16x1x384_S1x384_d0 h_S_)
            (broadcastInDim S1x384 ![] bcast_S_S1x384 (constant S_ .f32 0x47800000#32)))
          (Host.divf (Host.reduceAdd s (constant S_ .f32 0x00000000#32) reducesTo_S16x1x384_S1x384_d0 h_S_)
            (broadcastInDim S1x384 ![] bcast_S_S1x384 (constant S_ .f32 0x47800000#32)))))
      (broadcastInDim S1x384 ![] bcast_S_S1x384 (constant S_ .f32 0x00000000#32)) (ix2 u o)
      = max (Ideal.div (∑ b : Fin 16, q (ix3 b (0 : Fin 1) o)) Spec.cnt
          - Ideal.div (∑ b : Fin 16, s (ix3 b (0 : Fin 1) o)) Spec.cnt * Ideal.div (∑ b : Fin 16, s (ix3 b (0 : Fin 1) o)) Spec.cnt) 0 := by
  rw [maximumf_apply, subf_apply, mulf_apply, mean_384, mean_384, broadcastInDim_scalar_apply, constant_apply, Ideal.ofBits_zero_f32]

/-- The host's sum over the 16 clouds of a [16,1,256] array, at channel o. -/
theorem sum16_256 (s : S16x1x256.Idx → EReal) (u : Fin 1) (o : Fin 256) :
    Host.reduceAdd (F := Ideal) s (constant S_ .f32 0x00000000#32) reducesTo_S16x1x256_S1x256_d0 h_S_ (ix2 u o) = ∑ b : Fin 16, s (ix3 b (0 : Fin 1) o) := by
  simp only [Host.reduceAdd, Ideal.hostReduceAdd_def]
  rw [Ideal.hostReduceAdd_single reducesTo_S16x1x256_S1x256_d0 (by decide)]
  rw [constant_apply, Ideal.ofBits_zero_f32, zero_add]
  refine Finset.sum_congr rfl fun k _ => congrArg s (funext fun a => Fin.ext ?_)
  match a with
  | ⟨0, _⟩ => rfl
  | ⟨1, _⟩ => show u.val = 0; omega
  | ⟨2, _⟩ => rfl

/-- That sum divided by the broadcast count 65536. -/
theorem mean_256 (s : S16x1x256.Idx → EReal) (u : Fin 1) (o : Fin 256) :
    Host.divf (F := Ideal) (Host.reduceAdd s (constant S_ .f32 0x00000000#32) reducesTo_S16x1x256_S1x256_d0 h_S_)
      (broadcastInDim S1x256 ![] bcast_S_S1x256 (constant S_ .f32 0x47800000#32)) (ix2 u o)
      = Ideal.div (∑ b : Fin 16, s (ix3 b (0 : Fin 1) o)) Spec.cnt := by
  show Ideal.div (Host.reduceAdd (F := Ideal) s (constant S_ .f32 0x00000000#32) reducesTo_S16x1x256_S1x256_d0 h_S_ (ix2 u o))
      (broadcastInDim S1x256 ![] bcast_S_S1x256 (constant (F := Ideal) S_ .f32 0x47800000#32) (ix2 u o)) = _
  rw [sum16_256, broadcastInDim_scalar_apply]
  rfl

/-- Mean of squares minus squared mean, clipped at zero. -/
theorem var_256 (s q : S16x1x256.Idx → EReal) (u : Fin 1) (o : Fin 256) :
    maximumf (F := Ideal)
      (subf
        (Host.divf (Host.reduceAdd q (constant S_ .f32 0x00000000#32) reducesTo_S16x1x256_S1x256_d0 h_S_)
          (broadcastInDim S1x256 ![] bcast_S_S1x256 (constant S_ .f32 0x47800000#32)))
        (mulf
          (Host.divf (Host.reduceAdd s (constant S_ .f32 0x00000000#32) reducesTo_S16x1x256_S1x256_d0 h_S_)
            (broadcastInDim S1x256 ![] bcast_S_S1x256 (constant S_ .f32 0x47800000#32)))
          (Host.divf (Host.reduceAdd s (constant S_ .f32 0x00000000#32) reducesTo_S16x1x256_S1x256_d0 h_S_)
            (broadcastInDim S1x256 ![] bcast_S_S1x256 (constant S_ .f32 0x47800000#32)))))
      (broadcastInDim S1x256 ![] bcast_S_S1x256 (constant S_ .f32 0x00000000#32)) (ix2 u o)
      = max (Ideal.div (∑ b : Fin 16, q (ix3 b (0 : Fin 1) o)) Spec.cnt
          - Ideal.div (∑ b : Fin 16, s (ix3 b (0 : Fin 1) o)) Spec.cnt * Ideal.div (∑ b : Fin 16, s (ix3 b (0 : Fin 1) o)) Spec.cnt) 0 := by
  rw [maximumf_apply, subf_apply, mulf_apply, mean_256, mean_256, broadcastInDim_scalar_apply, constant_apply, Ideal.ofBits_zero_f32]

end Cert.KernelIdeal.Glue

end
-- ==== Proof.R2.lean ====
/-
  The third launch: every entry of the second layer's output is normalised with the batch mean and
  variance (two rows of 256), scaled and shifted.  Each grid point (cloud b, half n) rewrites its
  own [2048, 256] block, so the result array is that pointwise function of the arrays the launch
  finds, whatever they are.
-/
import proofs.«113022_j46755013984985_2_alg».proof.Proof.Gen.KernelIdeal.Frame
import proofs.«113022_j46755013984985_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.R2

open Cert.KernelIdeal Cert.KernelIdeal.Gen
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's arithmetic at row r, channel o of a block: the entry minus the mean, times the
    reciprocal root of variance plus 1e-5, times the scale, plus the shift. -/
theorem pay_apply (x0 : Vec Ideal S1x2048x256 .bf16) (x1 x2 x3 x4 : Vec Ideal S1x256 .f32) (u : Fin 1) (r : Fin 2048) (o : Fin 256) :
    k2_pay1 x0 x1 x2 x3 x4 (ix3 u r o)
      = Spec.norm1 (x0 (ix3 (0 : Fin 1) r o)) (x1 (ix2 (0 : Fin 1) o)) (x2 (ix2 (0 : Fin 1) o)) (x3 (ix2 (0 : Fin 1) o)) (x4 (ix2 (0 : Fin 1) o)) := by
  unfold k2_pay1 Spec.norm1
  rw [shapeCast_ab_1ab_apply]
  simp only [addf_apply, mulf_apply, subf_apply, extf_apply, broadcastTo_1b_ab_apply, shapeCast_self, shapeCast_1ab_ab_apply]
  rfl

/-- The same at any index of a block. -/
theorem pay_apply' (x0 : Vec Ideal S1x2048x256 .bf16) (x1 x2 x3 x4 : Vec Ideal S1x256 .f32) (j : S1x2048x256.Idx) :
    k2_pay1 x0 x1 x2 x3 x4 j
      = Spec.norm1 (x0 j) (x1 (ix2 (0 : Fin 1) ⟨(j 2).val, (j 2).isLt⟩)) (x2 (ix2 (0 : Fin 1) ⟨(j 2).val, (j 2).isLt⟩))
          (x3 (ix2 (0 : Fin 1) ⟨(j 2).val, (j 2).isLt⟩)) (x4 (ix2 (0 : Fin 1) ⟨(j 2).val, (j 2).isLt⟩)) := by
  obtain ⟨u, r, o, rfl⟩ : ∃ (u : Fin 1) (r : Fin 2048) (o : Fin 256), j = ix3 u r o := ⟨j 0, j 1, j 2, eq_ix3 j⟩
  obtain rfl : u = 0 := Subsingleton.elim _ _
  exact pay_apply x0 x1 x2 x3 x4 0 r o

theorem norm1_congr {a a' b b' c c' d d' e e' : EReal} (h0 : a = a') (h1 : b = b') (h2 : c = c') (h3 : d = d') (h4 : e = e') :
    Spec.norm1 a b c d e = Spec.norm1 a' b' c' d' e' := by subst h0 h1 h2 h3 h4; rfl

variable (V : (c : Dev nD) → (b : Ref sig .tc) → Buf (Elt Ideal) ((c : Thread nD τ).loc b))

/-- The pointwise function of the arrays the launch finds. -/
def G (c : Dev nD) : S16x4096x256.Idx → EReal := fun i =>
  Spec.norm1 (V c main_v19_0 i) (V c main_v22 (ix2 (0 : Fin 1) ⟨(i 2).val, (i 2).isLt⟩))
    (V c main_v29 (ix2 (0 : Fin 1) ⟨(i 2).val, (i 2).isLt⟩))
    (V c main_v6 (ix2 (0 : Fin 1) ⟨(i 2).val, (i 2).isLt⟩)) (V c main_v7 (ix2 (0 : Fin 1) ⟨(i 2).val, (i 2).isLt⟩))

/-- At each of the 32 grid points the input block moves with the output block and the four rows stay. -/
theorem idx_facts : ∀ t : Fin cfg2.N, win2_0.index t (0 : Fin 3) = win2_5.index t (0 : Fin 3)
    ∧ win2_0.index t (1 : Fin 3) = win2_5.index t (1 : Fin 3)
    ∧ win2_0.index t (2 : Fin 3) = win2_5.index t (2 : Fin 3)
    ∧ win2_5.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) ≤ 15 ∧ win2_5.index t (1 : Fin 3) ≤ 1 :=
  (by decide +kernel : ∀ t : Fin grid2.N, _)

/-- Every block of the result is some point's. -/
theorem idx_onto : ∀ (q0 : Fin 16) (q1 : Fin 2), ∃ t : Fin cfg2.N, win2_5.index t = ![q0.val, q1.val, 0] :=
  (by decide +kernel : ∀ (q0 : Fin 16) (q1 : Fin 2), ∃ t : Fin grid2.N, win2_5.index t = ![q0.val, q1.val, 0])

/-- What point t writes back is block t of the pointwise function. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz3]
  simp only [View.ld_unit_zero (S := S1x2048x256) hz3, View.ld_unit_zero (S := S1x256) hz2]
  obtain ⟨e0, e1, e2, e3, a0, a1, b0, b1, c0, c1, d0, d1, -, -⟩ := idx_facts t
  funext j
  show k2_pay1 (iblk2 V c 0 t) (iblk2 V c 1 t) (iblk2 V c 2 t) (iblk2 V c 3 t) (iblk2 V c 4 t) j = G V c (((cfg2.win 5).blk t).view.emb j)
  refine (pay_apply' _ _ _ _ _ j).trans ?_
  unfold G
  have hj2 : (j 2).val < 256 := (j 2).isLt
  refine norm1_congr ?_ ?_ ?_ ?_ ?_
  · show V c main_v19_0 (((cfg2.win 0).blk t).view.emb j) = V c main_v19_0 (((cfg2.win 5).blk t).view.emb j)
    refine congrArg _ ?_
    funext a; apply Fin.ext
    match a with
    | ⟨0, _⟩ => show win2_0.index t (0 : Fin 3) * 1 + 1 * (j 0).val = win2_5.index t (0 : Fin 3) * 1 + 1 * (j 0).val; omega
    | ⟨1, _⟩ => show win2_0.index t (1 : Fin 3) * 2048 + 1 * (j 1).val = win2_5.index t (1 : Fin 3) * 2048 + 1 * (j 1).val; omega
    | ⟨2, _⟩ => show win2_0.index t (2 : Fin 3) * 256 + 1 * (j 2).val = win2_5.index t (2 : Fin 3) * 256 + 1 * (j 2).val; omega
  · show V c main_v22 (((cfg2.win 1).blk t).view.emb (ix2 (0 : Fin 1) ⟨(j 2).val, (j 2).isLt⟩)) = V c main_v22 (ix2 (0 : Fin 1) ⟨(((cfg2.win 5).blk t).view.emb j 2).val, (((cfg2.win 5).blk t).view.emb j 2).isLt⟩)
    refine congrArg _ ?_
    funext a; apply Fin.ext
    match a with
    | ⟨0, _⟩ => show win2_1.index t (0 : Fin 2) * 1 + 1 * 0 = 0; omega
    | ⟨1, _⟩ => show win2_1.index t (1 : Fin 2) * 256 + 1 * (j 2).val = win2_5.index t (2 : Fin 3) * 256 + 1 * (j 2).val; omega
  · show V c main_v29 (((cfg2.win 2).blk t).view.emb (ix2 (0 : Fin 1) ⟨(j 2).val, (j 2).isLt⟩)) = V c main_v29 (ix2 (0 : Fin 1) ⟨(((cfg2.win 5).blk t).view.emb j 2).val, (((cfg2.win 5).blk t).view.emb j 2).isLt⟩)
    refine congrArg _ ?_
    funext a; apply Fin.ext
    match a with
    | ⟨0, _⟩ => show win2_2.index t (0 : Fin 2) * 1 + 1 * 0 = 0; omega
    | ⟨1, _⟩ => show win2_2.index t (1 : Fin 2) * 256 + 1 * (j 2).val = win2_5.index t (2 : Fin 3) * 256 + 1 * (j 2).val; omega
  · show V c main_v6 (((cfg2.win 3).blk t).view.emb (ix2 (0 : Fin 1) ⟨(j 2).val, (j 2).isLt⟩)) = V c main_v6 (ix2 (0 : Fin 1) ⟨(((cfg2.win 5).blk t).view.emb j 2).val, (((cfg2.win 5).blk t).view.emb j 2).isLt⟩)
    refine congrArg _ ?_
    funext a; apply Fin.ext
    match a with
    | ⟨0, _⟩ => show win2_3.index t (0 : Fin 2) * 1 + 1 * 0 = 0; omega
    | ⟨1, _⟩ => show win2_3.index t (1 : Fin 2) * 256 + 1 * (j 2).val = win2_5.index t (2 : Fin 3) * 256 + 1 * (j 2).val; omega
  · show V c main_v7 (((cfg2.win 4).blk t).view.emb (ix2 (0 : Fin 1) ⟨(j 2).val, (j 2).isLt⟩)) = V c main_v7 (ix2 (0 : Fin 1) ⟨(((cfg2.win 5).blk t).view.emb j 2).val, (((cfg2.win 5).blk t).view.emb j 2).isLt⟩)
    refine congrArg _ ?_
    funext a; apply Fin.ext
    match a with
    | ⟨0, _⟩ => show win2_4.index t (0 : Fin 2) * 1 + 1 * 0 = 0; omega
    | ⟨1, _⟩ => show win2_4.index t (1 : Fin 2) * 256 + 1 * (j 2).val = win2_5.index t (2 : Fin 3) * 256 + 1 * (j 2).val; omega

/-- An index is in point t's block iff each coordinate is in the block's range on its axis. -/
theorem mem_blk (t : Fin cfg2.N) (i : S16x4096x256.Idx) :
    i ∈ ((cfg2.win 5).blk t).view.set ↔ ∀ a : Fin 3, win2_5.index t a * S1x2048x256.size a ≤ (i a).val ∧ (i a).val < win2_5.index t a * S1x2048x256.size a + S1x2048x256.size a := by
  show i ∈ ((View.whole main_v30).slice (win2_5.rect t)).set ↔ _
  rw [View.set_slice_whole, Rect.mem_set_unit]
  exact Iff.rfl

/-- Every index of the result lies in the block of the point (its cloud, its half). -/
theorem cover (i : S16x4096x256.Idx) : ∃ t : Fin cfg2.N, (cfg2.win 5).flush t = true ∧ i ∈ ((cfg2.win 5).blk t).view.set := by
  have hi0 : (i 0).val < 16 := (i 0).isLt
  have hi1 : (i 1).val < 4096 := (i 1).isLt
  have hi2 : (i 2).val < 256 := (i 2).isLt
  obtain ⟨t, ht⟩ := idx_onto ⟨(i 0).val, hi0⟩ ⟨(i 1).val / 2048, by omega⟩
  have q0 : win2_5.index t (0 : Fin 3) = (i 0).val := congrFun ht 0
  have q1 : win2_5.index t (1 : Fin 3) = (i 1).val / 2048 := congrFun ht 1
  have q2 : win2_5.index t (2 : Fin 3) = 0 := congrFun ht 2
  refine ⟨t, flush2_5 t, ?_⟩
  rw [mem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 2048 ≤ (i 1).val ∧ (i 1).val < win2_5.index t (1 : Fin 3) * 2048 + 2048; omega
  | ⟨2, _⟩ => show win2_5.index t (2 : Fin 3) * 256 ≤ (i 2).val ∧ (i 2).val < win2_5.index t (2 : Fin 3) * 256 + 256; omega

/-- The result array after the launch: the pointwise function of the arrays it found. -/
theorem arr5 (c : Dev nD) : (dat2 V c).arrAt 5 cfg2.N = G V c :=
  (dat2 V c).arrAt_eq_of_cover 5 (G V c) (fun t _ => flushed_eq V c t) (cover)

end Cert.KernelIdeal.R2

end
-- ==== Proof.GlueRun.lean ====
/-
  The idealized kernel's result as one function of its twelve argument arrays.

  Between the launches the host only transposes the two weight matrices, writes the six vectors
  as rows, and turns the per-cloud running sums into the batch mean and variance.  Reading each
  boundary's contents through those operations, and each launch's output arrays through what the
  launch computes of the arrays it finds, the result array is the specification's chain with the
  squared distance written coordinate by coordinate and the variance as mean of squares minus
  squared mean.
-/
import proofs.«113022_j46755013984985_2_alg».proof.Proof.Gen.KernelIdeal.Frame
import proofs.«113022_j46755013984985_2_alg».proof.Proof.Spec
import proofs.«113022_j46755013984985_2_alg».proof.Proof.GlueStages
import proofs.«113022_j46755013984985_2_alg».proof.Proof.R2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## Before the first launch: the arguments untouched, the weights transposed, the vectors as rows -/

theorem V1_arg0 (c : Dev nD) : V1 m ρ c main_arg0 = m ((c : Thread nD τ).loc main_arg0) := by
  dsimp only [V1, W1, hostOps0]; after_results
theorem V1_arg1 (c : Dev nD) : V1 m ρ c main_arg1 = m ((c : Thread nD τ).loc main_arg1) := by
  dsimp only [V1, W1, hostOps0]; after_results
theorem V1_arg2 (c : Dev nD) : V1 m ρ c main_arg2 = m ((c : Thread nD τ).loc main_arg2) := by
  dsimp only [V1, W1, hostOps0]; after_results
theorem V1_arg3 (c : Dev nD) : V1 m ρ c main_arg3 = m ((c : Thread nD τ).loc main_arg3) := by
  dsimp only [V1, W1, hostOps0]; after_results

theorem V1_v0 (c : Dev nD) (j o : Fin 384) :
    (V1 m ρ c main_v0 : S384x384.Idx → EReal) (ix2 j o) = (m ((c : Thread nD τ).loc main_arg4) : S384x384.Idx → EReal) (ix2 o j) := by
  have e : (V1 m ρ c main_v0 : S384x384.Idx → EReal)
      = transpose S384x384 [1, 0] (m ((c : Thread nD τ).loc main_arg4)) transposes_S384x384_S384x384_1_0 := by
    dsimp only [V1, W1, hostOps0]; after_results
  rw [e]; exact transpose_ix2_apply _ _ j o

theorem V1_v1 (c : Dev nD) (j : Fin 384) (o : Fin 256) :
    (V1 m ρ c main_v1 : S384x256.Idx → EReal) (ix2 j o) = (m ((c : Thread nD τ).loc main_arg8) : S256x384.Idx → EReal) (ix2 o j) := by
  have e : (V1 m ρ c main_v1 : S384x256.Idx → EReal)
      = transpose S384x256 [1, 0] (m ((c : Thread nD τ).loc main_arg8)) transposes_S256x384_S384x256_1_0 := by
    dsimp only [V1, W1, hostOps0]; after_results
  rw [e]; exact transpose_ix2_apply _ _ j o

theorem V1_v2 (c : Dev nD) (u : Fin 1) (o : Fin 384) :
    (V1 m ρ c main_v2 : S1x384.Idx → EReal) (ix2 u o) = (m ((c : Thread nD τ).loc main_arg5) : S384.Idx → EReal) (ix1 o) := by
  have e : (V1 m ρ c main_v2 : S1x384.Idx → EReal) = shapeCast S1x384 (m ((c : Thread nD τ).loc main_arg5)) shapeCasts_S384_S1x384 := by
    dsimp only [V1, W1, hostOps0]; after_results; rfl
  rw [e]; exact shapeCast_a_1a_apply _ _ u o
theorem V1_v3 (c : Dev nD) (u : Fin 1) (o : Fin 256) :
    (V1 m ρ c main_v3 : S1x256.Idx → EReal) (ix2 u o) = (m ((c : Thread nD τ).loc main_arg9) : S256.Idx → EReal) (ix1 o) := by
  have e : (V1 m ρ c main_v3 : S1x256.Idx → EReal) = shapeCast S1x256 (m ((c : Thread nD τ).loc main_arg9)) shapeCasts_S256_S1x256 := by
    dsimp only [V1, W1, hostOps0]; after_results; rfl
  rw [e]; exact shapeCast_a_1a_apply _ _ u o
theorem V1_v4 (c : Dev nD) (u : Fin 1) (o : Fin 384) :
    (V1 m ρ c main_v4 : S1x384.Idx → EReal) (ix2 u o) = (m ((c : Thread nD τ).loc main_arg6) : S384.Idx → EReal) (ix1 o) := by
  have e : (V1 m ρ c main_v4 : S1x384.Idx → EReal) = shapeCast S1x384 (m ((c : Thread nD τ).loc main_arg6)) shapeCasts_S384_S1x384 := by
    dsimp only [V1, W1, hostOps0]; after_results; rfl
  rw [e]; exact shapeCast_a_1a_apply _ _ u o
theorem V1_v5 (c : Dev nD) (u : Fin 1) (o : Fin 384) :
    (V1 m ρ c main_v5 : S1x384.Idx → EReal) (ix2 u o) = (m ((c : Thread nD τ).loc main_arg7) : S384.Idx → EReal) (ix1 o) := by
  have e : (V1 m ρ c main_v5 : S1x384.Idx → EReal) = shapeCast S1x384 (m ((c : Thread nD τ).loc main_arg7)) shapeCasts_S384_S1x384 := by
    dsimp only [V1, W1, hostOps0]; after_results; rfl
  rw [e]; exact shapeCast_a_1a_apply _ _ u o
theorem V1_v6 (c : Dev nD) (u : Fin 1) (o : Fin 256) :
    (V1 m ρ c main_v6 : S1x256.Idx → EReal) (ix2 u o) = (m ((c : Thread nD τ).loc main_arg10) : S256.Idx → EReal) (ix1 o) := by
  have e : (V1 m ρ c main_v6 : S1x256.Idx → EReal) = shapeCast S1x256 (m ((c : Thread nD τ).loc main_arg10)) shapeCasts_S256_S1x256 := by
    dsimp only [V1, W1, hostOps0]; after_results; rfl
  rw [e]; exact shapeCast_a_1a_apply _ _ u o
theorem V1_v7 (c : Dev nD) (u : Fin 1) (o : Fin 256) :
    (V1 m ρ c main_v7 : S1x256.Idx → EReal) (ix2 u o) = (m ((c : Thread nD τ).loc main_arg11) : S256.Idx → EReal) (ix1 o) := by
  have e : (V1 m ρ c main_v7 : S1x256.Idx → EReal) = shapeCast S1x256 (m ((c : Thread nD τ).loc main_arg11)) shapeCasts_S256_S1x256 := by
    dsimp only [V1, W1, hostOps0]; after_results; rfl
  rw [e]; exact shapeCast_a_1a_apply _ _ u o

/-! ## Before the second launch -/

theorem V3_v8_0 (c : Dev nD) : V3 m ρ c main_v8_0 = (dat0 (V1 m ρ) c).arrAt 6 cfg0.N := by
  have e : V3 m ρ c main_v8_0 = W2 m ρ c (Proc.devRef .tc main_v8_0) := by
    dsimp only [V3, W3, hostOps1]; after_results
  exact e.trans (W2_arr m ρ c 6)

theorem V3_v11 (c : Dev nD) (u : Fin 1) (o : Fin 384) :
    (V3 m ρ c main_v11 : S1x384.Idx → EReal) (ix2 u o)
      = Ideal.div (∑ b : Fin 16, ((dat0 (V1 m ρ) c).arrAt 7 cfg0.N : S16x1x384.Idx → EReal) (ix3 b (0 : Fin 1) o)) Spec.cnt := by
  have e : (V3 m ρ c main_v11 : S1x384.Idx → EReal)
      = Host.divf (F := Ideal) (Host.reduceAdd (W2 m ρ c (Proc.devRef .tc main_v8_1)) (constant S_ .f32 0x00000000#32) reducesTo_S16x1x384_S1x384_d0 h_S_)
          (broadcastInDim S1x384 ![] bcast_S_S1x384 (constant S_ .f32 0x47800000#32)) := by
    dsimp only [V3, W3, hostOps1]; after_results
  rw [e, mean_384, W2_arr m ρ c 7]

theorem V3_v18 (c : Dev nD) (u : Fin 1) (o : Fin 384) :
    (V3 m ρ c main_v18 : S1x384.Idx → EReal) (ix2 u o)
      = max (Ideal.div (∑ b : Fin 16, ((dat0 (V1 m ρ) c).arrAt 8 cfg0.N : S16x1x384.Idx → EReal) (ix3 b (0 : Fin 1) o)) Spec.cnt
          - Ideal.div (∑ b : Fin 16, ((dat0 (V1 m ρ) c).arrAt 7 cfg0.N : S16x1x384.Idx → EReal) (ix3 b (0 : Fin 1) o)) Spec.cnt
            * Ideal.div (∑ b : Fin 16, ((dat0 (V1 m ρ) c).arrAt 7 cfg0.N : S16x1x384.Idx → EReal) (ix3 b (0 : Fin 1) o)) Spec.cnt) 0 := by
  have e : (V3 m ρ c main_v18 : S1x384.Idx → EReal)
      = maximumf (F := Ideal)
      (subf
        (Host.divf (Host.reduceAdd (W2 m ρ c (Proc.devRef .tc main_v8_2)) (constant S_ .f32 0x00000000#32) reducesTo_S16x1x384_S1x384_d0 h_S_)
          (broadcastInDim S1x384 ![] bcast_S_S1x384 (constant S_ .f32 0x47800000#32)))
        (mulf
          (Host.divf (Host.reduceAdd (W2 m ρ c (Proc.devRef .tc main_v8_1)) (constant S_ .f32 0x00000000#32) reducesTo_S16x1x384_S1x384_d0 h_S_)
            (broadcastInDim S1x384 ![] bcast_S_S1x384 (constant S_ .f32 0x47800000#32)))
          (Host.divf (Host.reduceAdd (W2 m ρ c (Proc.devRef .tc main_v8_1)) (constant S_ .f32 0x00000000#32) reducesTo_S16x1x384_S1x384_d0 h_S_)
            (broadcastInDim S1x384 ![] bcast_S_S1x384 (constant S_ .f32 0x47800000#32)))))
      (broadcastInDim S1x384 ![] bcast_S_S1x384 (constant S_ .f32 0x00000000#32)) := by
    dsimp only [V3, W3, hostOps1]; after_results
  rw [e, var_384, W2_arr m ρ c 7, W2_arr m ρ c 8]

theorem V3_v4 (c : Dev nD) : V3 m ρ c main_v4 = V1 m ρ c main_v4 := by
  have e : V3 m ρ c main_v4 = W2 m ρ c (Proc.devRef .tc main_v4) := by
    dsimp only [V3, W3, hostOps1]; after_results
  exact e.trans (W2_of_ne m ρ c main_v4 (by decide))
theorem V3_v5 (c : Dev nD) : V3 m ρ c main_v5 = V1 m ρ c main_v5 := by
  have e : V3 m ρ c main_v5 = W2 m ρ c (Proc.devRef .tc main_v5) := by
    dsimp only [V3, W3, hostOps1]; after_results
  exact e.trans (W2_of_ne m ρ c main_v5 (by decide))
theorem V3_v1 (c : Dev nD) : V3 m ρ c main_v1 = V1 m ρ c main_v1 := by
  have e : V3 m ρ c main_v1 = W2 m ρ c (Proc.devRef .tc main_v1) := by
    dsimp only [V3, W3, hostOps1]; after_results
  exact e.trans (W2_of_ne m ρ c main_v1 (by decide))
theorem V3_v3 (c : Dev nD) : V3 m ρ c main_v3 = V1 m ρ c main_v3 := by
  have e : V3 m ρ c main_v3 = W2 m ρ c (Proc.devRef .tc main_v3) := by
    dsimp only [V3, W3, hostOps1]; after_results
  exact e.trans (W2_of_ne m ρ c main_v3 (by decide))

/-! ## Before the third launch -/

theorem V5_v19_0 (c : Dev nD) : V5 m ρ c main_v19_0 = (dat1 (V3 m ρ) c).arrAt 7 cfg1.N := by
  have e : V5 m ρ c main_v19_0 = W4 m ρ c (Proc.devRef .tc main_v19_0) := by
    dsimp only [V5, W5, hostOps2]; after_results
  exact e.trans (W4_arr m ρ c 7)

theorem V5_v22 (c : Dev nD) (u : Fin 1) (o : Fin 256) :
    (V5 m ρ c main_v22 : S1x256.Idx → EReal) (ix2 u o)
      = Ideal.div (∑ b : Fin 16, ((dat1 (V3 m ρ) c).arrAt 8 cfg1.N : S16x1x256.Idx → EReal) (ix3 b (0 : Fin 1) o)) Spec.cnt := by
  have e : (V5 m ρ c main_v22 : S1x256.Idx → EReal)
      = Host.divf (F := Ideal) (Host.reduceAdd (W4 m ρ c (Proc.devRef .tc main_v19_1)) (constant S_ .f32 0x00000000#32) reducesTo_S16x1x256_S1x256_d0 h_S_)
          (broadcastInDim S1x256 ![] bcast_S_S1x256 (constant S_ .f32 0x47800000#32)) := by
    dsimp only [V5, W5, hostOps2]; after_results
  rw [e, mean_256, W4_arr m ρ c 8]

theorem V5_v29 (c : Dev nD) (u : Fin 1) (o : Fin 256) :
    (V5 m ρ c main_v29 : S1x256.Idx → EReal) (ix2 u o)
      = max (Ideal.div (∑ b : Fin 16, ((dat1 (V3 m ρ) c).arrAt 9 cfg1.N : S16x1x256.Idx → EReal) (ix3 b (0 : Fin 1) o)) Spec.cnt
          - Ideal.div (∑ b : Fin 16, ((dat1 (V3 m ρ) c).arrAt 8 cfg1.N : S16x1x256.Idx → EReal) (ix3 b (0 : Fin 1) o)) Spec.cnt
            * Ideal.div (∑ b : Fin 16, ((dat1 (V3 m ρ) c).arrAt 8 cfg1.N : S16x1x256.Idx → EReal) (ix3 b (0 : Fin 1) o)) Spec.cnt) 0 := by
  have e : (V5 m ρ c main_v29 : S1x256.Idx → EReal)
      = maximumf (F := Ideal)
      (subf
        (Host.divf (Host.reduceAdd (W4 m ρ c (Proc.devRef .tc main_v19_2)) (constant S_ .f32 0x00000000#32) reducesTo_S16x1x256_S1x256_d0 h_S_)
          (broadcastInDim S1x256 ![] bcast_S_S1x256 (constant S_ .f32 0x47800000#32)))
        (mulf
          (Host.divf (Host.reduceAdd (W4 m ρ c (Proc.devRef .tc main_v19_1)) (constant S_ .f32 0x00000000#32) reducesTo_S16x1x256_S1x256_d0 h_S_)
            (broadcastInDim S1x256 ![] bcast_S_S1x256 (constant S_ .f32 0x47800000#32)))
          (Host.divf (Host.reduceAdd (W4 m ρ c (Proc.devRef .tc main_v19_1)) (constant S_ .f32 0x00000000#32) reducesTo_S16x1x256_S1x256_d0 h_S_)
            (broadcastInDim S1x256 ![] bcast_S_S1x256 (constant S_ .f32 0x47800000#32)))))
      (broadcastInDim S1x256 ![] bcast_S_S1x256 (constant S_ .f32 0x00000000#32)) := by
    dsimp only [V5, W5, hostOps2]; after_results
  rw [e, var_256, W4_arr m ρ c 8, W4_arr m ρ c 9]

theorem V5_v6 (c : Dev nD) : V5 m ρ c main_v6 = V1 m ρ c main_v6 := by
  have e : V5 m ρ c main_v6 = W4 m ρ c (Proc.devRef .tc main_v6) := by
    dsimp only [V5, W5, hostOps2]; after_results
  have e3 : W3 m ρ c (Proc.devRef .tc main_v6) = W2 m ρ c (Proc.devRef .tc main_v6) := by
    dsimp only [W3, hostOps1]; after_results
  exact e.trans ((W4_of_ne m ρ c main_v6 (by decide)).trans (e3.trans (W2_of_ne m ρ c main_v6 (by decide))))
theorem V5_v7 (c : Dev nD) : V5 m ρ c main_v7 = V1 m ρ c main_v7 := by
  have e : V5 m ρ c main_v7 = W4 m ρ c (Proc.devRef .tc main_v7) := by
    dsimp only [V5, W5, hostOps2]; after_results
  have e3 : W3 m ρ c (Proc.devRef .tc main_v7) = W2 m ρ c (Proc.devRef .tc main_v7) := by
    dsimp only [W3, hostOps1]; after_results
  exact e.trans ((W4_of_ne m ρ c main_v7 (by decide)).trans (e3.trans (W2_of_ne m ρ c main_v7 (by decide))))

/-! ## The two accumulating launches, as functions of the arrays they find -/

/-- The first linear layer over the arrays the first launch finds. -/
def L0 (V : (c : Dev nD) → (b : Ref sig .tc) → Buf (Elt Ideal) ((c : Thread nD τ).loc b)) (c : Dev nD) : Fin 16 → Fin 4096 → Fin 384 → EReal :=
  Spec.lin1 (Spec.distK (V c main_arg0) (V c main_arg1)) (V c main_arg2) (V c main_arg3)
    (fun j o => (V c main_v0 : S384x384.Idx → EReal) (ix2 j o)) (fun o => (V c main_v2 : S1x384.Idx → EReal) (ix2 (0 : Fin 1) o))

/-- The second linear layer over the arrays the second launch finds. -/
def L1 (V : (c : Dev nD) → (b : Ref sig .tc) → Buf (Elt Ideal) ((c : Thread nD τ).loc b)) (c : Dev nD) : Fin 16 → Fin 4096 → Fin 256 → EReal :=
  Spec.lin2 (fun b n j => max (Spec.norm1 ((V c main_v8_0 : S16x4096x384.Idx → EReal) (ix3 b n j)) ((V c main_v11 : S1x384.Idx → EReal) (ix2 (0 : Fin 1) j))
      ((V c main_v18 : S1x384.Idx → EReal) (ix2 (0 : Fin 1) j)) ((V c main_v4 : S1x384.Idx → EReal) (ix2 (0 : Fin 1) j)) ((V c main_v5 : S1x384.Idx → EReal) (ix2 (0 : Fin 1) j))) 0)
    (fun j o => (V c main_v1 : S384x256.Idx → EReal) (ix2 j o)) (fun o => (V c main_v3 : S1x256.Idx → EReal) (ix2 (0 : Fin 1) o))

/-- What the first two launches leave in their output arrays, whatever arrays they find: the layer's
    value per point, and per cloud and channel its sum and its sum of squares over the 4096 points. -/
structure Regions : Prop where
  a6 : ∀ V c b n o, @Eq EReal (((dat0 (F := Ideal) V c).arrAt 6 cfg0.N : S16x4096x384.Idx → EReal) (ix3 b n o)) (L0 V c b n o)
  a7 : ∀ V c b (u : Fin 1) o, @Eq EReal (((dat0 (F := Ideal) V c).arrAt 7 cfg0.N : S16x1x384.Idx → EReal) (ix3 b u o)) (∑ n : Fin 4096, L0 V c b n o)
  a8 : ∀ V c b (u : Fin 1) o, @Eq EReal (((dat0 (F := Ideal) V c).arrAt 8 cfg0.N : S16x1x384.Idx → EReal) (ix3 b u o)) (∑ n : Fin 4096, L0 V c b n o * L0 V c b n o)
  b7 : ∀ V c b n o, @Eq EReal (((dat1 (F := Ideal) V c).arrAt 7 cfg1.N : S16x4096x256.Idx → EReal) (ix3 b n o)) (L1 V c b n o)
  b8 : ∀ V c b (u : Fin 1) o, @Eq EReal (((dat1 (F := Ideal) V c).arrAt 8 cfg1.N : S16x1x256.Idx → EReal) (ix3 b u o)) (∑ n : Fin 4096, L1 V c b n o)
  b9 : ∀ V c b (u : Fin 1) o, @Eq EReal (((dat1 (F := Ideal) V c).arrAt 9 cfg1.N : S16x1x256.Idx → EReal) (ix3 b u o)) (∑ n : Fin 4096, L1 V c b n o * L1 V c b n o)

/-! ## The chain -/

section chain
variable (c : Dev nD)

/-- The twelve argument arrays as launched. -/
abbrev aXd : Spec.A3 16 1024 3 := m ((c : Thread nD τ).loc main_arg0)
abbrev aXu : Spec.A3 16 4096 3 := m ((c : Thread nD τ).loc main_arg1)
abbrev aFd : Spec.A3 16 1024 256 := m ((c : Thread nD τ).loc main_arg2)
abbrev aFu : Spec.A3 16 4096 128 := m ((c : Thread nD τ).loc main_arg3)
abbrev aW1 : Spec.A2 384 384 := m ((c : Thread nD τ).loc main_arg4)
abbrev aB1 : Spec.A1 384 := m ((c : Thread nD τ).loc main_arg5)
abbrev aG1 : Spec.A1 384 := m ((c : Thread nD τ).loc main_arg6)
abbrev aBe1 : Spec.A1 384 := m ((c : Thread nD τ).loc main_arg7)
abbrev aW2 : Spec.A2 256 384 := m ((c : Thread nD τ).loc main_arg8)
abbrev aB2 : Spec.A1 256 := m ((c : Thread nD τ).loc main_arg9)
abbrev aG2 : Spec.A1 256 := m ((c : Thread nD τ).loc main_arg10)
abbrev aBe2 : Spec.A1 256 := m ((c : Thread nD τ).loc main_arg11)

/-- The first launch computes the first layer of the arguments. -/
theorem L0_eq (b : Fin 16) (n : Fin 4096) (o : Fin 384) :
    L0 (V1 m ρ) c b n o = Spec.H1 (Spec.distK (aXd m c) (aXu m c)) (aFd m c) (aFu m c) (aW1 m c) (aB1 m c) b n o := by
  unfold L0 Spec.H1
  rw [V1_arg0 m ρ c, V1_arg1 m ρ c, V1_arg2 m ρ c, V1_arg3 m ρ c]
  have e1 : (fun (j o : Fin 384) => (V1 m ρ c main_v0 : S384x384.Idx → EReal) (ix2 j o)) = fun j o => aW1 m c (ix2 o j) :=
    funext fun j => funext fun o => V1_v0 m ρ c j o
  have e2 : (fun (o : Fin 384) => (V1 m ρ c main_v2 : S1x384.Idx → EReal) (ix2 (0 : Fin 1) o)) = fun o => aB1 m c (ix1 o) :=
    funext fun o => V1_v2 m ρ c 0 o
  rw [e1, e2]

/-- The first layer of the arguments, the distance written coordinate by coordinate. -/
abbrev kH1 : Fin 16 → Fin 4096 → Fin 384 → EReal :=
  Spec.H1 (Spec.distK (aXd m c) (aXu m c)) (aFd m c) (aFu m c) (aW1 m c) (aB1 m c)

/-- The second layer of the arguments, the variance as mean of squares minus squared mean. -/
abbrev kH2 : Fin 16 → Fin 4096 → Fin 256 → EReal :=
  Spec.H2 (Spec.distK (aXd m c) (aXu m c)) Spec.varK (aFd m c) (aFu m c) (aW1 m c) (aB1 m c) (aG1 m c) (aBe1 m c) (aW2 m c) (aB2 m c)

variable (hR : Regions)
include hR

/-- What the second launch finds: the first layer, -/
theorem H1_at (b : Fin 16) (n : Fin 4096) (j : Fin 384) :
    @Eq EReal ((V3 m ρ c main_v8_0 : S16x4096x384.Idx → EReal) (ix3 b n j)) (kH1 m c b n j) := by
  rw [V3_v8_0]; exact (hR.a6 (V1 m ρ) c b n j).trans (L0_eq m ρ c b n j)

theorem sum1_at (b : Fin 16) (j : Fin 384) :
    @Eq EReal (((dat0 (V1 m ρ) c).arrAt 7 cfg0.N : S16x1x384.Idx → EReal) (ix3 b (0 : Fin 1) j)) (∑ n : Fin 4096, kH1 m c b n j) :=
  (hR.a7 (V1 m ρ) c b 0 j).trans (Finset.sum_congr rfl fun n _ => L0_eq m ρ c b n j)

theorem sumsq1_at (b : Fin 16) (j : Fin 384) :
    @Eq EReal (((dat0 (V1 m ρ) c).arrAt 8 cfg0.N : S16x1x384.Idx → EReal) (ix3 b (0 : Fin 1) j)) (∑ n : Fin 4096, kH1 m c b n j * kH1 m c b n j) :=
  (hR.a8 (V1 m ρ) c b 0 j).trans (Finset.sum_congr rfl fun n _ => by rw [L0_eq m ρ c b n j])

/-- its batch mean, -/
theorem mean1_at (j : Fin 384) :
    (V3 m ρ c main_v11 : S1x384.Idx → EReal) (ix2 (0 : Fin 1) j) = Spec.mean (kH1 m c) j := by
  rw [V3_v11]
  unfold Spec.mean Spec.total
  exact congrArg (fun z => Ideal.div z Spec.cnt) (Finset.sum_congr rfl fun b _ => sum1_at m ρ c hR b j)

/-- and its batch variance. -/
theorem var1_at (j : Fin 384) :
    (V3 m ρ c main_v18 : S1x384.Idx → EReal) (ix2 (0 : Fin 1) j) = Spec.varK (kH1 m c) j := by
  rw [V3_v18]
  unfold Spec.varK Spec.mean Spec.total
  have e7 : @Eq EReal (∑ b : Fin 16, ((dat0 (V1 m ρ) c).arrAt 7 cfg0.N : S16x1x384.Idx → EReal) (ix3 b (0 : Fin 1) j)) (∑ b : Fin 16, ∑ n : Fin 4096, kH1 m c b n j) :=
    Finset.sum_congr rfl fun b _ => sum1_at m ρ c hR b j
  have e8 : @Eq EReal (∑ b : Fin 16, ((dat0 (V1 m ρ) c).arrAt 8 cfg0.N : S16x1x384.Idx → EReal) (ix3 b (0 : Fin 1) j)) (∑ b : Fin 16, ∑ n : Fin 4096, kH1 m c b n j * kH1 m c b n j) :=
    Finset.sum_congr rfl fun b _ => sumsq1_at m ρ c hR b j
  rw [e7, e8]

/-- The second launch computes the second layer of the arguments. -/
theorem L1_eq (b : Fin 16) (n : Fin 4096) (o : Fin 256) : L1 (V3 m ρ) c b n o = kH2 m c b n o := by
  unfold L1 kH2 Spec.H2 Spec.lin2
  refine congr (congrArg _ (Finset.sum_congr rfl fun j _ => ?_)) ?_
  · show max (Spec.norm1 ((V3 m ρ c main_v8_0 : S16x4096x384.Idx → EReal) (ix3 b n j)) ((V3 m ρ c main_v11 : S1x384.Idx → EReal) (ix2 (0 : Fin 1) j))
        ((V3 m ρ c main_v18 : S1x384.Idx → EReal) (ix2 (0 : Fin 1) j)) ((V3 m ρ c main_v4 : S1x384.Idx → EReal) (ix2 (0 : Fin 1) j))
        ((V3 m ρ c main_v5 : S1x384.Idx → EReal) (ix2 (0 : Fin 1) j))) 0 * (V3 m ρ c main_v1 : S384x256.Idx → EReal) (ix2 j o)
      = max (Spec.norm1 (kH1 m c b n j) (Spec.mean (kH1 m c) j) (Spec.varK (kH1 m c) j) (aG1 m c (ix1 j)) (aBe1 m c (ix1 j))) 0 * aW2 m c (ix2 o j)
    rw [H1_at m ρ c hR, mean1_at m ρ c hR, var1_at m ρ c hR, V3_v4, V3_v5, V3_v1, V1_v4, V1_v5, V1_v1]
  · show (V3 m ρ c main_v3 : S1x256.Idx → EReal) (ix2 (0 : Fin 1) o) = aB2 m c (ix1 o)
    rw [V3_v3, V1_v3]

theorem H2_at (b : Fin 16) (n : Fin 4096) (o : Fin 256) :
    @Eq EReal ((V5 m ρ c main_v19_0 : S16x4096x256.Idx → EReal) (ix3 b n o)) (kH2 m c b n o) := by
  rw [V5_v19_0]; exact (hR.b7 (V3 m ρ) c b n o).trans (L1_eq m ρ c hR b n o)

theorem sum2_at (b : Fin 16) (o : Fin 256) :
    @Eq EReal (((dat1 (V3 m ρ) c).arrAt 8 cfg1.N : S16x1x256.Idx → EReal) (ix3 b (0 : Fin 1) o)) (∑ n : Fin 4096, kH2 m c b n o) :=
  (hR.b8 (V3 m ρ) c b 0 o).trans (Finset.sum_congr rfl fun n _ => L1_eq m ρ c hR b n o)

theorem sumsq2_at (b : Fin 16) (o : Fin 256) :
    @Eq EReal (((dat1 (V3 m ρ) c).arrAt 9 cfg1.N : S16x1x256.Idx → EReal) (ix3 b (0 : Fin 1) o)) (∑ n : Fin 4096, kH2 m c b n o * kH2 m c b n o) :=
  (hR.b9 (V3 m ρ) c b 0 o).trans (Finset.sum_congr rfl fun n _ => by rw [L1_eq m ρ c hR b n o])

theorem mean2_at (o : Fin 256) :
    (V5 m ρ c main_v22 : S1x256.Idx → EReal) (ix2 (0 : Fin 1) o) = Spec.mean (kH2 m c) o := by
  rw [V5_v22]
  unfold Spec.mean Spec.total
  exact congrArg (fun z => Ideal.div z Spec.cnt) (Finset.sum_congr rfl fun b _ => sum2_at m ρ c hR b o)

theorem var2_at (o : Fin 256) :
    (V5 m ρ c main_v29 : S1x256.Idx → EReal) (ix2 (0 : Fin 1) o) = Spec.varK (kH2 m c) o := by
  rw [V5_v29]
  unfold Spec.varK Spec.mean Spec.total
  have e8 : @Eq EReal (∑ b : Fin 16, ((dat1 (V3 m ρ) c).arrAt 8 cfg1.N : S16x1x256.Idx → EReal) (ix3 b (0 : Fin 1) o)) (∑ b : Fin 16, ∑ n : Fin 4096, kH2 m c b n o) :=
    Finset.sum_congr rfl fun b _ => sum2_at m ρ c hR b o
  have e9 : @Eq EReal (∑ b : Fin 16, ((dat1 (V3 m ρ) c).arrAt 9 cfg1.N : S16x1x256.Idx → EReal) (ix3 b (0 : Fin 1) o)) (∑ b : Fin 16, ∑ n : Fin 4096, kH2 m c b n o * kH2 m c b n o) :=
    Finset.sum_congr rfl fun b _ => sumsq2_at m ρ c hR b o
  rw [e8, e9]

/-- The result array after the run: the chain of the arguments. -/
theorem result :
    (W6 m ρ c (Proc.devRef .tc main_v30) : S16x4096x256.Idx → EReal)
      = Spec.OUT (Spec.distK (aXd m c) (aXu m c)) Spec.varK Spec.varK (aFd m c) (aFu m c) (aW1 m c) (aB1 m c) (aG1 m c) (aBe1 m c)
          (aW2 m c) (aB2 m c) (aG2 m c) (aBe2 m c) := by
  have e : W6 m ρ c (Proc.devRef .tc main_v30) = (dat2 (V5 m ρ) c).arrAt 5 cfg2.N := W6_arr m ρ c 5
  rw [e, R2.arr5]
  funext i
  obtain ⟨b, n, o, rfl⟩ : ∃ (b : Fin 16) (n : Fin 4096) (o : Fin 256), i = ix3 b n o := ⟨i 0, i 1, i 2, eq_ix3 i⟩
  show Spec.norm1 ((V5 m ρ c main_v19_0 : S16x4096x256.Idx → EReal) (ix3 b n o)) ((V5 m ρ c main_v22 : S1x256.Idx → EReal) (ix2 (0 : Fin 1) o))
      ((V5 m ρ c main_v29 : S1x256.Idx → EReal) (ix2 (0 : Fin 1) o)) ((V5 m ρ c main_v6 : S1x256.Idx → EReal) (ix2 (0 : Fin 1) o))
      ((V5 m ρ c main_v7 : S1x256.Idx → EReal) (ix2 (0 : Fin 1) o))
    = Spec.norm1 (kH2 m c b n o) (Spec.mean (kH2 m c) o) (Spec.varK (kH2 m c) o) (aG2 m c (ix1 o)) (aBe2 m c (ix1 o))
  rw [H2_at m ρ c hR, mean2_at m ρ c hR, var2_at m ρ c hR, V5_v6, V5_v7, V1_v6, V1_v7]

end chain

end Cert.KernelIdeal.Glue

end
-- ==== Proof.RefDist.lean ====
/-
  The reference's squared distance between fine point n and coarse point m of cloud b.

  The reference takes the squared norm of the fine point and of the coarse point (each a sum of three
  squares, started from zero), adds the two, and subtracts twice the inner product of the two points:
  the squared distance by the polarisation identity.
-/
import proofs.«113022_j46755013984985_2_alg».proof.Proof.RefReadP
import proofs.«113022_j46755013984985_2_alg».proof.Proof.Spec

noncomputable section

open scoped BigOperators

namespace Cert.ReferenceIdeal.RefValue

open Cert.ReferenceIdeal Cert.ReferenceIdeal.ReadP Idealize.ShloMosaic Idealize.ShloMosaic.ValueIdx

/-- The reference's distance array at (b, n, m) is |u|² + |d|² - 2 u·d. -/
theorem dist_eq (x0 : (⟨S16x1024x3, .f32⟩ : BufTy).Contents (Elt Ideal)) (x1 : (⟨S16x4096x3, .f32⟩ : BufTy).Contents (Elt Ideal))
    (b : Fin 16) (n : Fin 4096) (m : Fin 1024) :
    val_main_v12 (F := Ideal) x0 x1 (ix3 b n m) = Spec.distR x0 x1 b n m := by
  have eu : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have ed : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply, val_main_cst_apply, val_main_cst_0_apply, val_main_cst_1_apply]
  simp only [val_main_v0_apply, val_main_v2_apply, eu, ed, el, er, Ideal.ofBits_def, Ideal.addf_def,
    Ideal.subf_def, Ideal.mulf_def, Ideal.ofBits_zero_f32, zero_add]
  rfl

end Cert.ReferenceIdeal.RefValue

end
-- ==== Proof.RefWeight.lean ====
/-
  The reference's interpolation weights.

  From the squared distance: the regularised inverse distance 1 / (dist + 1e-8), its sum over the
  coarse points of the cloud (started from zero), and the quotient of the two.
-/
import proofs.«113022_j46755013984985_2_alg».proof.Proof.RefDist

noncomputable section

open scoped BigOperators

namespace Cert.ReferenceIdeal.RefValue

open Cert.ReferenceIdeal Cert.ReferenceIdeal.ReadP Idealize.ShloMosaic Idealize.ShloMosaic.ValueIdx

/-- The inverse distance at (b, n, m). -/
theorem recip_eq (x0 : (⟨S16x1024x3, .f32⟩ : BufTy).Contents (Elt Ideal)) (x1 : (⟨S16x4096x3, .f32⟩ : BufTy).Contents (Elt Ideal))
    (b : Fin 16) (n : Fin 4096) (m : Fin 1024) :
    val_main_v16 (F := Ideal) x0 x1 (ix3 b n m) = Spec.recip (Spec.distR x0 x1) b n m := by
  rw [val_main_v16_apply, val_main_v15_apply, val_main_cst_3_apply, val_main_v14_apply, val_main_v13_apply,
    val_main_cst_2_apply, dist_eq]
  simp only [Ideal.ofBits_def, Ideal.addf_def, Ideal.hostDivf_def]
  rfl

/-- The normaliser at (b, n): the inverse distances summed over the coarse points. -/
theorem denom_eq (x0 : (⟨S16x1024x3, .f32⟩ : BufTy).Contents (Elt Ideal)) (x1 : (⟨S16x4096x3, .f32⟩ : BufTy).Contents (Elt Ideal))
    (b : Fin 16) (n : Fin 4096) :
    val_main_v17 (F := Ideal) x0 x1 (ix2 b n) = Spec.denom (Spec.distR x0 x1) b n := by
  have e : ∀ k : Fin 1024, idx_main_v17 (ix2 b n) k = ix3 b n k := fun k =>
    funext fun a => Fin.ext (by match a with | ⟨0, _⟩ => rfl | ⟨1, _⟩ => rfl | ⟨2, _⟩ => rfl)
  rw [val_main_v17_apply, val_main_cst_4_apply]
  simp only [e, recip_eq, Ideal.ofBits_def, Ideal.ofBits_zero_f32, zero_add]
  rfl

/-- The weight at (b, n, m): the inverse distance over the normaliser. -/
theorem weight_eq (x0 : (⟨S16x1024x3, .f32⟩ : BufTy).Contents (Elt Ideal)) (x1 : (⟨S16x4096x3, .f32⟩ : BufTy).Contents (Elt Ideal))
    (b : Fin 16) (n : Fin 4096) (m : Fin 1024) :
    val_main_v20 (F := Ideal) x0 x1 (ix3 b n m) = Spec.weight (Spec.distR x0 x1) b n m := by
  have e : idx_main_v18 (idx_main_v19 (ix3 b n m)) = ix2 b n :=
    funext fun a => Fin.ext (by match a with | ⟨0, _⟩ => rfl | ⟨1, _⟩ => rfl)
  rw [val_main_v20_apply, val_main_v19_apply, val_main_v18_apply, e, denom_eq, recip_eq]
  simp only [Ideal.hostDivf_def]
  rfl

end Cert.ReferenceIdeal.RefValue

end
-- ==== Proof.RefCat.lean ====
/-
  Two arrays joined along the channel axis, read at a channel.

  Joining a [16, 4096, 128] array with a [16, 4096, 256] one along the last axis gives a
  [16, 4096, 384] array whose channel j is channel j of the first when j < 128 and channel
  j - 128 of the second otherwise, at the same cloud and point.
-/
import Idealize.ShloMosaic.Lib.Pipeline.Value
import Idealize.ShloMosaic.Lib.ValueIdx

noncomputable section

namespace Cert.ReferenceIdeal.RefValue

open Idealize.ShloMosaic Idealize.ShloMosaic.ValueIdx

/-- The joined array at (b, n, j): the first piece below channel 128, the second from there on. -/
theorem concat_channel {α : Type}
    (h : Shape.Concatenates [(⟨3, ![16, 4096, 128]⟩ : Shape), ⟨3, ![16, 4096, 256]⟩] ⟨3, ![16, 4096, 384]⟩ 2)
    (x₁ : (⟨3, ![16, 4096, 128]⟩ : Shape).Idx → α) (x₂ : (⟨3, ![16, 4096, 256]⟩ : Shape).Idx → α)
    (b : Fin 16) (n : Fin 4096) (j : Fin 384) :
    concatenate ⟨3, ![16, 4096, 384]⟩ 2 [⟨⟨3, ![16, 4096, 128]⟩, x₁⟩, ⟨⟨3, ![16, 4096, 256]⟩, x₂⟩] h (ix3 b n j)
      = if hj : j.val < 128 then x₁ (ix3 b n ⟨j.val, hj⟩)
        else x₂ (ix3 b n ⟨j.val - 128, by have := j.isLt; omega⟩) := by
  split
  · next hj =>
    exact concatenate_pair_apply_left 2 x₁ x₂ h (ix3 b n j) rfl (ix3 b n ⟨j.val, hj⟩)
      (fun c => by match c with | ⟨0, _⟩ => rfl | ⟨1, _⟩ => rfl | ⟨2, _⟩ => rfl)
  · next hj =>
    have hlt : j.val - 128 < 256 := by have := j.isLt; omega
    exact concatenate_pair_apply_right 2 x₁ x₂ h (ix3 b n j) rfl rfl (ix3 b n ⟨j.val - 128, hlt⟩)
      (fun c hc => by
        match c, hc with
        | ⟨0, _⟩, _ => rfl
        | ⟨1, _⟩, _ => rfl
        | ⟨2, _⟩, hc => exact absurd rfl hc)
      (by show (j.val - 128) + 128 = j.val; omega)

end Cert.ReferenceIdeal.RefValue

end
-- ==== Proof.RefLin1.lean ====
/-
  The reference's first linear layer.

  The coarse features are interpolated with the weights (a sum over the coarse points of the cloud),
  joined behind the 128 fine channels, multiplied by the weight matrix (a sum over the 384 joined
  channels, the matrix read as (output, input)), and the bias of the output channel is added.
-/
import proofs.«113022_j46755013984985_2_alg».proof.Proof.RefWeight
import proofs.«113022_j46755013984985_2_alg».proof.Proof.RefCat

noncomputable section

open scoped BigOperators

namespace Cert.ReferenceIdeal.RefValue

open Cert.ReferenceIdeal Cert.ReferenceIdeal.ReadP Idealize.ShloMosaic Idealize.ShloMosaic.ValueIdx

/-- The interpolated features at (b, n, d). -/
theorem interp_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal))
    (b : Fin 16) (n : Fin 4096) (d : Fin 256) :
    val_main_v21 (F := Ideal) x0 x1 x2 (ix3 b n d) = Spec.interp (Spec.distR x0 x1) x2 b n d := by
  have el : ∀ k : Fin 1024, lidx_main_v21 (ix3 b n d) k = ix3 b n k := fun k =>
    funext fun a => Fin.ext (by match a with | ⟨0, _⟩ => rfl | ⟨1, _⟩ => rfl | ⟨2, _⟩ => rfl)
  have er : ∀ k : Fin 1024, ridx_main_v21 (ix3 b n d) k = ix3 b k d := fun k =>
    funext fun a => Fin.ext (by match a with | ⟨0, _⟩ => rfl | ⟨1, _⟩ => rfl | ⟨2, _⟩ => rfl)
  rw [val_main_v21_apply]
  simp only [el, er, weight_eq]
  rfl

/-- The joined features at (b, n, j): fine channel j below 128, interpolated channel j - 128 from there on. -/
theorem xcat_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (b : Fin 16) (n : Fin 4096) (j : Fin 384) :
    val_main_v22 (F := Ideal) x0 x1 x2 x3 (ix3 b n j) = Spec.xcat (Spec.distR x0 x1) x2 x3 b n j := by
  unfold val_main_v22
  refine (concat_channel _ x3 (val_main_v21 (F := Ideal) x0 x1 x2) b n j).trans ?_
  unfold Spec.xcat
  by_cases hj : j.val < 128
  · rw [dif_pos hj, dif_pos hj]
  · rw [dif_neg hj, dif_neg hj]
    exact interp_eq x0 x1 x2 b n _

/-- The first layer at (b, n, o). -/
theorem h1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 : (⟨S384, .f32⟩ : BufTy).Contents (Elt Ideal))
    (b : Fin 16) (n : Fin 4096) (o : Fin 384) :
    val_main_v26 (F := Ideal) x0 x1 x2 x3 x4 x5 (ix3 b n o) = Spec.H1 (Spec.distR x0 x1) x2 x3 x4 x5 b n o := by
  have el : ∀ k : Fin 384, lidx_main_v23 (ix3 b n o) k = ix3 b n k := fun k =>
    funext fun a => Fin.ext (by match a with | ⟨0, _⟩ => rfl | ⟨1, _⟩ => rfl | ⟨2, _⟩ => rfl)
  have er : ∀ k : Fin 384, ridx_main_v23 (ix3 b n o) k = ix2 o k := fun k =>
    funext fun a => Fin.ext (by match a with | ⟨0, _⟩ => rfl | ⟨1, _⟩ => rfl)
  have eb : idx_main_v24 (idx_main_v25 (ix3 b n o)) = ix1 o :=
    funext fun a => Fin.ext (by match a with | ⟨0, _⟩ => rfl)
  rw [val_main_v26_apply, val_main_v23_apply, val_main_v25_apply, val_main_v24_apply, eb]
  simp only [el, er, xcat_eq, Ideal.addf_def]
  rfl

end Cert.ReferenceIdeal.RefValue

end
-- ==== Proof.RefSum.lean ====
/-
  A host sum over the first two axes of a [16, 4096, C] array, read at a channel.

  The host's float sum at a result index is the initial value plus the sum of the operand over the
  indices that drop to it.  Dropping axes 0 and 1 of (b, n, o) leaves o, so the indices that drop to
  channel o are exactly the points (b, n, o), one for each cloud b and each point n of it: the sum is
  the double sum over clouds and points.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.ReferenceIdeal.RefValue

open Idealize.ShloMosaic Idealize.ShloMosaic.ValueIdx

/-- The points of channel o: cloud b, point n go to the index (b, n, o). -/
def pointEmb {C : Nat} (o : Fin C) : Fin 16 × Fin 4096 ↪ (⟨3, ![16, 4096, C]⟩ : Shape).Idx :=
  ⟨fun p => ix3 p.1 p.2 o, fun p q h => by
    have h0 : p.1 = q.1 := congrFun h 0
    have h1 : p.2 = q.2 := congrFun h 1
    exact Prod.ext h0 h1⟩

/-- Dropping the first two of three axes keeps at least one axis. -/
theorem kept_len {C : Nat} : (0 : Nat) < ((⟨3, ![16, 4096, C]⟩ : Shape).kept [0, 1]).length := Nat.zero_lt_one

/-- The axis kept is the last one, whatever the extents. -/
theorem kept_zero {C : Nat} : ((⟨3, ![16, 4096, C]⟩ : Shape).kept [0, 1])[(0 : Nat)]'kept_len = 2 := rfl

/-- Dropping the first two axes of (b, n, o) leaves o. -/
theorem drop_point {C : Nat} (h : Shape.ReducesTo (⟨3, ![16, 4096, C]⟩ : Shape) [0, 1] ⟨1, ![C]⟩)
    (b : Fin 16) (n : Fin 4096) (o : Fin C) : h.drop (ix3 b n o) = ix1 o := by
  funext a
  match a with
  | ⟨0, _⟩ => exact Fin.ext (Shape.ReducesTo.drop_apply_val_of_eq h (ix3 b n o) 0 2 kept_len kept_zero)

/-- An index that drops to channel o is the point (its cloud, its point, o). -/
theorem eq_point_of_drop {C : Nat} (h : Shape.ReducesTo (⟨3, ![16, 4096, C]⟩ : Shape) [0, 1] ⟨1, ![C]⟩)
    (i : (⟨3, ![16, 4096, C]⟩ : Shape).Idx) (o : Fin C) (hi : h.drop i = ix1 o) : ix3 (i 0) (i 1) o = i := by
  have h2 : ((i 2 : Fin C) : Nat) = o.val := by
    have e := Shape.ReducesTo.drop_apply_val_of_eq h i 0 2 kept_len kept_zero
    rw [hi] at e
    exact e.symm
  funext a
  match a with
  | ⟨0, _⟩ => rfl
  | ⟨1, _⟩ => rfl
  | ⟨2, _⟩ => exact Fin.ext h2.symm

/-- So the indices summed at channel o are the image of the points. -/
theorem filter_drop_points {C : Nat} (h : Shape.ReducesTo (⟨3, ![16, 4096, C]⟩ : Shape) [0, 1] ⟨1, ![C]⟩) (o : Fin C) :
    Finset.univ.filter (fun i : (⟨3, ![16, 4096, C]⟩ : Shape).Idx => h.drop i = ix1 o) = Finset.univ.map (pointEmb o) := by
  ext i
  simp only [Finset.mem_filter, Finset.mem_univ, true_and, Finset.mem_map, pointEmb, Function.Embedding.coeFn_mk]
  exact ⟨fun hi => ⟨(i 0, i 1), eq_point_of_drop h i o hi⟩, fun ⟨p, hp⟩ => hp ▸ drop_point h p.1 p.2 o⟩

/-- The host's sum over clouds and points at channel o: the initial value plus the double sum. -/
theorem hostReduceAdd_points {C : Nat} (h : Shape.ReducesTo (⟨3, ![16, 4096, C]⟩ : Shape) [0, 1] ⟨1, ![C]⟩)
    (x : (⟨3, ![16, 4096, C]⟩ : Shape).Idx → EReal) (init : EReal) (o : Fin C) :
    Ideal.hostReduceAdd h x init (ix1 o) = init + ∑ b : Fin 16, ∑ n : Fin 4096, x (ix3 b n o) := by
  unfold Ideal.hostReduceAdd
  rw [filter_drop_points h o, Finset.sum_map, Fintype.sum_prod_type]
  rfl

end Cert.ReferenceIdeal.RefValue

end
-- ==== Proof.RefNorm1.lean ====
/-
  The reference's first batch normalisation and rectifier.

  The first layer is summed over all clouds and points (from zero) and divided by 65536: the mean of
  each channel.  The deviations from the mean are squared, summed the same way and divided by 65536:
  the variance.  Each entry's deviation is multiplied by the inverse square root of the variance plus
  1e-5, by the channel's scale, the channel's shift is added, and the result is clipped at zero from
  below.
-/
import proofs.«113022_j46755013984985_2_alg».proof.Proof.RefLin1
import proofs.«113022_j46755013984985_2_alg».proof.Proof.RefSum

noncomputable section

open scoped BigOperators

namespace Cert.ReferenceIdeal.RefValue

open Cert.ReferenceIdeal Cert.ReferenceIdeal.ReadP Idealize.ShloMosaic Idealize.ShloMosaic.ValueIdx

/-- The first layer summed over clouds and points, at channel o. -/
theorem sum1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 : (⟨S384, .f32⟩ : BufTy).Contents (Elt Ideal))
    (o : Fin 384) :
    val_main_v27 (F := Ideal) x0 x1 x2 x3 x4 x5 (ix1 o) = Spec.total (Spec.H1 (Spec.distR x0 x1) x2 x3 x4 x5) o := by
  unfold val_main_v27
  generalize hy : val_main_v26 (F := Ideal) x0 x1 x2 x3 x4 x5 = y
  simp only [Host.reduceAdd, Ideal.hostReduceAdd_def]
  refine (hostReduceAdd_points _ y _ o).trans ?_
  rw [val_main_cst_5_apply]
  simp only [Ideal.ofBits_def, Ideal.ofBits_zero_f32, zero_add]
  subst hy
  simp only [h1_eq]
  rfl

/-- The mean of channel o, held at (0, 0, o). -/
theorem mean1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 : (⟨S384, .f32⟩ : BufTy).Contents (Elt Ideal))
    (o : Fin 384) :
    val_main_v30 (F := Ideal) x0 x1 x2 x3 x4 x5 (ix3 (0 : Fin 1) (0 : Fin 1) o) = Spec.mean (Spec.H1 (Spec.distR x0 x1) x2 x3 x4 x5) o := by
  have e : idx_main_v28 (ix3 (0 : Fin 1) (0 : Fin 1) o) = ix1 o :=
    funext fun a => Fin.ext (by match a with | ⟨0, _⟩ => rfl)
  rw [val_main_v30_apply, val_main_v28_apply, e, sum1_eq, val_main_v29_apply, val_main_cst_6_apply]
  simp only [Ideal.ofBits_def, Ideal.hostDivf_def]
  rfl

/-- The deviation of the entry (b, n, o) from its channel's mean. -/
theorem dev1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 : (⟨S384, .f32⟩ : BufTy).Contents (Elt Ideal))
    (b : Fin 16) (n : Fin 4096) (o : Fin 384) :
    val_main_v32 (F := Ideal) x0 x1 x2 x3 x4 x5 (ix3 b n o)
      = (Spec.H1 (Spec.distR x0 x1) x2 x3 x4 x5) b n o - Spec.mean (Spec.H1 (Spec.distR x0 x1) x2 x3 x4 x5) o := by
  have e : idx_main_v31 (ix3 b n o) = ix3 (0 : Fin 1) (0 : Fin 1) o :=
    funext fun a => Fin.ext (by match a with | ⟨0, _⟩ => rfl | ⟨1, _⟩ => rfl | ⟨2, _⟩ => rfl)
  rw [val_main_v32_apply, val_main_v31_apply, e, mean1_eq, h1_eq]
  rfl

/-- The squared deviations summed over clouds and points, at channel o. -/
theorem sqsum1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 : (⟨S384, .f32⟩ : BufTy).Contents (Elt Ideal))
    (o : Fin 384) :
    val_main_v34 (F := Ideal) x0 x1 x2 x3 x4 x5 (ix1 o)
      = Spec.total (fun b n o => ((Spec.H1 (Spec.distR x0 x1) x2 x3 x4 x5) b n o - Spec.mean (Spec.H1 (Spec.distR x0 x1) x2 x3 x4 x5) o)
          * ((Spec.H1 (Spec.distR x0 x1) x2 x3 x4 x5) b n o - Spec.mean (Spec.H1 (Spec.distR x0 x1) x2 x3 x4 x5) o)) o := by
  unfold val_main_v34
  generalize hy : val_main_v33 (F := Ideal) x0 x1 x2 x3 x4 x5 = y
  simp only [Host.reduceAdd, Ideal.hostReduceAdd_def]
  refine (hostReduceAdd_points _ y _ o).trans ?_
  rw [val_main_cst_7_apply]
  simp only [Ideal.ofBits_def, Ideal.ofBits_zero_f32, zero_add]
  subst hy
  simp only [val_main_v33_apply, dev1_eq, Ideal.mulf_def]
  rfl

/-- The variance of channel o, held at (0, 0, o). -/
theorem var1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 : (⟨S384, .f32⟩ : BufTy).Contents (Elt Ideal))
    (o : Fin 384) :
    val_main_v37 (F := Ideal) x0 x1 x2 x3 x4 x5 (ix3 (0 : Fin 1) (0 : Fin 1) o) = Spec.varR (Spec.H1 (Spec.distR x0 x1) x2 x3 x4 x5) o := by
  have e : idx_main_v35 (ix3 (0 : Fin 1) (0 : Fin 1) o) = ix1 o :=
    funext fun a => Fin.ext (by match a with | ⟨0, _⟩ => rfl)
  rw [val_main_v37_apply, val_main_v35_apply, e, sqsum1_eq, val_main_v36_apply, val_main_cst_8_apply]
  simp only [Ideal.ofBits_def, Ideal.hostDivf_def]
  rfl

/-- The normalised, rectified first layer at (b, n, j). -/
theorem a1_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (b : Fin 16) (n : Fin 4096) (j : Fin 384) :
    val_main_v51 (F := Ideal) x0 x1 x2 x3 x4 x5 x6 x7 (ix3 b n j)
      = Spec.A1' (Spec.distR x0 x1) Spec.varR x2 x3 x4 x5 x6 x7 b n j := by
  have e38 : idx_main_v38 (ix3 b n j) = ix3 (0 : Fin 1) (0 : Fin 1) j :=
    funext fun a => Fin.ext (by match a with | ⟨0, _⟩ => rfl | ⟨1, _⟩ => rfl | ⟨2, _⟩ => rfl)
  have e43 : idx_main_v43 (ix3 b n j) = ix3 (0 : Fin 1) (0 : Fin 1) j :=
    funext fun a => Fin.ext (by match a with | ⟨0, _⟩ => rfl | ⟨1, _⟩ => rfl | ⟨2, _⟩ => rfl)
  have e46 : idx_main_v45 (idx_main_v46 (ix3 b n j)) = ix1 j :=
    funext fun a => Fin.ext (by match a with | ⟨0, _⟩ => rfl)
  have e49 : idx_main_v48 (idx_main_v49 (ix3 b n j)) = ix1 j :=
    funext fun a => Fin.ext (by match a with | ⟨0, _⟩ => rfl)
  rw [val_main_v51_apply, val_main_v50_apply, val_main_v47_apply, val_main_v44_apply, val_main_v39_apply,
    val_main_v38_apply, val_main_v43_apply, val_main_v42_apply, val_main_v41_apply, val_main_v40_apply,
    val_main_cst_9_apply, val_main_v46_apply, val_main_v45_apply, val_main_v49_apply, val_main_v48_apply,
    val_main_call0_v0_apply, val_main_call0_cst_apply]
  simp only [e38, e43, e46, e49, mean1_eq, var1_eq, h1_eq, Ideal.ofBits_def, Ideal.addf_def, Ideal.subf_def,
    Ideal.mulf_def, Ideal.maximumf_def, Ideal.hostUnary_rsqrt_def, Ideal.ofBits_zero_f32]
  rfl

end Cert.ReferenceIdeal.RefValue

end
-- ==== Proof.RefLin2.lean ====
/-
  The reference's second linear layer.

  The rectified first layer is multiplied by the second weight matrix (a sum over its 384 channels,
  the matrix read as (output, input)) and the bias of the output channel is added.
-/
import proofs.«113022_j46755013984985_2_alg».proof.Proof.RefNorm1

noncomputable section

open scoped BigOperators

namespace Cert.ReferenceIdeal.RefValue

open Cert.ReferenceIdeal Cert.ReferenceIdeal.ReadP Idealize.ShloMosaic Idealize.ShloMosaic.ValueIdx

/-- The second layer at (b, n, o). -/
theorem h2_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 : (⟨S256, .f32⟩ : BufTy).Contents (Elt Ideal))
    (b : Fin 16) (n : Fin 4096) (o : Fin 256) :
    val_main_v55 (F := Ideal) x0 x1 x2 x3 x4 x5 x6 x7 x8 x9 (ix3 b n o) = (Spec.H2 (Spec.distR x0 x1) Spec.varR x2 x3 x4 x5 x6 x7 x8 x9) b n o := by
  have el : ∀ k : Fin 384, lidx_main_v52 (ix3 b n o) k = ix3 b n k := fun k =>
    funext fun a => Fin.ext (by match a with | ⟨0, _⟩ => rfl | ⟨1, _⟩ => rfl | ⟨2, _⟩ => rfl)
  have er : ∀ k : Fin 384, ridx_main_v52 (ix3 b n o) k = ix2 o k := fun k =>
    funext fun a => Fin.ext (by match a with | ⟨0, _⟩ => rfl | ⟨1, _⟩ => rfl)
  have eb : idx_main_v53 (idx_main_v54 (ix3 b n o)) = ix1 o :=
    funext fun a => Fin.ext (by match a with | ⟨0, _⟩ => rfl)
  rw [val_main_v55_apply, val_main_v52_apply, val_main_v54_apply, val_main_v53_apply, eb]
  simp only [el, er, a1_eq, Ideal.addf_def]
  rfl

end Cert.ReferenceIdeal.RefValue

end
-- ==== Proof.RefOut.lean ====
/-
  The reference's second batch normalisation: its result.

  As for the first layer: the mean of each channel of the second layer over all clouds and points,
  the mean squared deviation, and each entry's deviation multiplied by the inverse square root of the
  variance plus 1e-5 and by the channel's scale, with the channel's shift added.  This is the
  reference's result, so the reference computes the specification at its own spellings of the
  distance and of the variance.
-/
import proofs.«113022_j46755013984985_2_alg».proof.Proof.RefLin2

noncomputable section

open scoped BigOperators

namespace Cert.ReferenceIdeal.RefValue

open Cert.ReferenceIdeal Cert.ReferenceIdeal.ReadP Idealize.ShloMosaic Idealize.ShloMosaic.ValueIdx

/-- The second layer summed over clouds and points, at channel o. -/
theorem sum2_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 : (⟨S256, .f32⟩ : BufTy).Contents (Elt Ideal))
    (o : Fin 256) :
    val_main_v56 (F := Ideal) x0 x1 x2 x3 x4 x5 x6 x7 x8 x9 (ix1 o) = Spec.total (Spec.H2 (Spec.distR x0 x1) Spec.varR x2 x3 x4 x5 x6 x7 x8 x9) o := by
  unfold val_main_v56
  generalize hy : val_main_v55 (F := Ideal) x0 x1 x2 x3 x4 x5 x6 x7 x8 x9 = y
  simp only [Host.reduceAdd, Ideal.hostReduceAdd_def]
  refine (hostReduceAdd_points _ y _ o).trans ?_
  rw [val_main_cst_10_apply]
  simp only [Ideal.ofBits_def, Ideal.ofBits_zero_f32, zero_add]
  subst hy
  simp only [h2_eq]
  rfl

/-- The mean of channel o, held at (0, 0, o). -/
theorem mean2_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 : (⟨S256, .f32⟩ : BufTy).Contents (Elt Ideal))
    (o : Fin 256) :
    val_main_v59 (F := Ideal) x0 x1 x2 x3 x4 x5 x6 x7 x8 x9 (ix3 (0 : Fin 1) (0 : Fin 1) o) = Spec.mean (Spec.H2 (Spec.distR x0 x1) Spec.varR x2 x3 x4 x5 x6 x7 x8 x9) o := by
  have e : idx_main_v57 (ix3 (0 : Fin 1) (0 : Fin 1) o) = ix1 o :=
    funext fun a => Fin.ext (by match a with | ⟨0, _⟩ => rfl)
  rw [val_main_v59_apply, val_main_v57_apply, e, sum2_eq, val_main_v58_apply, val_main_cst_11_apply]
  simp only [Ideal.ofBits_def, Ideal.hostDivf_def]
  rfl

/-- The deviation of the entry (b, n, o) from its channel's mean. -/
theorem dev2_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 : (⟨S256, .f32⟩ : BufTy).Contents (Elt Ideal))
    (b : Fin 16) (n : Fin 4096) (o : Fin 256) :
    val_main_v61 (F := Ideal) x0 x1 x2 x3 x4 x5 x6 x7 x8 x9 (ix3 b n o)
      = (Spec.H2 (Spec.distR x0 x1) Spec.varR x2 x3 x4 x5 x6 x7 x8 x9) b n o - Spec.mean (Spec.H2 (Spec.distR x0 x1) Spec.varR x2 x3 x4 x5 x6 x7 x8 x9) o := by
  have e : idx_main_v60 (ix3 b n o) = ix3 (0 : Fin 1) (0 : Fin 1) o :=
    funext fun a => Fin.ext (by match a with | ⟨0, _⟩ => rfl | ⟨1, _⟩ => rfl | ⟨2, _⟩ => rfl)
  rw [val_main_v61_apply, val_main_v60_apply, e, mean2_eq, h2_eq]
  rfl

/-- The squared deviations summed over clouds and points, at channel o. -/
theorem sqsum2_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 : (⟨S256, .f32⟩ : BufTy).Contents (Elt Ideal))
    (o : Fin 256) :
    val_main_v63 (F := Ideal) x0 x1 x2 x3 x4 x5 x6 x7 x8 x9 (ix1 o)
      = Spec.total (fun b n o => ((Spec.H2 (Spec.distR x0 x1) Spec.varR x2 x3 x4 x5 x6 x7 x8 x9) b n o - Spec.mean (Spec.H2 (Spec.distR x0 x1) Spec.varR x2 x3 x4 x5 x6 x7 x8 x9) o)
          * ((Spec.H2 (Spec.distR x0 x1) Spec.varR x2 x3 x4 x5 x6 x7 x8 x9) b n o - Spec.mean (Spec.H2 (Spec.distR x0 x1) Spec.varR x2 x3 x4 x5 x6 x7 x8 x9) o)) o := by
  unfold val_main_v63
  generalize hy : val_main_v62 (F := Ideal) x0 x1 x2 x3 x4 x5 x6 x7 x8 x9 = y
  simp only [Host.reduceAdd, Ideal.hostReduceAdd_def]
  refine (hostReduceAdd_points _ y _ o).trans ?_
  rw [val_main_cst_12_apply]
  simp only [Ideal.ofBits_def, Ideal.ofBits_zero_f32, zero_add]
  subst hy
  simp only [val_main_v62_apply, dev2_eq, Ideal.mulf_def]
  rfl

/-- The variance of channel o, held at (0, 0, o). -/
theorem var2_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 : (⟨S256, .f32⟩ : BufTy).Contents (Elt Ideal))
    (o : Fin 256) :
    val_main_v66 (F := Ideal) x0 x1 x2 x3 x4 x5 x6 x7 x8 x9 (ix3 (0 : Fin 1) (0 : Fin 1) o) = Spec.varR (Spec.H2 (Spec.distR x0 x1) Spec.varR x2 x3 x4 x5 x6 x7 x8 x9) o := by
  have e : idx_main_v64 (ix3 (0 : Fin 1) (0 : Fin 1) o) = ix1 o :=
    funext fun a => Fin.ext (by match a with | ⟨0, _⟩ => rfl)
  rw [val_main_v66_apply, val_main_v64_apply, e, sqsum2_eq, val_main_v65_apply, val_main_cst_13_apply]
  simp only [Ideal.ofBits_def, Ideal.hostDivf_def]
  rfl

/-- The result at (b, n, o): the second layer normalised, scaled and shifted. -/
theorem out_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 x10 x11 : (⟨S256, .f32⟩ : BufTy).Contents (Elt Ideal))
    (b : Fin 16) (n : Fin 4096) (o : Fin 256) :
    val_main_v79 (F := Ideal) x0 x1 x2 x3 x4 x5 x6 x7 x8 x9 x10 x11 (ix3 b n o)
      = Spec.norm1 ((Spec.H2 (Spec.distR x0 x1) Spec.varR x2 x3 x4 x5 x6 x7 x8 x9) b n o) (Spec.mean (Spec.H2 (Spec.distR x0 x1) Spec.varR x2 x3 x4 x5 x6 x7 x8 x9) o) (Spec.varR (Spec.H2 (Spec.distR x0 x1) Spec.varR x2 x3 x4 x5 x6 x7 x8 x9) o) (x10 (ix1 o)) (x11 (ix1 o)) := by
  have e67 : idx_main_v67 (ix3 b n o) = ix3 (0 : Fin 1) (0 : Fin 1) o :=
    funext fun a => Fin.ext (by match a with | ⟨0, _⟩ => rfl | ⟨1, _⟩ => rfl | ⟨2, _⟩ => rfl)
  have e72 : idx_main_v72 (ix3 b n o) = ix3 (0 : Fin 1) (0 : Fin 1) o :=
    funext fun a => Fin.ext (by match a with | ⟨0, _⟩ => rfl | ⟨1, _⟩ => rfl | ⟨2, _⟩ => rfl)
  have e75 : idx_main_v74 (idx_main_v75 (ix3 b n o)) = ix1 o :=
    funext fun a => Fin.ext (by match a with | ⟨0, _⟩ => rfl)
  have e78 : idx_main_v77 (idx_main_v78 (ix3 b n o)) = ix1 o :=
    funext fun a => Fin.ext (by match a with | ⟨0, _⟩ => rfl)
  rw [val_main_v79_apply, val_main_v76_apply, val_main_v73_apply, val_main_v68_apply, val_main_v67_apply,
    val_main_v72_apply, val_main_v71_apply, val_main_v70_apply, val_main_v69_apply, val_main_cst_14_apply,
    val_main_v75_apply, val_main_v74_apply, val_main_v78_apply, val_main_v77_apply]
  simp only [e67, e72, e75, e78, mean2_eq, var2_eq, h2_eq, Ideal.ofBits_def, Ideal.addf_def, Ideal.subf_def,
    Ideal.mulf_def, Ideal.hostUnary_rsqrt_def]
  rfl

/-- The reference's result is the specification at the polarisation distance and the mean squared deviation. -/
theorem ref_eq (x0 : (⟨S16x1024x3, .f32⟩ : BufTy).Contents (Elt Ideal)) (x1 : (⟨S16x4096x3, .f32⟩ : BufTy).Contents (Elt Ideal))
    (x2 : (⟨S16x1024x256, .f32⟩ : BufTy).Contents (Elt Ideal)) (x3 : (⟨S16x4096x128, .f32⟩ : BufTy).Contents (Elt Ideal))
    (x4 : (⟨S384x384, .f32⟩ : BufTy).Contents (Elt Ideal)) (x5 x6 x7 : (⟨S384, .f32⟩ : BufTy).Contents (Elt Ideal))
    (x8 : (⟨S256x384, .f32⟩ : BufTy).Contents (Elt Ideal)) (x9 x10 x11 : (⟨S256, .f32⟩ : BufTy).Contents (Elt Ideal)) :
    val_main_v79 (F := Ideal) x0 x1 x2 x3 x4 x5 x6 x7 x8 x9 x10 x11
      = Spec.OUT (Spec.distR x0 x1) Spec.varR Spec.varR x2 x3 x4 x5 x6 x7 x8 x9 x10 x11 := by
  funext i
  obtain ⟨b, n, o, rfl⟩ : ∃ (b : Fin 16) (n : Fin 4096) (o : Fin 256), i = ix3 b n o := ⟨i 0, i 1, i 2, eq_ix3 i⟩
  rw [out_eq]
  rfl

end Cert.ReferenceIdeal.RefValue

end
-- ==== Proof.R0Pieces.lean ====
/-
  What one run of the first launch's body leaves in its three output blocks, as terms of the
  blocks it reads.  The body has two courses: at the first row tile of a cloud it clears the two
  running sums before adding to them, at the other three tiles it adds to what the tile before
  left.  In both courses the block of the first linear layer is the layer's value on the tile's
  rows; the running sums are the old sums (zero after a clearing) plus the column sums of the
  layer, respectively of its square, over the tile's 1024 rows.
-/
import proofs.«113022_j46755013984985_2_alg».proof.Proof.Gen.KernelIdeal.Frame
import Idealize.ShloMosaic.Lib.Pipeline.Value
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets of a rank-3 block. -/
theorem hz3 : (![0, 0, 0] : Fin 3 → Nat) = fun _ => 0 := funext fun a => by fin_cases a <;> rfl
/-- The zero offsets of a rank-2 block. -/
theorem hz2 : (![0, 0] : Fin 2 → Nat) = fun _ => 0 := funext fun a => by fin_cases a <;> rfl

/-- At a cloud's first tile the layer's block is the layer on the tile's rows: the one store that covers the block. -/
theorem out_A_6 (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S384x384 .f32) (harg6 : arg6.IsWhole) (arg7 : Memref sig .tc .vmem S1x384 .f32) (harg7 : arg7.IsWhole) (arg8 : Memref sig .tc .vmem S1x1024x384 .bf16) (harg8 : arg8.IsWhole) (arg9 : Memref sig .tc .vmem S1x1x384 .f32) (harg9 : arg9.IsWhole) (arg10 : Memref sig .tc .vmem S1x1x384 .f32) (harg10 : arg10.IsWhole) (hc0 : cond0_0 i) (x0 : Vec F S1x1024x3 .f32) (x1 : Vec F S1x1024x3 .f32) (x2 : Vec F S1x1024x256 .f32) (x3 : Vec F S1x1024x128 .f32) (x4 : Vec F S384x384 .f32) (x5 : Vec F S1x384 .f32) :
    out0_A_6 c i arg2 harg2 arg3 harg3 arg4 harg4 arg5 harg5 arg6 harg6 arg7 harg7 arg8 harg8 arg9 harg9 arg10 harg10 hc0 x0 x1 x2 x3 x4 x5 = k0_pay1 (k0_pay10 (k0_pay2 x2) (k0_pay3 x3) (k0_pay4 x0 x1) x4 x5) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  try sl_unfold_words
  rw [View.canon_unit_zero hz3]
  simp only [View.readAt_eq_ld, harg2.read_unread, harg3.read_unread, harg4.read_unread, harg5.read_unread, harg6.read_unread, harg7.read_unread, View.ld_unit_zero (S := S1x1024x3) hz3, View.ld_unit_zero (S := S1x1024x256) hz3, View.ld_unit_zero (S := S1x1024x128) hz3, View.ld_unit_zero (S := S384x384) hz2, View.ld_unit_zero (S := S1x384) hz2]
  first | done | rfl

/-- At a later tile likewise: the layer's block does not depend on what the sums held. -/
theorem out_B_6 (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S384x384 .f32) (harg6 : arg6.IsWhole) (arg7 : Memref sig .tc .vmem S1x384 .f32) (harg7 : arg7.IsWhole) (arg8 : Memref sig .tc .vmem S1x1024x384 .bf16) (harg8 : arg8.IsWhole) (arg9 : Memref sig .tc .vmem S1x1x384 .f32) (harg9 : arg9.IsWhole) (arg10 : Memref sig .tc .vmem S1x1x384 .f32) (harg10 : arg10.IsWhole) (hc0 : ¬cond0_0 i) (x0 : Vec F S1x1024x3 .f32) (x1 : Vec F S1x1024x3 .f32) (x2 : Vec F S1x1024x256 .f32) (x3 : Vec F S1x1024x128 .f32) (x4 : Vec F S384x384 .f32) (x5 : Vec F S1x384 .f32) (xo7 : Vec F S1x1x384 .f32) (xo8 : Vec F S1x1x384 .f32) :
    out0_B_6 c i arg2 harg2 arg3 harg3 arg4 harg4 arg5 harg5 arg6 harg6 arg7 harg7 arg8 harg8 arg9 harg9 arg10 harg10 hc0 x0 x1 x2 x3 x4 x5 xo7 xo8 = k0_pay1 (k0_pay10 (k0_pay2 x2) (k0_pay3 x3) (k0_pay4 x0 x1) x4 x5) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xo7 xo8)]
  unfold kernelRun0_B
  dsimp only
  try sl_unfold_words
  rw [View.canon_unit_zero hz3]
  simp only [View.readAt_eq_ld, harg2.read_unread, harg3.read_unread, harg4.read_unread, harg5.read_unread, harg6.read_unread, harg7.read_unread, View.ld_unit_zero (S := S1x1024x3) hz3, View.ld_unit_zero (S := S1x1024x256) hz3, View.ld_unit_zero (S := S1x1024x128) hz3, View.ld_unit_zero (S := S384x384) hz2, View.ld_unit_zero (S := S1x384) hz2]
  first | done | rfl

/-- At a cloud's first tile the running sum is cleared, read back, and the tile's column sums added: the later of the two stores covers the block, and what it read is the zero block the earlier one left. -/
theorem out_A_7 (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S384x384 .f32) (harg6 : arg6.IsWhole) (arg7 : Memref sig .tc .vmem S1x384 .f32) (harg7 : arg7.IsWhole) (arg8 : Memref sig .tc .vmem S1x1024x384 .bf16) (harg8 : arg8.IsWhole) (arg9 : Memref sig .tc .vmem S1x1x384 .f32) (harg9 : arg9.IsWhole) (arg10 : Memref sig .tc .vmem S1x1x384 .f32) (harg10 : arg10.IsWhole) (hc0 : cond0_0 i) (x0 : Vec F S1x1024x3 .f32) (x1 : Vec F S1x1024x3 .f32) (x2 : Vec F S1x1024x256 .f32) (x3 : Vec F S1x1024x128 .f32) (x4 : Vec F S384x384 .f32) (x5 : Vec F S1x384 .f32) :
    out0_A_7 c i arg2 harg2 arg3 harg3 arg4 harg4 arg5 harg5 arg6 harg6 arg7 harg7 arg8 harg8 arg9 harg9 arg10 harg10 hc0 x0 x1 x2 x3 x4 x5 = k0_pay8 (k0_pay2 x2) (k0_pay3 x3) (k0_pay4 x0 x1) x4 x5 (k0_pay6 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  unfold kernelRun0_A
  dsimp only
  try sl_unfold_words
  rw [View.canon_cons_unit_zero (S := S1x1x384) hz3, View.readCov_unit_zero (S := S1x1x384) _ hz3]
  simp only [View.readAt_eq_ld, harg2.read_unread, harg3.read_unread, harg4.read_unread, harg5.read_unread, harg6.read_unread, harg7.read_unread, View.ld_unit_zero (S := S1x1024x3) hz3, View.ld_unit_zero (S := S1x1024x256) hz3, View.ld_unit_zero (S := S1x1024x128) hz3, View.ld_unit_zero (S := S384x384) hz2, View.ld_unit_zero (S := S1x384) hz2]
  first | done | rfl

/-- The same for the running sum of squares. -/
theorem out_A_8 (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S384x384 .f32) (harg6 : arg6.IsWhole) (arg7 : Memref sig .tc .vmem S1x384 .f32) (harg7 : arg7.IsWhole) (arg8 : Memref sig .tc .vmem S1x1024x384 .bf16) (harg8 : arg8.IsWhole) (arg9 : Memref sig .tc .vmem S1x1x384 .f32) (harg9 : arg9.IsWhole) (arg10 : Memref sig .tc .vmem S1x1x384 .f32) (harg10 : arg10.IsWhole) (hc0 : cond0_0 i) (x0 : Vec F S1x1024x3 .f32) (x1 : Vec F S1x1024x3 .f32) (x2 : Vec F S1x1024x256 .f32) (x3 : Vec F S1x1024x128 .f32) (x4 : Vec F S384x384 .f32) (x5 : Vec F S1x384 .f32) :
    out0_A_8 c i arg2 harg2 arg3 harg3 arg4 harg4 arg5 harg5 arg6 harg6 arg7 harg7 arg8 harg8 arg9 harg9 arg10 harg10 hc0 x0 x1 x2 x3 x4 x5 = k0_pay9 (k0_pay2 x2) (k0_pay3 x3) (k0_pay4 x0 x1) x4 x5 (k0_pay7 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5)]
  unfold kernelRun0_A
  dsimp only
  try sl_unfold_words
  rw [View.canon_cons_unit_zero (S := S1x1x384) hz3, View.readCov_unit_zero (S := S1x1x384) _ hz3]
  simp only [View.readAt_eq_ld, harg2.read_unread, harg3.read_unread, harg4.read_unread, harg5.read_unread, harg6.read_unread, harg7.read_unread, View.ld_unit_zero (S := S1x1024x3) hz3, View.ld_unit_zero (S := S1x1024x256) hz3, View.ld_unit_zero (S := S1x1024x128) hz3, View.ld_unit_zero (S := S384x384) hz2, View.ld_unit_zero (S := S1x384) hz2]
  first | done | rfl

/-- At a later tile the running sum is what the tile before left plus the tile's column sums. -/
theorem out_B_7 (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S384x384 .f32) (harg6 : arg6.IsWhole) (arg7 : Memref sig .tc .vmem S1x384 .f32) (harg7 : arg7.IsWhole) (arg8 : Memref sig .tc .vmem S1x1024x384 .bf16) (harg8 : arg8.IsWhole) (arg9 : Memref sig .tc .vmem S1x1x384 .f32) (harg9 : arg9.IsWhole) (arg10 : Memref sig .tc .vmem S1x1x384 .f32) (harg10 : arg10.IsWhole) (hc0 : ¬cond0_0 i) (x0 : Vec F S1x1024x3 .f32) (x1 : Vec F S1x1024x3 .f32) (x2 : Vec F S1x1024x256 .f32) (x3 : Vec F S1x1024x128 .f32) (x4 : Vec F S384x384 .f32) (x5 : Vec F S1x384 .f32) (xo7 : Vec F S1x1x384 .f32) (xo8 : Vec F S1x1x384 .f32) :
    out0_B_7 c i arg2 harg2 arg3 harg3 arg4 harg4 arg5 harg5 arg6 harg6 arg7 harg7 arg8 harg8 arg9 harg9 arg10 harg10 hc0 x0 x1 x2 x3 x4 x5 xo7 xo8 = k0_pay8 (k0_pay2 x2) (k0_pay3 x3) (k0_pay4 x0 x1) x4 x5 xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 xo7 xo8)]
  unfold kernelRun0_B
  dsimp only
  try sl_unfold_words
  rw [View.canon_unit_zero hz3]
  simp only [View.readAt_eq_ld, harg2.read_unread, harg3.read_unread, harg4.read_unread, harg5.read_unread, harg6.read_unread, harg7.read_unread, View.ld_unit_zero (S := S1x1024x3) hz3, View.ld_unit_zero (S := S1x1024x256) hz3, View.ld_unit_zero (S := S1x1024x128) hz3, View.ld_unit_zero (S := S384x384) hz2, View.ld_unit_zero (S := S1x384) hz2, harg9.read_unread, harg10.read_unread, View.ld_unit_zero (S := S1x1x384) hz3]
  first | done | rfl

/-- The same for the running sum of squares. -/
theorem out_B_8 (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S384x384 .f32) (harg6 : arg6.IsWhole) (arg7 : Memref sig .tc .vmem S1x384 .f32) (harg7 : arg7.IsWhole) (arg8 : Memref sig .tc .vmem S1x1024x384 .bf16) (harg8 : arg8.IsWhole) (arg9 : Memref sig .tc .vmem S1x1x384 .f32) (harg9 : arg9.IsWhole) (arg10 : Memref sig .tc .vmem S1x1x384 .f32) (harg10 : arg10.IsWhole) (hc0 : ¬cond0_0 i) (x0 : Vec F S1x1024x3 .f32) (x1 : Vec F S1x1024x3 .f32) (x2 : Vec F S1x1024x256 .f32) (x3 : Vec F S1x1024x128 .f32) (x4 : Vec F S384x384 .f32) (x5 : Vec F S1x384 .f32) (xo7 : Vec F S1x1x384 .f32) (xo8 : Vec F S1x1x384 .f32) :
    out0_B_8 c i arg2 harg2 arg3 harg3 arg4 harg4 arg5 harg5 arg6 harg6 arg7 harg7 arg8 harg8 arg9 harg9 arg10 harg10 hc0 x0 x1 x2 x3 x4 x5 xo7 xo8 = k0_pay9 (k0_pay2 x2) (k0_pay3 x3) (k0_pay4 x0 x1) x4 x5 xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 xo7 xo8)]
  unfold kernelRun0_B
  dsimp only
  try sl_unfold_words
  rw [View.canon_unit_zero hz3]
  simp only [View.readAt_eq_ld, harg2.read_unread, harg3.read_unread, harg4.read_unread, harg5.read_unread, harg6.read_unread, harg7.read_unread, View.ld_unit_zero (S := S1x1024x3) hz3, View.ld_unit_zero (S := S1x1024x256) hz3, View.ld_unit_zero (S := S1x1024x128) hz3, View.ld_unit_zero (S := S384x384) hz2, View.ld_unit_zero (S := S1x384) hz2, harg9.read_unread, harg10.read_unread, View.ld_unit_zero (S := S1x1x384) hz3]
  first | done | rfl

end Cert.KernelIdeal.R0

end
-- ==== Proof.R0Tile.lean ====
/-
  The arithmetic of one run of the first launch's body, read entry by entry over the extended
  reals.  From the six blocks it reads — a cloud's 1024 coarse points and their features, 1024
  of the cloud's fine points and their features, the weight matrix and the bias row — the body
  forms: the squared distances of each fine point to every coarse point; their regularised
  inverses, normalised along each row to weights; the coarse features interpolated by these
  weights; the fine features joined with the interpolated ones; and the first linear layer of the
  joined features.  Each of these is stated at an index given by its coordinates.  Last, under
  the hypotheses that say which rows of the argument arrays the blocks hold, the layer's tile is
  the specification's first layer on those rows.
-/
import proofs.«113022_j46755013984985_2_alg».proof.Proof.Gen.KernelIdeal.Skeleton
import proofs.«113022_j46755013984985_2_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.R0

open Cert.KernelIdeal Cert.KernelIdeal.Gen
open Idealize.ShloMosaic Idealize.ShloMosaic.ValueIdx
open scoped BigOperators

/-! ## Layout operations of the body, read at an index given by its coordinates -/

section Layout
variable {α : Type}

/-- Dropping a leading axis of extent one keeps the other two coordinates. -/
theorem dropLead2 {n0 n1 : Nat} (x : (⟨3, ![1, n0, n1]⟩ : Shape).Idx → α)
    (h : (⟨3, ![1, n0, n1]⟩ : Shape).ShapeCasts ⟨2, ![n0, n1]⟩) (p : Fin n0) (k : Fin n1) :
    shapeCast ⟨2, ![n0, n1]⟩ x h (ix2 p k) = x (ix3 0 p k) :=
  shapeCast_apply x h (ix2 p k) (ix3 0 p k) (by
    rw [Shape.rowMajor_val_three, Shape.rowMajor_val_two]
    show ((0 : ℕ) * n0 + p.val) * n1 + k.val = p.val * n1 + k.val
    simp)

/-- Adding a leading axis of extent one keeps the two coordinates. -/
theorem addLead2 {n0 n1 : Nat} (x : (⟨2, ![n0, n1]⟩ : Shape).Idx → α)
    (h : (⟨2, ![n0, n1]⟩ : Shape).ShapeCasts ⟨3, ![1, n0, n1]⟩) (p : Fin n0) (k : Fin n1) :
    shapeCast ⟨3, ![1, n0, n1]⟩ x h (ix3 0 p k) = x (ix2 p k) :=
  shapeCast_apply x h (ix3 0 p k) (ix2 p k) (by
    rw [Shape.rowMajor_val_three, Shape.rowMajor_val_two]
    show p.val * n1 + k.val = ((0 : ℕ) * n0 + p.val) * n1 + k.val
    simp)

/-- Adding a leading axis of extent one to a row keeps its coordinate. -/
theorem addLead1 {n : Nat} (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = (0 : ℕ) * n + k.val
    simp)

/-- Dropping a trailing axis of extent one keeps the row coordinate. -/
theorem dropTrail {n : Nat} (x : (⟨2, ![n, 1]⟩ : Shape).Idx → α)
    (h : (⟨2, ![n, 1]⟩ : Shape).ShapeCasts ⟨1, ![n]⟩) (q : Fin n) :
    shapeCast ⟨1, ![n]⟩ x h (ix1 q) = x (ix2 q 0) :=
  shapeCast_apply x h (ix1 q) (ix2 q 0) (by
    rw [Shape.rowMajor_val_two, Shape.rowMajor_val_one]
    show q.val * 1 + (0 : ℕ) = q.val
    simp)

/-- Adding a trailing axis of extent one keeps the row coordinate. -/
theorem addTrail {n : Nat} (x : (⟨1, ![n]⟩ : Shape).Idx → α)
    (h : (⟨1, ![n]⟩ : Shape).ShapeCasts ⟨2, ![n, 1]⟩) (p : Fin n) :
    shapeCast ⟨2, ![n, 1]⟩ x h (ix2 p 0) = x (ix1 p) :=
  shapeCast_apply x h (ix2 p 0) (ix1 p) (by
    rw [Shape.rowMajor_val_two, Shape.rowMajor_val_one]
    show p.val = p.val * 1 + (0 : ℕ)
    simp)

/-- A column spread along the rows reads its row's entry. -/
theorem bcol (x : S1024x1.Idx → α) (p q : Fin 1024) :
    broadcastTo S1024x1024 x broadcasts_S1024x1_S1024x1024 (ix2 p q) = x (ix2 p 0) :=
  broadcastTo_apply x _ (ix2 p q) (ix2 p 0) (fun a => by match a with | ⟨0, _⟩ => rfl | ⟨1, _⟩ => rfl)

/-- A row spread along the columns reads its column's entry. -/
theorem brow (x : S1x1024.Idx → α) (p q : Fin 1024) :
    broadcastTo S1024x1024 x broadcasts_S1x1024_S1024x1024 (ix2 p q) = x (ix2 0 q) :=
  broadcastTo_apply x _ (ix2 p q) (ix2 0 q) (fun a => by match a with | ⟨0, _⟩ => rfl | ⟨1, _⟩ => rfl)

/-- The bias row spread over the tile's rows reads its channel's entry. -/
theorem biasrow (x : S1x384.Idx → α) (p : Fin 1024) (o : Fin 384) :
    broadcastTo S1024x384 x broadcasts_S1x384_S1024x384 (ix2 p o) = x (ix2 0 o) :=
  broadcastTo_apply x _ (ix2 p o) (ix2 0 o) (fun a => by match a with | ⟨0, _⟩ => rfl | ⟨1, _⟩ => rfl)

/-- Coordinate column 0 of a list of points. -/
theorem slice0 (x : S1024x3.Idx → α) (p : Fin 1024) :
    extractStridedSlice S1024x1 ![0, 0] x slices_S1024x3_o0_0_S1024x1 (ix2 p 0) = x (ix2 p 0) :=
  extractStridedSlice_apply _ x _ (ix2 p 0) (ix2 p 0) (fun a => by
    match a with
    | ⟨0, _⟩ => show p.val = 0 + p.val; omega
    | ⟨1, _⟩ => rfl)
/-- Coordinate column 1. -/
theorem slice1 (x : S1024x3.Idx → α) (p : Fin 1024) :
    extractStridedSlice S1024x1 ![0, 1] x slices_S1024x3_o0_1_S1024x1 (ix2 p 0) = x (ix2 p 1) :=
  extractStridedSlice_apply _ x _ (ix2 p 0) (ix2 p 1) (fun a => by
    match a with
    | ⟨0, _⟩ => show p.val = 0 + p.val; omega
    | ⟨1, _⟩ => rfl)
/-- Coordinate column 2. -/
theorem slice2 (x : S1024x3.Idx → α) (p : Fin 1024) :
    extractStridedSlice S1024x1 ![0, 2] x slices_S1024x3_o0_2_S1024x1 (ix2 p 0) = x (ix2 p 2) :=
  extractStridedSlice_apply _ x _ (ix2 p 0) (ix2 p 2) (fun a => by
    match a with
    | ⟨0, _⟩ => show p.val = 0 + p.val; omega
    | ⟨1, _⟩ => rfl)

/-- The joined channels below 128 are the first operand's. -/
theorem cat_lo (x₁ : S1024x128.Idx → α) (x₂ : S1024x256.Idx → α) (p : Fin 1024) (j : Fin 384) (h : j.val < 128) :
    concatenate S1024x384 1 [⟨S1024x128, x₁⟩, ⟨S1024x256, x₂⟩] concatenates_S1024x128_S1024x256_S1024x384_d1 (ix2 p j)
      = x₁ (ix2 p ⟨j.val, h⟩) :=
  concatenate_pair_apply_left 1 x₁ x₂ _ (ix2 p j) rfl (ix2 p ⟨j.val, h⟩) (fun b => by match b with | ⟨0, _⟩ => rfl | ⟨1, _⟩ => rfl)

/-- The joined channels from 128 on are the second operand's, 128 less. -/
theorem cat_hi (x₁ : S1024x128.Idx → α) (x₂ : S1024x256.Idx → α) (p : Fin 1024) (j : Fin 384) (h : ¬j.val < 128) :
    concatenate S1024x384 1 [⟨S1024x128, x₁⟩, ⟨S1024x256, x₂⟩] concatenates_S1024x128_S1024x256_S1024x384_d1 (ix2 p j)
      = x₂ (ix2 p ⟨j.val - 128, by have := j.isLt; omega⟩) :=
  concatenate_pair_apply_right 1 x₁ x₂ _ (ix2 p j) rfl rfl (ix2 p ⟨j.val - 128, by have := j.isLt; omega⟩)
    (fun b hb => by
      match b with
      | ⟨0, _⟩ => rfl
      | ⟨1, _⟩ => exact absurd rfl hb)
    (by show (j.val - 128) + 128 = j.val; omega)

end Layout

/-! ## Sums and products of the body, read at an index -/

/-- The sum along a row of a square tile. -/
theorem rowsum (R : FVec Ideal S1024x1024 .f32) (hφ : FKind.Formats .f32)
    (hacc : (0x00000000#32 : BitVec 32) = 0x00000000#32) (p : Fin 1024) :
    multiReduction .add [1] S1024 R 0x00000000#32 reduces_S1024x1024_S1024 hφ hacc (ix1 p) = ∑ k : Fin 1024, R (ix2 p k) :=
  (Ideal.multiReduction_add_single R 0x00000000#32 reduces_S1024x1024_S1024 hφ hacc (ix1 p)).trans
    (Finset.sum_congr rfl fun k _ => congrArg R (funext fun a => Fin.ext (by
      match a with
      | ⟨0, _⟩ => rfl
      | ⟨1, _⟩ => rfl)))

/-- The sum down a column of the layer's tile. -/
theorem colsum (R : FVec Ideal S1024x384 .f32) (hφ : FKind.Formats .f32)
    (hacc : (0x00000000#32 : BitVec 32) = 0x00000000#32) (o : Fin 384) :
    multiReduction .add [0] S384 R 0x00000000#32 reduces_S1024x384_S384 hφ hacc (ix1 o) = ∑ p : Fin 1024, R (ix2 p o) :=
  (Ideal.multiReduction_add_single R 0x00000000#32 reduces_S1024x384_S384 hφ hacc (ix1 o)).trans
    (Finset.sum_congr rfl fun k _ => congrArg R (funext fun a => Fin.ext (by
      match a with
      | ⟨0, _⟩ => rfl
      | ⟨1, _⟩ => rfl)))

/-- The left operand's row is the output's row. -/
theorem dInterp_lhs0 (j : S1024x256.Idx) (q : dot_S1024x1024_S1024x256_S1024x256_1_0_0_1_n_n.contr.Idx) : (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
/-- The right operand's column is the output's column. -/
theorem dInterp_rhs1 (j : S1024x256.Idx) (q : dot_S1024x1024_S1024x256_S1024x256_1_0_0_1_n_n.contr.Idx) : (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl
/-- The interpolation product: weights (rows × coarse points) times coarse features (coarse points × channels), into the zero tile. -/
theorem mmInterp (a : FVec Ideal S1024x1024 .bf16) (b : FVec Ideal S1024x256 .bf16) (p : Fin 1024) (o : Fin 256) :
    matmul dot_S1024x1024_S1024x256_S1024x256_1_0_0_1_n_n none a b (constant (F := Ideal) S1024x256 .f32 0x00000000#32) (ix2 p o)
      = ∑ k : Fin 1024, a (ix2 p k) * b (ix2 k o) := by
  refine (Ideal.matmul_constant_zero_apply dot_S1024x1024_S1024x256_S1024x256_1_0_0_1_n_n none a b (ix2 p o)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p o) ((contrEquiv1 dot_S1024x1024_S1024x256_S1024x256_1_0_0_1_n_n 1024 rfl rfl).symm k) = ix2 p k :=
    funext fun x => Fin.ext (by
      match x with
      | ⟨0, _⟩ => exact dInterp_lhs0 _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 p o) ((contrEquiv1 dot_S1024x1024_S1024x256_S1024x256_1_0_0_1_n_n 1024 rfl rfl).symm k) = ix2 k o :=
    funext fun x => Fin.ext (by
      match x with
      | ⟨0, _⟩ => exact (dot_S1024x1024_S1024x256_S1024x256_1_0_0_1_n_n.rhsIdx_val_of_single rfl _ _).trans hk
      | ⟨1, _⟩ => exact dInterp_rhs1 _ _)
  rw [el, er]

/-- The left operand's row is the output's row. -/
theorem dLin_lhs0 (j : S1024x384.Idx) (q : dot_S1024x384_S384x384_S1024x384_1_0_0_1_n_n.contr.Idx) : (dot_S1024x384_S384x384_S1024x384_1_0_0_1_n_n.lhsIdx j q 0).val = (j 0).val := by
  unfold DotDims.lhsIdx
  rw [dif_neg (show ¬(0 : Fin S1024x384.rank) ∈ dot_S1024x384_S384x384_S1024x384_1_0_0_1_n_n.lhsBatch by decide),
    dif_pos (show (0 : Fin S1024x384.rank) ∈ dot_S1024x384_S384x384_S1024x384_1_0_0_1_n_n.lhsNonContracting by decide)]
  rfl
/-- The right operand's column is the output's column. -/
theorem dLin_rhs1 (j : S1024x384.Idx) (q : dot_S1024x384_S384x384_S1024x384_1_0_0_1_n_n.contr.Idx) : (dot_S1024x384_S384x384_S1024x384_1_0_0_1_n_n.rhsIdx j q 1).val = (j 1).val := by
  unfold DotDims.rhsIdx
  rw [dif_neg (show ¬(1 : Fin S384x384.rank) ∈ dot_S1024x384_S384x384_S1024x384_1_0_0_1_n_n.rhsBatch by decide),
    dif_pos (show (1 : Fin S384x384.rank) ∈ dot_S1024x384_S384x384_S1024x384_1_0_0_1_n_n.rhsNonContracting by decide)]
  rfl
/-- The layer's product: joined features (rows × input channels) times weights (input × output channels), into the zero tile. -/
theorem mmLin (a : FVec Ideal S1024x384 .bf16) (b : FVec Ideal S384x384 .bf16) (p : Fin 1024) (o : Fin 384) :
    matmul dot_S1024x384_S384x384_S1024x384_1_0_0_1_n_n none a b (constant (F := Ideal) S1024x384 .f32 0x00000000#32) (ix2 p o)
      = ∑ k : Fin 384, a (ix2 p k) * b (ix2 k o) := by
  refine (Ideal.matmul_constant_zero_apply dot_S1024x384_S384x384_S1024x384_1_0_0_1_n_n none a b (ix2 p o)).trans ?_
  rw [← Equiv.sum_comp (contrEquiv1 dot_S1024x384_S384x384_S1024x384_1_0_0_1_n_n 384 rfl rfl).symm]
  refine Finset.sum_congr rfl fun k _ => ?_
  have hk := contrEquiv1_symm_val dot_S1024x384_S384x384_S1024x384_1_0_0_1_n_n 384 rfl rfl k
  have el : dot_S1024x384_S384x384_S1024x384_1_0_0_1_n_n.lhsIdx (ix2 p o) ((contrEquiv1 dot_S1024x384_S384x384_S1024x384_1_0_0_1_n_n 384 rfl rfl).symm k) = ix2 p k :=
    funext fun x => Fin.ext (by
      match x with
      | ⟨0, _⟩ => exact dLin_lhs0 _ _
      | ⟨1, _⟩ => exact (dot_S1024x384_S384x384_S1024x384_1_0_0_1_n_n.lhsIdx_val_of_single rfl _ _).trans hk)
  have er : dot_S1024x384_S384x384_S1024x384_1_0_0_1_n_n.rhsIdx (ix2 p o) ((contrEquiv1 dot_S1024x384_S384x384_S1024x384_1_0_0_1_n_n 384 rfl rfl).symm k) = ix2 k o :=
    funext fun x => Fin.ext (by
      match x with
      | ⟨0, _⟩ => exact (dot_S1024x384_S384x384_S1024x384_1_0_0_1_n_n.rhsIdx_val_of_single rfl _ _).trans hk
      | ⟨1, _⟩ => exact dLin_rhs1 _ _)
  rw [el, er]

/-! ## The body's stored values, read at an index -/

/-- The coarse-feature block without its leading axis. -/
theorem pay2_apply (v4 : Vec Ideal S1x1024x256 .f32) (m : Fin 1024) (d : Fin 256) :
    k0_pay2 v4 (ix2 m d) = v4 (ix3 0 m d) := dropLead2 v4 _ m d
/-- The fine-feature block without its leading axis. -/
theorem pay3_apply (v6 : Vec Ideal S1x1024x128 .f32) (r : Fin 1024) (j : Fin 128) :
    k0_pay3 v6 (ix2 r j) = v6 (ix3 0 r j) := dropLead2 v6 _ r j
/-- The stored layer block is the layer's tile under a leading axis. -/
theorem pay1_apply (v75 : FVec Ideal S1024x384 .bf16) (p : Fin 1024) (o : Fin 384) :
    k0_pay1 v75 (ix3 0 p o) = v75 (ix2 p o) := addLead2 v75 _ p o
/-- The narrowed layer tile is the layer tile: over the extended reals a change of format changes nothing. -/
theorem pay10_apply (v5 : FVec Ideal S1024x256 .f32) (v7 : FVec Ideal S1024x128 .f32) (v42 : FVec Ideal S1024x1024 .bf16)
    (v46 : Vec Ideal S384x384 .f32) (v48 : Vec Ideal S1x384 .f32) (j : S1024x384.Idx) :
    k0_pay10 v5 v7 v42 v46 v48 j = k0_pay5 v5 v7 v42 v46 v48 j := rfl
/-- The block a clearing stores is zero everywhere. -/
theorem pay6_apply (j : S1x1x384.Idx) : k0_pay6 (F := Ideal) j = 0 := Ideal.ofBits_zero_f32
/-- Likewise for the sum of squares. -/
theorem pay7_apply (j : S1x1x384.Idx) : k0_pay7 (F := Ideal) j = 0 := Ideal.ofBits_zero_f32

/-- The running sum after a tile: what it held plus the column sums of the layer's tile. -/
theorem pay8_apply (v5 : FVec Ideal S1024x256 .f32) (v7 : FVec Ideal S1024x128 .f32) (v42 : FVec Ideal S1024x1024 .bf16)
    (v46 : Vec Ideal S384x384 .f32) (v48 : Vec Ideal S1x384 .f32) (v58 : Vec Ideal S1x1x384 .f32) (o : Fin 384) :
    k0_pay8 v5 v7 v42 v46 v48 v58 (ix3 0 0 o)
      = v58 (ix3 0 0 o) + ∑ p : Fin 1024, k0_pay5 v5 v7 v42 v46 v48 (ix2 p o) := by
  unfold k0_pay8
  simp only [addLead2, addf_apply, dropLead2, addLead1]
  exact congrArg (v58 (ix3 0 0 o) + ·) (colsum _ _ _ o)

/-- The running sum of squares after a tile: what it held plus the column sums of the squared tile. -/
theorem pay9_apply (v5 : FVec Ideal S1024x256 .f32) (v7 : FVec Ideal S1024x128 .f32) (v42 : FVec Ideal S1024x1024 .bf16)
    (v46 : Vec Ideal S384x384 .f32) (v48 : Vec Ideal S1x384 .f32) (v66 : Vec Ideal S1x1x384 .f32) (o : Fin 384) :
    k0_pay9 v5 v7 v42 v46 v48 v66 (ix3 0 0 o)
      = v66 (ix3 0 0 o) + ∑ p : Fin 1024, k0_pay5 v5 v7 v42 v46 v48 (ix2 p o) * k0_pay5 v5 v7 v42 v46 v48 (ix2 p o) := by
  unfold k0_pay9
  simp only [addLead2, addf_apply, dropLead2, addLead1]
  exact congrArg (v66 (ix3 0 0 o) + ·) ((colsum _ _ _ o).trans (Finset.sum_congr rfl fun p _ => rfl))

/-! ## The weights and the layer on one tile -/

/-- Squared distance between row point p of the fine block and point q of the coarse block. -/
def dsq (v0 v2 : Vec Ideal S1x1024x3 .f32) (p q : Fin 1024) : EReal :=
  (v2 (ix3 0 p 0) - v0 (ix3 0 q 0)) * (v2 (ix3 0 p 0) - v0 (ix3 0 q 0))
    + (v2 (ix3 0 p 1) - v0 (ix3 0 q 1)) * (v2 (ix3 0 p 1) - v0 (ix3 0 q 1))
    + (v2 (ix3 0 p 2) - v0 (ix3 0 q 2)) * (v2 (ix3 0 p 2) - v0 (ix3 0 q 2))

/-- Its regularised inverse. -/
def rcp (v0 v2 : Vec Ideal S1x1024x3 .f32) (p q : Fin 1024) : EReal :=
  Ideal.div Spec.one (dsq v0 v2 p q + Spec.eps8)

/-- The weights' tile: each inverse distance over its row's sum. -/
theorem pay4_apply (v0 v2 : Vec Ideal S1x1024x3 .f32) (p q : Fin 1024) :
    k0_pay4 v0 v2 (ix2 p q) = Ideal.div (rcp v0 v2 p q) (∑ k : Fin 1024, rcp v0 v2 p k) := by
  unfold k0_pay4
  simp only [truncf_apply, divf_apply, addf_apply, mulf_apply, subf_apply, broadcast_apply, bcol, brow,
    slice0, slice1, slice2, dropLead2, dropTrail, addLead1, addTrail]
  refine congrArg₂ Ideal.div rfl ((rowsum _ _ _ p).trans (Finset.sum_congr rfl fun k _ => ?_))
  simp only [divf_apply, addf_apply, mulf_apply, subf_apply, broadcast_apply, bcol, brow,
    slice0, slice1, slice2, dropLead2, dropTrail, addLead1]
  rfl

/-- The layer's tile: the joined features (fine ones, then the interpolated coarse ones) times the weights, plus the bias. -/
theorem pay5_apply (v5 : FVec Ideal S1024x256 .f32) (v7 : FVec Ideal S1024x128 .f32) (v42 : FVec Ideal S1024x1024 .bf16)
    (v46 : Vec Ideal S384x384 .f32) (v48 : Vec Ideal S1x384 .f32) (p : Fin 1024) (o : Fin 384) :
    k0_pay5 v5 v7 v42 v46 v48 (ix2 p o)
      = (∑ j : Fin 384, (if h : j.val < 128 then v7 (ix2 p ⟨j.val, h⟩)
            else ∑ m : Fin 1024, v42 (ix2 p m) * v5 (ix2 m ⟨j.val - 128, by have := j.isLt; omega⟩)) * v46 (ix2 j o))
        + v48 (ix2 0 o) := by
  unfold k0_pay5
  simp only [addf_apply, mmLin, truncf_apply, shapeCast_self, biasrow]
  refine congrArg (· + v48 (ix2 0 o)) (Finset.sum_congr rfl fun j _ => congrArg (· * v46 (ix2 j o)) ?_)
  by_cases h : j.val < 128
  · rw [dif_pos h]; exact cat_lo _ _ p j h
  · rw [dif_neg h]; exact (cat_hi _ _ p j h).trans (mmInterp _ _ p _)

/-! ## The layer's tile is the layer of the specification on the tile's rows -/

/-- Row r of tile j of a cloud's 4096 fine points. -/
def row (j : Fin 4) (r : Fin 1024) : Fin 4096 := ⟨1024 * j.val + r.val, by have := j.isLt; have := r.isLt; omega⟩

/-- If the six blocks the body reads are: cloud b of the coarse points and features, rows of tile j of
    cloud b of the fine points and features, the whole weight and the bias row, then the layer's tile at
    (p, o) is the specification's first layer at cloud b, fine point 1024·j + p, channel o. -/
theorem layer_tile (xd : Spec.A3 16 1024 3) (xu : Spec.A3 16 4096 3) (fd : Spec.A3 16 1024 256) (fu : Spec.A3 16 4096 128)
    (w : Fin 384 → Fin 384 → EReal) (bias : Fin 384 → EReal) (b : Fin 16) (jt : Fin 4)
    (x0 x1 : Vec Ideal S1x1024x3 .f32) (x2 : Vec Ideal S1x1024x256 .f32) (x3 : Vec Ideal S1x1024x128 .f32)
    (x4 : Vec Ideal S384x384 .f32) (x5 : Vec Ideal S1x384 .f32)
    (h0 : ∀ (m : Fin 1024) (k : Fin 3), x0 (ix3 0 m k) = xd (ix3 b m k))
    (h1 : ∀ (r : Fin 1024) (k : Fin 3), x1 (ix3 0 r k) = xu (ix3 b (row jt r) k))
    (h2 : ∀ (m : Fin 1024) (d : Fin 256), x2 (ix3 0 m d) = fd (ix3 b m d))
    (h3 : ∀ (r : Fin 1024) (j : Fin 128), x3 (ix3 0 r j) = fu (ix3 b (row jt r) j))
    (h4 : ∀ (j o : Fin 384), x4 (ix2 j o) = w j o)
    (h5 : ∀ o : Fin 384, x5 (ix2 0 o) = bias o)
    (p : Fin 1024) (o : Fin 384) :
    k0_pay5 (k0_pay2 x2) (k0_pay3 x3) (k0_pay4 x0 x1) x4 x5 (ix2 p o)
      = Spec.lin1 (Spec.distK xd xu) fd fu w bias b (row jt p) o := by
  have hr : ∀ q : Fin 1024, rcp x0 x1 p q = Spec.recip (Spec.distK xd xu) b (row jt p) q := fun q => by
    unfold rcp dsq Spec.recip Spec.distK
    simp only [h0, h1]
  have hw : ∀ q : Fin 1024, k0_pay4 x0 x1 (ix2 p q) = Spec.weight (Spec.distK xd xu) b (row jt p) q := fun q => by
    rw [pay4_apply]
    unfold Spec.weight Spec.denom
    simp only [hr]
  rw [pay5_apply]
  unfold Spec.lin1
  refine congrArg₂ (· + ·) (Finset.sum_congr rfl fun j _ => congrArg₂ (· * ·) ?_ (h4 j o)) (h5 o)
  unfold Spec.xcat
  by_cases h : j.val < 128
  · rw [dif_pos h, dif_pos h, pay3_apply, h3]
  · rw [dif_neg h, dif_neg h]
    unfold Spec.interp
    exact Finset.sum_congr rfl fun m _ => congrArg₂ (· * ·) (hw m) ((pay2_apply x2 m _).trans (h2 m _))

end Cert.KernelIdeal.R0

end
-- ==== Proof.R0Blk.lean ====
/-
  Which rows of the argument arrays the first launch's windows hold at each of its 64 grid
  points.  The grid runs over the 16 clouds and, within a cloud, over four tiles of 1024 fine
  points: point t works on cloud t / 4 and tile t % 4.  The coarse points and features are staged
  a cloud at a time, the fine ones a tile at a time, the weight and the bias whole.  Hence the
  layer's tile formed at point t is the specification's first layer on rows 1024·(t % 4) … of
  cloud t / 4.
-/
import proofs.«113022_j46755013984985_2_alg».proof.Proof.Gen.KernelIdeal.Frame
import proofs.«113022_j46755013984985_2_alg».proof.Proof.R0Tile
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The first layer before normalisation, as the specification states it, of the arrays the launch finds. -/
abbrev L : Fin 16 → Fin 4096 → Fin 384 → EReal :=
  Spec.lin1 (Spec.distK (V c main_arg0) (V c main_arg1)) (V c main_arg2) (V c main_arg3)
    (fun j o => V c main_v0 (ix2 j o)) (fun o => V c main_v2 (ix2 0 o))

/-- A grid point is below 64. -/
theorem pt_lt (t : Fin cfg0.N) : t.val < 64 := lt_of_lt_of_eq t.isLt (show cfg0.N = 64 from N_0)

/-- The cloud a grid point works on: the grid runs over 16 clouds, four row tiles each. -/
def cloudOf (t : Fin cfg0.N) : Fin 16 := ⟨t.val / 4, by have := pt_lt t; omega⟩
/-- The row tile a grid point works on. -/
def tileOf (t : Fin cfg0.N) : Fin 4 := ⟨t.val % 4, by omega⟩

/-- The block index of every window at each of the 64 grid points: the per-cloud windows
    sit at (cloud, 0, 0), the per-tile ones at (cloud, tile, 0), the weight and the bias at the origin. -/
theorem idx_in : ∀ t : Fin cfg0.N,
    (win0_0.index t 0 = t.val / 4 ∧ win0_0.index t 1 = 0 ∧ win0_0.index t 2 = 0)
    ∧ (win0_1.index t 0 = t.val / 4 ∧ win0_1.index t 1 = t.val % 4 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0)
    ∧ (win0_4.index t 0 = 0 ∧ win0_4.index t 1 = 0)
    ∧ (win0_5.index t 0 = 0 ∧ win0_5.index t 1 = 0) :=
  (by decide +kernel : ∀ t : Fin grid0.N, _)

/-- The same for the three result windows: the layer's at (cloud, tile, 0), the two running sums' at (cloud, 0, 0). -/
theorem idx_out : ∀ t : Fin cfg0.N,
    (win0_6.index t 0 = t.val / 4 ∧ win0_6.index t 1 = t.val % 4 ∧ win0_6.index t 2 = 0)
    ∧ (win0_7.index t 0 = t.val / 4 ∧ win0_7.index t 1 = 0 ∧ win0_7.index t 2 = 0)
    ∧ (win0_8.index t 0 = t.val / 4 ∧ win0_8.index t 1 = 0 ∧ win0_8.index t 2 = 0) :=
  (by decide +kernel : ∀ t : Fin grid0.N, _)

/-- The coarse points' block at a grid point is its cloud's 1024 points. -/
theorem blk0_apply (t : Fin cfg0.N) (m : Fin 1024) (k : Fin 3) :
    (iblk0 V c 0 t : Vec Ideal S1x1024x3 .f32) (ix3 0 m k) = (V c main_arg0 : Spec.A3 16 1024 3) (ix3 (cloudOf t) m k) := by
  obtain ⟨⟨e0, e1, e2⟩, -⟩ := idx_in t
  show V c main_arg0 (((cfg0.win 0).blk t).view.emb (ix3 0 m k)) = V c main_arg0 (ix3 (cloudOf t) m k)
  refine congrArg (V c main_arg0) (funext fun a => Fin.ext ?_)
  match a with
  | ⟨0, _⟩ => show win0_0.index t 0 * 1 + 1 * (0 : ℕ) = t.val / 4; rw [e0]; omega
  | ⟨1, _⟩ => show win0_0.index t 1 * 1024 + 1 * m.val = m.val; rw [e1]; omega
  | ⟨2, _⟩ => show win0_0.index t 2 * 3 + 1 * k.val = k.val; rw [e2]; omega

/-- The fine points' block is its tile's 1024 rows of its cloud. -/
theorem blk1_apply (t : Fin cfg0.N) (r : Fin 1024) (k : Fin 3) :
    (iblk0 V c 1 t : Vec Ideal S1x1024x3 .f32) (ix3 0 r k) = (V c main_arg1 : Spec.A3 16 4096 3) (ix3 (cloudOf t) (row (tileOf t) r) k) := by
  obtain ⟨-, ⟨e0, e1, e2⟩, -⟩ := idx_in t
  show V c main_arg1 (((cfg0.win 1).blk t).view.emb (ix3 0 r k)) = V c main_arg1 (ix3 (cloudOf t) (row (tileOf t) r) k)
  refine congrArg (V c main_arg1) (funext fun a => Fin.ext ?_)
  match a with
  | ⟨0, _⟩ => show win0_1.index t 0 * 1 + 1 * (0 : ℕ) = t.val / 4; rw [e0]; omega
  | ⟨1, _⟩ => show win0_1.index t 1 * 1024 + 1 * r.val = 1024 * (t.val % 4) + r.val; rw [e1]; omega
  | ⟨2, _⟩ => show win0_1.index t 2 * 3 + 1 * k.val = k.val; rw [e2]; omega

/-- The coarse features' block is its cloud's 1024 points. -/
theorem blk2_apply (t : Fin cfg0.N) (m : Fin 1024) (d : Fin 256) :
    (iblk0 V c 2 t : Vec Ideal S1x1024x256 .f32) (ix3 0 m d) = (V c main_arg2 : Spec.A3 16 1024 256) (ix3 (cloudOf t) m d) := by
  obtain ⟨-, -, ⟨e0, e1, e2⟩, -⟩ := idx_in t
  show V c main_arg2 (((cfg0.win 2).blk t).view.emb (ix3 0 m d)) = V c main_arg2 (ix3 (cloudOf t) m d)
  refine congrArg (V c main_arg2) (funext fun a => Fin.ext ?_)
  match a with
  | ⟨0, _⟩ => show win0_2.index t 0 * 1 + 1 * (0 : ℕ) = t.val / 4; rw [e0]; omega
  | ⟨1, _⟩ => show win0_2.index t 1 * 1024 + 1 * m.val = m.val; rw [e1]; omega
  | ⟨2, _⟩ => show win0_2.index t 2 * 256 + 1 * d.val = d.val; rw [e2]; omega

/-- The fine features' block is its tile's 1024 rows of its cloud. -/
theorem blk3_apply (t : Fin cfg0.N) (r : Fin 1024) (j : Fin 128) :
    (iblk0 V c 3 t : Vec Ideal S1x1024x128 .f32) (ix3 0 r j) = (V c main_arg3 : Spec.A3 16 4096 128) (ix3 (cloudOf t) (row (tileOf t) r) j) := by
  obtain ⟨-, -, -, ⟨e0, e1, e2⟩, -⟩ := idx_in t
  show V c main_arg3 (((cfg0.win 3).blk t).view.emb (ix3 0 r j)) = V c main_arg3 (ix3 (cloudOf t) (row (tileOf t) r) j)
  refine congrArg (V c main_arg3) (funext fun a => Fin.ext ?_)
  match a with
  | ⟨0, _⟩ => show win0_3.index t 0 * 1 + 1 * (0 : ℕ) = t.val / 4; rw [e0]; omega
  | ⟨1, _⟩ => show win0_3.index t 1 * 1024 + 1 * r.val = 1024 * (t.val % 4) + r.val; rw [e1]; omega
  | ⟨2, _⟩ => show win0_3.index t 2 * 128 + 1 * j.val = j.val; rw [e2]; omega

/-- The weight's block is the whole matrix. -/
theorem blk4_apply (t : Fin cfg0.N) (j o : Fin 384) :
    (iblk0 V c 4 t : Vec Ideal S384x384 .f32) (ix2 j o) = (V c main_v0 : Spec.A2 384 384) (ix2 j o) := by
  obtain ⟨-, -, -, -, ⟨e0, e1⟩, -⟩ := idx_in t
  show V c main_v0 (((cfg0.win 4).blk t).view.emb (ix2 j o)) = V c main_v0 (ix2 j o)
  refine congrArg (V c main_v0) (funext fun a => Fin.ext ?_)
  match a with
  | ⟨0, _⟩ => show win0_4.index t 0 * 384 + 1 * j.val = j.val; rw [e0]; omega
  | ⟨1, _⟩ => show win0_4.index t 1 * 384 + 1 * o.val = o.val; rw [e1]; omega

/-- The bias's block is the whole row. -/
theorem blk5_apply (t : Fin cfg0.N) (o : Fin 384) :
    (iblk0 V c 5 t : Vec Ideal S1x384 .f32) (ix2 0 o) = (V c main_v2 : Spec.A2 1 384) (ix2 0 o) := by
  obtain ⟨-, -, -, -, -, ⟨e0, e1⟩⟩ := idx_in t
  show V c main_v2 (((cfg0.win 5).blk t).view.emb (ix2 0 o)) = V c main_v2 (ix2 0 o)
  refine congrArg (V c main_v2) (funext fun a => Fin.ext ?_)
  match a with
  | ⟨0, _⟩ => show win0_5.index t 0 * 1 + 1 * (0 : ℕ) = 0; rw [e0]
  | ⟨1, _⟩ => show win0_5.index t 1 * 384 + 1 * o.val = o.val; rw [e1]; omega

/-- The layer at a grid point: the layer's tile the body forms from the point's six blocks is the
    specification's first layer on the rows of the point's tile of the point's cloud. -/
theorem layer_at (t : Fin cfg0.N) (p : Fin 1024) (o : Fin 384) :
    k0_pay5 (k0_pay2 (iblk0 V c 2 t)) (k0_pay3 (iblk0 V c 3 t)) (k0_pay4 (iblk0 V c 0 t) (iblk0 V c 1 t))
        (iblk0 V c 4 t) (iblk0 V c 5 t) (ix2 p o)
      = L V c (cloudOf t) (row (tileOf t) p) o :=
  layer_tile (V c main_arg0) (V c main_arg1) (V c main_arg2) (V c main_arg3)
    (fun j o => V c main_v0 (ix2 j o)) (fun o => V c main_v2 (ix2 0 o)) (cloudOf t) (tileOf t)
    (iblk0 V c 0 t) (iblk0 V c 1 t) (iblk0 V c 2 t) (iblk0 V c 3 t) (iblk0 V c 4 t) (iblk0 V c 5 t)
    (blk0_apply V c t) (blk1_apply V c t) (blk2_apply V c t) (blk3_apply V c t) (blk4_apply V c t) (blk5_apply V c t) p o

end Cert.KernelIdeal.R0

end
-- ==== Proof.R0Sum.lean ====
/-
  Sums over the 4096 fine points of a cloud, taken a tile of 1024 at a time.  A running sum that
  is cleared at a cloud's first tile and then grows by one tile's sum per grid point holds, after
  the point of tile k, the sum of tiles 0 … k; after the fourth tile that is the sum over all
  4096 points.  The extended reals are a commutative monoid under addition, so the regrouping
  needs no finiteness.
-/
import proofs.«113022_j46755013984985_2_alg».proof.Proof.R0Tile

noncomputable section

namespace Cert.KernelIdeal.R0

open scoped BigOperators

/-- The sum of the tile sums S 0 … S k. -/
def psum (S : Fin 4 → EReal) (k : ℕ) : EReal := ∑ j : Fin 4, if j.val ≤ k then S j else 0

/-- Up to the first tile: the first tile's sum. -/
theorem psum_zero (S : Fin 4 → EReal) : psum S 0 = S 0 := by
  simp [psum, Fin.sum_univ_four]

/-- One more tile adds its sum. -/
theorem psum_succ (S : Fin 4 → EReal) (k : ℕ) (hk : k < 3) : psum S (k + 1) = psum S k + S ⟨k + 1, by omega⟩ := by
  interval_cases k <;> simp [psum, Fin.sum_univ_four, add_assoc]

/-- Up to the fourth tile: all four. -/
theorem psum_three (S : Fin 4 → EReal) : psum S 3 = ∑ j : Fin 4, S j := by
  simp [psum, Fin.sum_univ_four, Fin.le_def]

/-- Four tiles of 1024 rows are the 4096 rows: row 1024·j + r is row r of tile j. -/
theorem sum_rows (f : Fin 4096 → EReal) : ∑ j : Fin 4, ∑ r : Fin 1024, f (row j r) = ∑ n : Fin 4096, f n := by
  rw [← Fintype.sum_prod_type']
  exact Fintype.sum_equiv (finProdFinEquiv (m := 4) (n := 1024)) _ f (fun x => congrArg f (Fin.ext (by
    show 1024 * x.1.val + x.2.val = x.2.val + 1024 * x.1.val
    omega)))

/-- The running sum in closed form.  Let a n be what the sum holds after grid point n, T b j the
    sum of tile j of cloud b.  If a n = T (n/4) (n%4) at a cloud's first tile (the clearing) and
    a (n+1) = a n + T ((n+1)/4) ((n+1)%4) at the others, then after point n the sum holds tiles
    0 … n % 4 of cloud n / 4. -/
theorem acc_closed (N : ℕ) (hN : N ≤ 64) (a : (n : ℕ) → n < N → EReal) (T : Fin 16 → Fin 4 → EReal)
    (hA : ∀ (n : ℕ) (h : n < N), n % 4 = 0 → a n h = T ⟨n / 4, by omega⟩ ⟨n % 4, by omega⟩)
    (hB : ∀ (n : ℕ) (h : n + 1 < N), ¬(n + 1) % 4 = 0 →
      a (n + 1) h = a n (Nat.lt_of_succ_lt h) + T ⟨(n + 1) / 4, by omega⟩ ⟨(n + 1) % 4, by omega⟩) :
    ∀ (n : ℕ) (h : n < N), a n h = psum (T ⟨n / 4, by omega⟩) (n % 4)
  | 0, h => by
    rw [hA 0 h rfl]
    exact (psum_zero _).symm
  | n + 1, h => by
    by_cases h0 : (n + 1) % 4 = 0
    · rw [hA (n + 1) h h0]
      have e : (⟨(n + 1) % 4, by omega⟩ : Fin 4) = 0 := Fin.ext h0
      rw [e, h0]
      exact (psum_zero _).symm
    · rw [hB n h h0, acc_closed N hN a T hA hB n (Nat.lt_of_succ_lt h)]
      have hc : (⟨(n + 1) / 4, by omega⟩ : Fin 16) = ⟨n / 4, by omega⟩ := Fin.ext (show (n + 1) / 4 = n / 4 by omega)
      have hm : (n + 1) % 4 = n % 4 + 1 := by omega
      have hj : (⟨(n + 1) % 4, by omega⟩ : Fin 4) = ⟨n % 4 + 1, by omega⟩ := Fin.ext hm
      rw [hc, hj, hm, psum_succ _ _ (by omega)]

end Cert.KernelIdeal.R0

end
-- ==== Proof.R0Acc.lean ====
/-
  What the first launch's three result blocks hold after each of its 64 grid points, in closed
  form.  The layer's block holds, after point t, the specification's first layer on the rows of
  tile t % 4 of cloud t / 4.  The two running sums are cleared at a cloud's first tile and grow
  by one tile's column sums per point; by induction on the point they hold, after point t, the
  layer (respectively its square) summed over tiles 0 … t % 4 of cloud t / 4, and so after a
  cloud's fourth tile the sum over all its 4096 fine points.
-/
import proofs.«113022_j46755013984985_2_alg».proof.Proof.Gen.KernelIdeal.Frame
import proofs.«113022_j46755013984985_2_alg».proof.Proof.R0Pieces
import proofs.«113022_j46755013984985_2_alg».proof.Proof.R0Blk
import proofs.«113022_j46755013984985_2_alg».proof.Proof.R0Sum

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! ## The layer's block after a grid point -/

/-- After any grid point the layer's staging block holds the layer on the point's rows: both courses
    of the body store the same tile. -/
theorem outs6 (t : Fin cfg0.N) (p : Fin 1024) (o : Fin 384) :
    (outsAt0 V c t.val t.isLt).1 (ix3 0 p o) = L V c (cloudOf t) (row (tileOf t) p) o := by
  by_cases h0 : t.val % 4 = 0
  · rw [outsAt0_A V c t h0]
    dsimp only
    rw [out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
    exact (pay1_apply (k0_pay10 (k0_pay2 (iblk0 V c 2 t)) (k0_pay3 (iblk0 V c 3 t)) (k0_pay4 (iblk0 V c 0 t) (iblk0 V c 1 t)) (iblk0 V c 4 t) (iblk0 V c 5 t)) p o).trans ((pay10_apply (k0_pay2 (iblk0 V c 2 t)) (k0_pay3 (iblk0 V c 3 t)) (k0_pay4 (iblk0 V c 0 t) (iblk0 V c 1 t)) (iblk0 V c 4 t) (iblk0 V c 5 t) (ix2 p o)).trans (layer_at V c t p o))
  · rw [outsAt0_B V c t h0]
    dsimp only
    rw [out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
    exact (pay1_apply (k0_pay10 (k0_pay2 (iblk0 V c 2 t)) (k0_pay3 (iblk0 V c 3 t)) (k0_pay4 (iblk0 V c 0 t) (iblk0 V c 1 t)) (iblk0 V c 4 t) (iblk0 V c 5 t)) p o).trans ((pay10_apply (k0_pay2 (iblk0 V c 2 t)) (k0_pay3 (iblk0 V c 3 t)) (k0_pay4 (iblk0 V c 0 t) (iblk0 V c 1 t)) (iblk0 V c 4 t) (iblk0 V c 5 t) (ix2 p o)).trans (layer_at V c t p o))

/-! ## The two running sums after a grid point -/

/-- At a cloud's first tile the running sum is cleared and then holds the tile's column sums of the layer (zero plus them). -/
theorem acc7_A (t : Fin cfg0.N) (h0 : t.val % 4 = 0) (o : Fin 384) :
    (outsAt0 V c t.val t.isLt).2.1 (ix3 0 0 o) = ∑ p : Fin 1024, L V c (cloudOf t) (row (tileOf t) p) o := by
  rw [outsAt0_A V c t h0]
  dsimp only
  rw [out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
  refine (pay8_apply (k0_pay2 (iblk0 V c 2 t)) (k0_pay3 (iblk0 V c 3 t)) (k0_pay4 (iblk0 V c 0 t) (iblk0 V c 1 t)) (iblk0 V c 4 t) (iblk0 V c 5 t) (k0_pay6 (F := Ideal)) o).trans ?_
  exact (congrArg₂ (· + ·) (pay6_apply (ix3 0 0 o)) (Finset.sum_congr rfl fun p _ => layer_at V c t p o)).trans (zero_add _)

/-- At a later tile it holds what the point before left plus the tile's column sums. -/
theorem acc7_B (t : Fin cfg0.N) (h0 : ¬t.val % 4 = 0) (o : Fin 384) :
    (outsAt0 V c t.val t.isLt).2.1 (ix3 0 0 o)
      = (outsAt0 V c (t.val - 1) (Nat.lt_of_le_of_lt (Nat.sub_le _ _) t.isLt)).2.1 (ix3 0 0 o) + ∑ p : Fin 1024, L V c (cloudOf t) (row (tileOf t) p) o := by
  rw [outsAt0_B V c t h0]
  dsimp only
  rw [out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
  exact (pay8_apply (k0_pay2 (iblk0 V c 2 t)) (k0_pay3 (iblk0 V c 3 t)) (k0_pay4 (iblk0 V c 0 t) (iblk0 V c 1 t)) (iblk0 V c 4 t) (iblk0 V c 5 t) (outsAt0 V c (t.val - 1) (Nat.lt_of_le_of_lt (Nat.sub_le _ _) t.isLt)).2.1 o).trans
    (congrArg ((outsAt0 V c (t.val - 1) (Nat.lt_of_le_of_lt (Nat.sub_le _ _) t.isLt)).2.1 (ix3 0 0 o) + ·) (Finset.sum_congr rfl fun p _ => layer_at V c t p o))

/-- At a cloud's first tile the running sum of squares holds the tile's column sums of the squared layer. -/
theorem acc8_A (t : Fin cfg0.N) (h0 : t.val % 4 = 0) (o : Fin 384) :
    (outsAt0 V c t.val t.isLt).2.2 (ix3 0 0 o) = ∑ p : Fin 1024, L V c (cloudOf t) (row (tileOf t) p) o * L V c (cloudOf t) (row (tileOf t) p) o := by
  rw [outsAt0_A V c t h0]
  dsimp only
  rw [out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
  refine (pay9_apply (k0_pay2 (iblk0 V c 2 t)) (k0_pay3 (iblk0 V c 3 t)) (k0_pay4 (iblk0 V c 0 t) (iblk0 V c 1 t)) (iblk0 V c 4 t) (iblk0 V c 5 t) (k0_pay7 (F := Ideal)) o).trans ?_
  exact (congrArg₂ (· + ·) (pay7_apply (ix3 0 0 o)) (Finset.sum_congr rfl fun p _ => congrArg₂ (· * ·) (layer_at V c t p o) (layer_at V c t p o))).trans (zero_add _)

/-- At a later tile it holds what the point before left plus the tile's column sums of the squared layer. -/
theorem acc8_B (t : Fin cfg0.N) (h0 : ¬t.val % 4 = 0) (o : Fin 384) :
    (outsAt0 V c t.val t.isLt).2.2 (ix3 0 0 o)
      = (outsAt0 V c (t.val - 1) (Nat.lt_of_le_of_lt (Nat.sub_le _ _) t.isLt)).2.2 (ix3 0 0 o) + ∑ p : Fin 1024, L V c (cloudOf t) (row (tileOf t) p) o * L V c (cloudOf t) (row (tileOf t) p) o := by
  rw [outsAt0_B V c t h0]
  dsimp only
  rw [out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
  exact (pay9_apply (k0_pay2 (iblk0 V c 2 t)) (k0_pay3 (iblk0 V c 3 t)) (k0_pay4 (iblk0 V c 0 t) (iblk0 V c 1 t)) (iblk0 V c 4 t) (iblk0 V c 5 t) (outsAt0 V c (t.val - 1) (Nat.lt_of_le_of_lt (Nat.sub_le _ _) t.isLt)).2.2 o).trans
    (congrArg ((outsAt0 V c (t.val - 1) (Nat.lt_of_le_of_lt (Nat.sub_le _ _) t.isLt)).2.2 (ix3 0 0 o) + ·) (Finset.sum_congr rfl fun p _ => congrArg₂ (· * ·) (layer_at V c t p o) (layer_at V c t p o)))

/-! ## The running sums in closed form -/

/-- After grid point n the running sum holds, at channel o, the layer summed over tiles 0 … n % 4 of cloud
    n / 4: by induction on the point, the clearing at a cloud's first tile starting each cloud afresh. -/
theorem acc7 (n : ℕ) (h : n < cfg0.N) (o : Fin 384) :
    (outsAt0 V c n h).2.1 (ix3 0 0 o)
      = psum (fun j => ∑ p : Fin 1024, L V c ⟨n / 4, by have : n < 64 := lt_of_lt_of_eq h (show cfg0.N = 64 from N_0); omega⟩ (row j p) o) (n % 4) :=
  acc_closed cfg0.N (show cfg0.N = 64 from N_0).le (fun n h => (outsAt0 V c n h).2.1 (ix3 0 0 o))
    (fun b j => ∑ p : Fin 1024, L V c b (row j p) o)
    (fun n h h0 => acc7_A V c ⟨n, h⟩ h0 o) (fun n h h0 => acc7_B V c ⟨n + 1, h⟩ h0 o) n h

/-- The same for the running sum of squares. -/
theorem acc8 (n : ℕ) (h : n < cfg0.N) (o : Fin 384) :
    (outsAt0 V c n h).2.2 (ix3 0 0 o)
      = psum (fun j => ∑ p : Fin 1024, L V c ⟨n / 4, by have : n < 64 := lt_of_lt_of_eq h (show cfg0.N = 64 from N_0); omega⟩ (row j p) o
          * L V c ⟨n / 4, by have : n < 64 := lt_of_lt_of_eq h (show cfg0.N = 64 from N_0); omega⟩ (row j p) o) (n % 4) :=
  acc_closed cfg0.N (show cfg0.N = 64 from N_0).le (fun n h => (outsAt0 V c n h).2.2 (ix3 0 0 o))
    (fun b j => ∑ p : Fin 1024, L V c b (row j p) o * L V c b (row j p) o)
    (fun n h h0 => acc8_A V c ⟨n, h⟩ h0 o) (fun n h h0 => acc8_B V c ⟨n + 1, h⟩ h0 o) n h

/-- So after a cloud's fourth tile the running sum holds the layer summed over all 4096 fine points. -/
theorem acc7_last (t : Fin cfg0.N) (h3 : t.val % 4 = 3) (o : Fin 384) :
    (outsAt0 V c t.val t.isLt).2.1 (ix3 0 0 o) = ∑ n : Fin 4096, L V c (cloudOf t) n o := by
  rw [acc7 V c t.val t.isLt o, h3]
  exact (psum_three _).trans (sum_rows (fun n => L V c (cloudOf t) n o))

/-- And the running sum of squares the squared layer summed over them. -/
theorem acc8_last (t : Fin cfg0.N) (h3 : t.val % 4 = 3) (o : Fin 384) :
    (outsAt0 V c t.val t.isLt).2.2 (ix3 0 0 o) = ∑ n : Fin 4096, L V c (cloudOf t) n o * L V c (cloudOf t) n o := by
  rw [acc8 V c t.val t.isLt o, h3]
  exact (psum_three _).trans (sum_rows (fun n => L V c (cloudOf t) n o * L V c (cloudOf t) n o))

end Cert.KernelIdeal.R0

end
-- ==== Proof.R0Cov.lean ====
/-
  Every entry of the first launch's three result arrays lies in a block that is written back.
  The layer's array is cut into blocks (cloud, tile of 1024 rows), each written back at its own
  grid point 4 · cloud + tile; the two arrays of running sums are cut into blocks (cloud), each
  written back at the cloud's last grid point 4 · cloud + 3.
-/
import proofs.«113022_j46755013984985_2_alg».proof.Proof.R0Blk

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)

/-- An index is in point t's block of the layer's array iff each coordinate is in the block's range on its axis. -/
theorem mem_blk6 (t : Fin cfg0.N) (i : S16x4096x384.Idx) :
    i ∈ ((cfg0.win 6).blk t).view.set ↔ ∀ a : Fin 3, win0_6.index t a * S1x1024x384.size a ≤ (i a).val ∧ (i a).val < win0_6.index t a * S1x1024x384.size a + S1x1024x384.size a := by
  show i ∈ ((View.whole main_v8_0).slice (win0_6.rect t)).set ↔ _
  rw [View.set_slice_whole, Rect.mem_set_unit]
  exact Iff.rfl

/-- The same for the array of running sums. -/
theorem mem_blk7 (t : Fin cfg0.N) (i : S16x1x384.Idx) :
    i ∈ ((cfg0.win 7).blk t).view.set ↔ ∀ a : Fin 3, win0_7.index t a * S1x1x384.size a ≤ (i a).val ∧ (i a).val < win0_7.index t a * S1x1x384.size a + S1x1x384.size a := by
  show i ∈ ((View.whole main_v8_1).slice (win0_7.rect t)).set ↔ _
  rw [View.set_slice_whole, Rect.mem_set_unit]
  exact Iff.rfl

/-- The same for the array of running sums of squares. -/
theorem mem_blk8 (t : Fin cfg0.N) (i : S16x1x384.Idx) :
    i ∈ ((cfg0.win 8).blk t).view.set ↔ ∀ a : Fin 3, win0_8.index t a * S1x1x384.size a ≤ (i a).val ∧ (i a).val < win0_8.index t a * S1x1x384.size a + S1x1x384.size a := by
  show i ∈ ((View.whole main_v8_2).slice (win0_8.rect t)).set ↔ _
  rw [View.set_slice_whole, Rect.mem_set_unit]
  exact Iff.rfl

/-- Every entry (b, n, o) of the layer's array lies in the block of point 4 b + n / 1024, which is written back. -/
theorem cover6 (i : S16x4096x384.Idx) : ∃ t : Fin cfg0.N, (cfg0.win 6).flush t = true ∧ i ∈ ((cfg0.win 6).blk t).view.set := by
  have hi0 : (i 0).val < 16 := (i 0).isLt
  have hi1 : (i 1).val < 4096 := (i 1).isLt
  have hi2 : (i 2).val < 384 := (i 2).isLt
  have hN : cfg0.N = 64 := N_0
  obtain ⟨t, tv⟩ : ∃ t : Fin cfg0.N, t.val = 4 * (i 0).val + (i 1).val / 1024 := ⟨⟨_, by rw [hN]; omega⟩, rfl⟩
  obtain ⟨⟨e0, e1, e2⟩, -, -⟩ := idx_out t
  refine ⟨t, flush0_6 t, ?_⟩
  rw [mem_blk6]
  intro a
  match a with
  | ⟨0, _⟩ => show win0_6.index t 0 * 1 ≤ (i 0).val ∧ (i 0).val < win0_6.index t 0 * 1 + 1; rw [e0]; omega
  | ⟨1, _⟩ => show win0_6.index t 1 * 1024 ≤ (i 1).val ∧ (i 1).val < win0_6.index t 1 * 1024 + 1024; rw [e1]; omega
  | ⟨2, _⟩ => show win0_6.index t 2 * 384 ≤ (i 2).val ∧ (i 2).val < win0_6.index t 2 * 384 + 384; rw [e2]; omega

/-- Every entry (b, 0, o) of the running sums lies in the block of point 4 b + 3, the cloud's last, which is written back. -/
theorem cover7 (i : S16x1x384.Idx) : ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 384 := (i 2).isLt
  have hN : cfg0.N = 64 := N_0
  obtain ⟨t, tv⟩ : ∃ t : Fin cfg0.N, t.val = 4 * (i 0).val + 3 := ⟨⟨_, by rw [hN]; omega⟩, rfl⟩
  obtain ⟨-, ⟨e0, e1, e2⟩, -⟩ := idx_out t
  refine ⟨t, (flush0_7 t).mpr (by omega), ?_⟩
  rw [mem_blk7]
  intro a
  match a with
  | ⟨0, _⟩ => show win0_7.index t 0 * 1 ≤ (i 0).val ∧ (i 0).val < win0_7.index t 0 * 1 + 1; rw [e0]; omega
  | ⟨1, _⟩ => show win0_7.index t 1 * 1 ≤ (i 1).val ∧ (i 1).val < win0_7.index t 1 * 1 + 1; rw [e1]; omega
  | ⟨2, _⟩ => show win0_7.index t 2 * 384 ≤ (i 2).val ∧ (i 2).val < win0_7.index t 2 * 384 + 384; rw [e2]; omega

/-- The same for the running sums of squares. -/
theorem cover8 (i : S16x1x384.Idx) : ∃ t : Fin cfg0.N, (cfg0.win 8).flush t = true ∧ i ∈ ((cfg0.win 8).blk t).view.set := by
  have hi0 : (i 0).val < 16 := (i 0).isLt
  have hi1 : (i 1).val < 1 := (i 1).isLt
  have hi2 : (i 2).val < 384 := (i 2).isLt
  have hN : cfg0.N = 64 := N_0
  obtain ⟨t, tv⟩ : ∃ t : Fin cfg0.N, t.val = 4 * (i 0).val + 3 := ⟨⟨_, by rw [hN]; omega⟩, rfl⟩
  obtain ⟨-, -, ⟨e0, e1, e2⟩⟩ := idx_out t
  refine ⟨t, (flush0_8 t).mpr (by omega), ?_⟩
  rw [mem_blk8]
  intro a
  match a with
  | ⟨0, _⟩ => show win0_8.index t 0 * 1 ≤ (i 0).val ∧ (i 0).val < win0_8.index t 0 * 1 + 1; rw [e0]; omega
  | ⟨1, _⟩ => show win0_8.index t 1 * 1 ≤ (i 1).val ∧ (i 1).val < win0_8.index t 1 * 1 + 1; rw [e1]; omega
  | ⟨2, _⟩ => show win0_8.index t 2 * 384 ≤ (i 2).val ∧ (i 2).val < win0_8.index t 2 * 384 + 384; rw [e2]; omega

end Cert.KernelIdeal.R0

end
-- ==== Proof.R0Arr.lean ====
/-
  The three arrays the first launch leaves, for any contents of the buffers when it starts.
  Every grid point writes back the layer's tile, and the tiles of the 64 points fill the layer's
  array; a cloud's last grid point writes back the two running sums, and the 16 clouds' blocks
  fill the two sum arrays.  Hence the layer's array holds the specification's first layer at
  every cloud, fine point and channel; the sum arrays hold the layer, respectively its square,
  summed over the 4096 fine points of each cloud.
-/
import proofs.«113022_j46755013984985_2_alg».proof.Proof.Gen.KernelIdeal.Frame
import proofs.«113022_j46755013984985_2_alg».proof.Proof.R0Acc
import proofs.«113022_j46755013984985_2_alg».proof.Proof.R0Cov
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The layer depends on its three indices through their values only. -/
theorem L_congr {b b' : Fin 16} {n n' : Fin 4096} {o o' : Fin 384} (hb : b.val = b'.val) (hn : n.val = n'.val)
    (ho : o.val = o'.val) : L V c b n o = L V c b' n' o' := by
  obtain rfl := Fin.ext hb; obtain rfl := Fin.ext hn; obtain rfl := Fin.ext ho; rfl

/-! ## What each grid point writes back -/

/-- What the three result arrays should end holding: the layer; its sum over a cloud's fine points; the sum of its square. -/
def G6 : S16x4096x384.Idx → EReal := fun i => L V c ⟨(i 0).val, (i 0).isLt⟩ ⟨(i 1).val, (i 1).isLt⟩ ⟨(i 2).val, (i 2).isLt⟩
def G7 : S16x1x384.Idx → EReal := fun i => ∑ n : Fin 4096, L V c ⟨(i 0).val, (i 0).isLt⟩ n ⟨(i 2).val, (i 2).isLt⟩
def G8 : S16x1x384.Idx → EReal := fun i =>
  ∑ n : Fin 4096, L V c ⟨(i 0).val, (i 0).isLt⟩ n ⟨(i 2).val, (i 2).isLt⟩ * L V c ⟨(i 0).val, (i 0).isLt⟩ n ⟨(i 2).val, (i 2).isLt⟩

/-- Every grid point writes back the layer's tile: block (cloud, tile, 0) of the layer's array. -/
theorem flushed6_eq (t : Fin cfg0.N) :
    (dat0 V c).flushed 6 t = ((cfg0.win 6).blk t).view.read (Elt Ideal) (G6 V c) := by
  show (cfg0.win 6).cut (grid0.coords t) ((dat0 V c).after 6 t) = _
  rw [after0_6]
  obtain ⟨⟨e0, e1, e2⟩, -⟩ := idx_out t
  refine funext fun (y : S1x1024x384.Idx) => ?_
  obtain ⟨u, p, o, rfl⟩ : ∃ (u : Fin 1) (p : Fin 1024) (o : Fin 384), y = ix3 u p o := ⟨y 0, y 1, y 2, eq_ix3 y⟩
  obtain rfl : u = 0 := Subsingleton.elim _ _
  show (outsAt0 V c t.val t.isLt).1 (ix3 0 p o) = G6 V c (((cfg0.win 6).blk t).view.emb (ix3 0 p o))
  rw [outs6 V c t p o]
  exact L_congr V c (show t.val / 4 = win0_6.index t 0 * 1 + 1 * (0 : ℕ) by rw [e0]; omega)
    (show 1024 * (t.val % 4) + p.val = win0_6.index t 1 * 1024 + 1 * p.val by rw [e1]; omega)
    (show o.val = win0_6.index t 2 * 384 + 1 * o.val by rw [e2]; omega)

/-- A cloud's last grid point writes back the running sum: block (cloud, 0, 0), the layer summed over the cloud's fine points. -/
theorem flushed7_eq (t : Fin cfg0.N) (hf : (cfg0.win 7).flush t = true) :
    (dat0 V c).flushed 7 t = ((cfg0.win 7).blk t).view.read (Elt Ideal) (G7 V c) := by
  have h3 : t.val % 4 = 3 := (flush0_7 t).mp hf
  show (cfg0.win 7).cut (grid0.coords t) ((dat0 V c).after 7 t) = _
  rw [after0_7]
  obtain ⟨-, ⟨e0, e1, e2⟩, -⟩ := idx_out t
  refine funext fun (y : S1x1x384.Idx) => ?_
  obtain ⟨u, u', o, rfl⟩ : ∃ (u u' : Fin 1) (o : Fin 384), y = ix3 u u' o := ⟨y 0, y 1, y 2, eq_ix3 y⟩
  obtain rfl : u = 0 := Subsingleton.elim _ _
  obtain rfl : u' = 0 := Subsingleton.elim _ _
  show (outsAt0 V c t.val t.isLt).2.1 (ix3 0 0 o) = G7 V c (((cfg0.win 7).blk t).view.emb (ix3 0 0 o))
  rw [acc7_last V c t h3 o]
  exact Finset.sum_congr rfl fun n _ => L_congr V c
    (show t.val / 4 = win0_7.index t 0 * 1 + 1 * (0 : ℕ) by rw [e0]; omega) rfl
    (show o.val = win0_7.index t 2 * 384 + 1 * o.val by rw [e2]; omega)

/-- And the running sum of squares likewise. -/
theorem flushed8_eq (t : Fin cfg0.N) (hf : (cfg0.win 8).flush t = true) :
    (dat0 V c).flushed 8 t = ((cfg0.win 8).blk t).view.read (Elt Ideal) (G8 V c) := by
  have h3 : t.val % 4 = 3 := (flush0_8 t).mp hf
  show (cfg0.win 8).cut (grid0.coords t) ((dat0 V c).after 8 t) = _
  rw [after0_8]
  obtain ⟨-, -, ⟨e0, e1, e2⟩⟩ := idx_out t
  refine funext fun (y : S1x1x384.Idx) => ?_
  obtain ⟨u, u', o, rfl⟩ : ∃ (u u' : Fin 1) (o : Fin 384), y = ix3 u u' o := ⟨y 0, y 1, y 2, eq_ix3 y⟩
  obtain rfl : u = 0 := Subsingleton.elim _ _
  obtain rfl : u' = 0 := Subsingleton.elim _ _
  show (outsAt0 V c t.val t.isLt).2.2 (ix3 0 0 o) = G8 V c (((cfg0.win 8).blk t).view.emb (ix3 0 0 o))
  rw [acc8_last V c t h3 o]
  exact Finset.sum_congr rfl fun n _ => congrArg₂ (· * ·)
    (L_congr V c (show t.val / 4 = win0_8.index t 0 * 1 + 1 * (0 : ℕ) by rw [e0]; omega) rfl
      (show o.val = win0_8.index t 2 * 384 + 1 * o.val by rw [e2]; omega))
    (L_congr V c (show t.val / 4 = win0_8.index t 0 * 1 + 1 * (0 : ℕ) by rw [e0]; omega) rfl
      (show o.val = win0_8.index t 2 * 384 + 1 * o.val by rw [e2]; omega))

/-! ## The three result arrays after the launch -/

/-- The layer's array: every entry is the specification's first layer at its cloud, fine point and channel. -/
theorem arr6 : (Gen.dat0 (F := Ideal) V c).arrAt 6 cfg0.N
    = fun i => L V c ⟨(i 0).val, (i 0).isLt⟩ ⟨(i 1).val, (i 1).isLt⟩ ⟨(i 2).val, (i 2).isLt⟩ :=
  (dat0 V c).arrAt_eq_of_cover 6 (G6 V c) (fun t _ => flushed6_eq V c t) (fun i => cover6 i)

/-- The sums: entry (b, 0, o) is the layer summed over the 4096 fine points of cloud b at channel o. -/
theorem arr7 : (Gen.dat0 (F := Ideal) V c).arrAt 7 cfg0.N
    = fun i => ∑ n : Fin 4096, L V c ⟨(i 0).val, (i 0).isLt⟩ n ⟨(i 2).val, (i 2).isLt⟩ :=
  (dat0 V c).arrAt_eq_of_cover 7 (G7 V c) (fun t hf => flushed7_eq V c t hf) (fun i => cover7 i)

/-- The sums of squares: entry (b, 0, o) is the squared layer summed over the fine points of cloud b at channel o. -/
theorem arr8 : (Gen.dat0 (F := Ideal) V c).arrAt 8 cfg0.N
    = fun i => ∑ n : Fin 4096, L V c ⟨(i 0).val, (i 0).isLt⟩ n ⟨(i 2).val, (i 2).isLt⟩
        * L V c ⟨(i 0).val, (i 0).isLt⟩ n ⟨(i 2).val, (i 2).isLt⟩ :=
  (dat0 V c).arrAt_eq_of_cover 8 (G8 V c) (fun t hf => flushed8_eq V c t hf) (fun i => cover8 i)

end Cert.KernelIdeal.R0

end
-- ==== Proof.R1Out.lean ====
/-
  What the second call's body leaves in its three output blocks at one grid point, as functions of the blocks it
  reads.  The body computes one tile H of the second linear layer (1024 points by 256 channels) from the seven input
  blocks.  It stores H as the point's block of the layer's output, and it adds the column sums of H and of H * H onto
  two running rows.  At the first tile of a cloud the running rows are first set to zero and read back; at the other
  tiles they are the rows the tile before left.
-/
import proofs.«113022_j46755013984985_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]

/-- The zero offsets of a rank-3 block. -/
theorem zero3 : (![0, 0, 0] : Fin 3 → Nat) = fun _ => 0 := funext fun a => by fin_cases a <;> rfl
/-- The zero offsets of a rank-2 block. -/
theorem zero2 : (![0, 0] : Fin 2 → Nat) = fun _ => 0 := funext fun a => by fin_cases a <;> rfl

/-- At a later tile of a cloud the layer's block is the tile H, narrowed. -/
theorem outB7 (c : Dev nD) (i : grid1.Coords) (arg2 : Memref sig .tc .vmem S1x1024x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S384x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1x256 .f32) (harg10 : arg10.IsWhole) (arg11 : Memref sig .tc .vmem S1x1x256 .f32) (harg11 : arg11.IsWhole) (hc0 : ¬cond1_0 i)
    (x0 : Vec F S1x1024x384 .bf16) (x1 : Vec F S1x384 .f32) (x2 : Vec F S1x384 .f32) (x3 : Vec F S1x384 .f32) (x4 : Vec F S1x384 .f32) (x5 : Vec F S384x256 .f32) (x6 : Vec F S1x256 .f32) (xo8 xo9 : Vec F S1x1x256 .f32) :
    out1_B_7 c i arg2 harg2 arg3 harg3 arg4 harg4 arg5 harg5 arg6 harg6 arg7 harg7 arg8 harg8 arg9 harg9 arg10 harg10 arg11 harg11 hc0 x0 x1 x2 x3 x4 x5 x6 xo8 xo9 = k1_pay3 (k1_pay4 x0 x1 x2 x3 x4 x5 x6) := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero zero3]
  simp only [View.readAt_eq_ld, harg2.read_unread, harg3.read_unread, harg4.read_unread, harg5.read_unread, harg6.read_unread, harg7.read_unread, harg8.read_unread, harg10.read_unread, harg11.read_unread,
    View.ld_unit_zero (S := S1x1024x384) zero3, View.ld_unit_zero (S := S1x384) zero2, View.ld_unit_zero (S := S384x256) zero2, View.ld_unit_zero (S := S1x256) zero2, View.ld_unit_zero (S := S1x1x256) zero3]

/-- At a later tile the running row of sums is the row the tile before left plus the column sums of H. -/
theorem outB8 (c : Dev nD) (i : grid1.Coords) (arg2 : Memref sig .tc .vmem S1x1024x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S384x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1x256 .f32) (harg10 : arg10.IsWhole) (arg11 : Memref sig .tc .vmem S1x1x256 .f32) (harg11 : arg11.IsWhole) (hc0 : ¬cond1_0 i)
    (x0 : Vec F S1x1024x384 .bf16) (x1 : Vec F S1x384 .f32) (x2 : Vec F S1x384 .f32) (x3 : Vec F S1x384 .f32) (x4 : Vec F S1x384 .f32) (x5 : Vec F S384x256 .f32) (x6 : Vec F S1x256 .f32) (xo8 xo9 : Vec F S1x1x256 .f32) :
    out1_B_8 c i arg2 harg2 arg3 harg3 arg4 harg4 arg5 harg5 arg6 harg6 arg7 harg7 arg8 harg8 arg9 harg9 arg10 harg10 arg11 harg11 hc0 x0 x1 x2 x3 x4 x5 x6 xo8 xo9 = k1_pay1 (k1_pay4 x0 x1 x2 x3 x4 x5 x6) xo8 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero zero3]
  simp only [View.readAt_eq_ld, harg2.read_unread, harg3.read_unread, harg4.read_unread, harg5.read_unread, harg6.read_unread, harg7.read_unread, harg8.read_unread, harg10.read_unread, harg11.read_unread,
    View.ld_unit_zero (S := S1x1024x384) zero3, View.ld_unit_zero (S := S1x384) zero2, View.ld_unit_zero (S := S384x256) zero2, View.ld_unit_zero (S := S1x256) zero2, View.ld_unit_zero (S := S1x1x256) zero3]

/-- At a later tile the running row of sums of squares is the row the tile before left plus the column sums of H * H. -/
theorem outB9 (c : Dev nD) (i : grid1.Coords) (arg2 : Memref sig .tc .vmem S1x1024x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S384x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1x256 .f32) (harg10 : arg10.IsWhole) (arg11 : Memref sig .tc .vmem S1x1x256 .f32) (harg11 : arg11.IsWhole) (hc0 : ¬cond1_0 i)
    (x0 : Vec F S1x1024x384 .bf16) (x1 : Vec F S1x384 .f32) (x2 : Vec F S1x384 .f32) (x3 : Vec F S1x384 .f32) (x4 : Vec F S1x384 .f32) (x5 : Vec F S384x256 .f32) (x6 : Vec F S1x256 .f32) (xo8 xo9 : Vec F S1x1x256 .f32) :
    out1_B_9 c i arg2 harg2 arg3 harg3 arg4 harg4 arg5 harg5 arg6 harg6 arg7 harg7 arg8 harg8 arg9 harg9 arg10 harg10 arg11 harg11 hc0 x0 x1 x2 x3 x4 x5 x6 xo8 xo9 = k1_pay2 (k1_pay4 x0 x1 x2 x3 x4 x5 x6) xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun1_B
  dsimp only
  sl_unfold_words
  rw [View.canon_unit_zero zero3]
  simp only [View.readAt_eq_ld, harg2.read_unread, harg3.read_unread, harg4.read_unread, harg5.read_unread, harg6.read_unread, harg7.read_unread, harg8.read_unread, harg10.read_unread, harg11.read_unread,
    View.ld_unit_zero (S := S1x1024x384) zero3, View.ld_unit_zero (S := S1x384) zero2, View.ld_unit_zero (S := S384x256) zero2, View.ld_unit_zero (S := S1x256) zero2, View.ld_unit_zero (S := S1x1x256) zero3]

/-- At the first tile of a cloud the layer's block is the tile H, narrowed. -/
theorem outA7 (c : Dev nD) (i : grid1.Coords) (arg2 : Memref sig .tc .vmem S1x1024x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S384x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1x256 .f32) (harg10 : arg10.IsWhole) (arg11 : Memref sig .tc .vmem S1x1x256 .f32) (harg11 : arg11.IsWhole) (hc0 : cond1_0 i)
    (x0 : Vec F S1x1024x384 .bf16) (x1 : Vec F S1x384 .f32) (x2 : Vec F S1x384 .f32) (x3 : Vec F S1x384 .f32) (x4 : Vec F S1x384 .f32) (x5 : Vec F S384x256 .f32) (x6 : Vec F S1x256 .f32) :
    out1_A_7 c i arg2 harg2 arg3 harg3 arg4 harg4 arg5 harg5 arg6 harg6 arg7 harg7 arg8 harg8 arg9 harg9 arg10 harg10 arg11 harg11 hc0 x0 x1 x2 x3 x4 x5 x6 = k1_pay3 (k1_pay4 x0 x1 x2 x3 x4 x5 x6) := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_unit_zero zero3]
  simp only [View.readAt_eq_ld, harg2.read_unread, harg3.read_unread, harg4.read_unread, harg5.read_unread, harg6.read_unread, harg7.read_unread, harg8.read_unread, harg10.read_unread, harg11.read_unread,
    View.ld_unit_zero (S := S1x1024x384) zero3, View.ld_unit_zero (S := S1x384) zero2, View.ld_unit_zero (S := S384x256) zero2, View.ld_unit_zero (S := S1x256) zero2, View.ld_unit_zero (S := S1x1x256) zero3]

/-- At the first tile the running row of sums is the zero row plus the column sums of H. -/
theorem outA8 (c : Dev nD) (i : grid1.Coords) (arg2 : Memref sig .tc .vmem S1x1024x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S384x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1x256 .f32) (harg10 : arg10.IsWhole) (arg11 : Memref sig .tc .vmem S1x1x256 .f32) (harg11 : arg11.IsWhole) (hc0 : cond1_0 i)
    (x0 : Vec F S1x1024x384 .bf16) (x1 : Vec F S1x384 .f32) (x2 : Vec F S1x384 .f32) (x3 : Vec F S1x384 .f32) (x4 : Vec F S1x384 .f32) (x5 : Vec F S384x256 .f32) (x6 : Vec F S1x256 .f32) :
    out1_A_8 c i arg2 harg2 arg3 harg3 arg4 harg4 arg5 harg5 arg6 harg6 arg7 harg7 arg8 harg8 arg9 harg9 arg10 harg10 arg11 harg11 hc0 x0 x1 x2 x3 x4 x5 x6 = k1_pay1 (k1_pay4 x0 x1 x2 x3 x4 x5 x6) (k1_pay5 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S1x1x256) zero3, View.readCov_unit_zero (S := S1x1x256) _ zero3]
  simp only [View.readAt_eq_ld, harg2.read_unread, harg3.read_unread, harg4.read_unread, harg5.read_unread, harg6.read_unread, harg7.read_unread, harg8.read_unread, harg10.read_unread, harg11.read_unread,
    View.ld_unit_zero (S := S1x1024x384) zero3, View.ld_unit_zero (S := S1x384) zero2, View.ld_unit_zero (S := S384x256) zero2, View.ld_unit_zero (S := S1x256) zero2, View.ld_unit_zero (S := S1x1x256) zero3]

/-- At the first tile the running row of sums of squares is the zero row plus the column sums of H * H. -/
theorem outA9 (c : Dev nD) (i : grid1.Coords) (arg2 : Memref sig .tc .vmem S1x1024x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S384x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1x256 .f32) (harg10 : arg10.IsWhole) (arg11 : Memref sig .tc .vmem S1x1x256 .f32) (harg11 : arg11.IsWhole) (hc0 : cond1_0 i)
    (x0 : Vec F S1x1024x384 .bf16) (x1 : Vec F S1x384 .f32) (x2 : Vec F S1x384 .f32) (x3 : Vec F S1x384 .f32) (x4 : Vec F S1x384 .f32) (x5 : Vec F S384x256 .f32) (x6 : Vec F S1x256 .f32) :
    out1_A_9 c i arg2 harg2 arg3 harg3 arg4 harg4 arg5 harg5 arg6 harg6 arg7 harg7 arg8 harg8 arg9 harg9 arg10 harg10 arg11 harg11 hc0 x0 x1 x2 x3 x4 x5 x6 = k1_pay2 (k1_pay4 x0 x1 x2 x3 x4 x5 x6) (k1_pay6 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  rw [View.canon_cons_unit_zero (S := S1x1x256) zero3, View.readCov_unit_zero (S := S1x1x256) _ zero3]
  simp only [View.readAt_eq_ld, harg2.read_unread, harg3.read_unread, harg4.read_unread, harg5.read_unread, harg6.read_unread, harg7.read_unread, harg8.read_unread, harg10.read_unread, harg11.read_unread,
    View.ld_unit_zero (S := S1x1024x384) zero3, View.ld_unit_zero (S := S1x384) zero2, View.ld_unit_zero (S := S384x256) zero2, View.ld_unit_zero (S := S1x256) zero2, View.ld_unit_zero (S := S1x1x256) zero3]

end Cert.KernelIdeal.R1

end
-- ==== Proof.R1Pay.lean ====
/-
  The arithmetic of the second call's body, read entry by entry over the extended reals.

  From a block of the first layer's output (1024 points by 384 channels), the rows of its mean, variance, scale and
  shift, the second weight (384 by 256) and the second bias row, the body forms the tile
      H p o = (sum over j of max (norm (x p j)) 0 * w j o) + bias o
  of the second linear layer.  It stores H, and adds the column sums of H and of H * H onto two running rows.
  Narrowing and widening between float formats are the identity on the extended reals, and the zero word is 0.
-/
import proofs.«113022_j46755013984985_2_alg».proof.Proof.Gen.KernelIdeal.Skeleton
import proofs.«113022_j46755013984985_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.R1

open Cert.KernelIdeal Cert.KernelIdeal.Gen

/-! ## Layout operations of the body read at explicit coordinates -/

section Layout
variable {α : Type}

/-- A row of 384 entries repeated down 1024 rows reads, at (p, j), entry j of the row. -/
theorem spread384 (x : S1x384.Idx → α) (h : S1x384.Broadcasts S1024x384) (p : Fin 1024) (j : Fin 384) :
    broadcastTo S1024x384 x h (ix2 p j) = x (ix2 0 j) :=
  broadcastTo_apply x h (ix2 p j) (ix2 0 j) fun a => match a with
    | ⟨0, _⟩ => by show (0 : Nat) = if (1 : Nat) = 1 then 0 else p.val; rw [if_pos rfl]
    | ⟨1, _⟩ => by show j.val = if (384 : Nat) = 1 then 0 else j.val; rw [if_neg (by decide)]

/-- A row of 256 entries repeated down 1024 rows reads, at (p, o), entry o of the row. -/
theorem spread256 (x : S1x256.Idx → α) (h : S1x256.Broadcasts S1024x256) (p : Fin 1024) (o : Fin 256) :
    broadcastTo S1024x256 x h (ix2 p o) = x (ix2 0 o) :=
  broadcastTo_apply x h (ix2 p o) (ix2 0 o) fun a => match a with
    | ⟨0, _⟩ => by show (0 : Nat) = if (1 : Nat) = 1 then 0 else p.val; rw [if_pos rfl]
    | ⟨1, _⟩ => by show o.val = if (256 : Nat) = 1 then 0 else o.val; rw [if_neg (by decide)]

/-- A block [1, 1024, 384] viewed as [1024, 384]: entry (p, j) is entry (0, p, j). -/
theorem flat384 (x : S1x1024x384.Idx → α) (h : S1x1024x384.ShapeCasts S1024x384) (p : Fin 1024) (j : Fin 384) :
    shapeCast S1024x384 x h (ix2 p j) = x (ix3 0 p j) :=
  shapeCast_apply x h (ix2 p j) (ix3 0 p j) (by
    rw [Shape.rowMajor_val_three, Shape.rowMajor_val_two]
    show (0 * 1024 + p.val) * 384 + j.val = p.val * 384 + j.val
    omega)

/-- A tile [1024, 256] stored as a block [1, 1024, 256]: entry (0, p, o) is entry (p, o). -/
theorem block256 (x : S1024x256.Idx → α) (h : S1024x256.ShapeCasts S1x1024x256) (p : Fin 1024) (o : Fin 256) :
    shapeCast S1x1024x256 x h (ix3 0 p o) = x (ix2 p o) :=
  shapeCast_apply x h (ix3 0 p o) (ix2 p o) (by
    rw [Shape.rowMajor_val_three, Shape.rowMajor_val_two]
    show p.val * 256 + o.val = (0 * 1024 + p.val) * 256 + o.val
    omega)

/-- A running row [1, 1, 256] viewed as [1, 256]. -/
theorem row_of_block (x : S1x1x256.Idx → α) (h : S1x1x256.ShapeCasts S1x256) (o : Fin 256) :
    shapeCast S1x256 x h (ix2 0 o) = x (ix3 0 0 o) :=
  shapeCast_apply x h (ix2 0 o) (ix3 0 0 o) (by
    rw [Shape.rowMajor_val_three, Shape.rowMajor_val_two]
    show (0 * 1 + 0) * 256 + o.val = 0 * 256 + o.val
    omega)

/-- A row [1, 256] stored as a block [1, 1, 256]. -/
theorem block_of_row (x : S1x256.Idx → α) (h : S1x256.ShapeCasts S1x1x256) (o : Fin 256) :
    shapeCast S1x1x256 x h (ix3 0 0 o) = x (ix2 0 o) :=
  shapeCast_apply x h (ix3 0 0 o) (ix2 0 o) (by
    rw [Shape.rowMajor_val_three, Shape.rowMajor_val_two]
    show 0 * 256 + o.val = (0 * 1 + 0) * 256 + o.val
    omega)

/-- A vector of 256 entries viewed as a row [1, 256]. -/
theorem row_of_vec (x : S256.Idx → α) (h : S256.ShapeCasts S1x256) (o : Fin 256) :
    shapeCast S1x256 x h (ix2 0 o) = x (ix1 o) :=
  shapeCast_apply x h (ix2 0 o) (ix1 o) (by
    rw [Shape.rowMajor_val_one, Shape.rowMajor_val_two]
    show o.val = 0 * 256 + o.val
    omega)

end Layout

/-! ## The two reductions of the body, over the extended reals -/

/-- The sum down the 1024 rows of a tile, at column o. -/
theorem colsum (v : FVec Ideal S1024x256 .f32) (h : S1024x256.Reduces [0] S256) (hφ : FKind.Formats .f32)
    (hacc : (0x00000000#32 : BitVec 32) = FKind.add.neutral .f32 hφ) (o : Fin 256) :
    multiReduction .add [0] S256 v 0x00000000#32 h hφ hacc (ix1 o) = ∑ p : Fin 1024, v (ix2 p o) := by
  refine (Ideal.multiReduction_add_single v _ h hφ hacc (ix1 o)).trans ?_
  refine Finset.sum_congr rfl fun p _ => congrArg v ?_
  funext a
  apply Fin.ext
  match a with
  | ⟨0, _⟩ => rfl
  | ⟨1, _⟩ => rfl

/-- The product of a [1024, 384] tile with a [384, 256] matrix from a zero accumulator, at (p, o): the sum over the
    384 shared coordinates. -/
theorem matmul_at (a : FVec Ideal S1024x384 .bf16) (b : FVec Ideal S384x256 .bf16) (p : Fin 1024) (o : Fin 256) :
    matmul dot_S1024x384_S384x256_S1024x256_1_0_0_1_n_n none a b (constant (F := Ideal) S1024x256 .f32 0x00000000#32) (ix2 p o)
      = ∑ j : Fin 384, a (ix2 p j) * b (ix2 j o) := by
  simp only [matmul]
  rw [Ideal.matmul_constant_zero_apply, ← Equiv.sum_comp (contrEquiv1 dot_S1024x384_S384x256_S1024x256_1_0_0_1_n_n 384 rfl rfl).symm]
  refine Finset.sum_congr rfl fun k _ => ?_
  have hk := contrEquiv1_symm_val dot_S1024x384_S384x256_S1024x256_1_0_0_1_n_n 384 rfl rfl k
  have el : dot_S1024x384_S384x256_S1024x256_1_0_0_1_n_n.lhsIdx (ix2 p o) ((contrEquiv1 dot_S1024x384_S384x256_S1024x256_1_0_0_1_n_n 384 rfl rfl).symm k) = ix2 p k :=
    funext fun a => Fin.ext (by
      match a with
      | ⟨0, _⟩ =>
        show (dot_S1024x384_S384x256_S1024x256_1_0_0_1_n_n.lhsIdx (ix2 p o) _ 0).val = p.val
        unfold DotDims.lhsIdx
        rw [dif_neg (show ¬(0 : Fin S1024x384.rank) ∈ dot_S1024x384_S384x256_S1024x256_1_0_0_1_n_n.lhsBatch by decide), dif_pos (show (0 : Fin S1024x384.rank) ∈ dot_S1024x384_S384x256_S1024x256_1_0_0_1_n_n.lhsNonContracting by decide)]
        rfl
      | ⟨1, _⟩ => exact (dot_S1024x384_S384x256_S1024x256_1_0_0_1_n_n.lhsIdx_val_of_single rfl (ix2 p o) _).trans hk)
  have er : dot_S1024x384_S384x256_S1024x256_1_0_0_1_n_n.rhsIdx (ix2 p o) ((contrEquiv1 dot_S1024x384_S384x256_S1024x256_1_0_0_1_n_n 384 rfl rfl).symm k) = ix2 k o :=
    funext fun a => Fin.ext (by
      match a with
      | ⟨0, _⟩ => exact (dot_S1024x384_S384x256_S1024x256_1_0_0_1_n_n.rhsIdx_val_of_single rfl (ix2 p o) _).trans hk
      | ⟨1, _⟩ =>
        show (dot_S1024x384_S384x256_S1024x256_1_0_0_1_n_n.rhsIdx (ix2 p o) _ 1).val = o.val
        unfold DotDims.rhsIdx
        rw [dif_neg (show ¬(1 : Fin S384x256.rank) ∈ dot_S1024x384_S384x256_S1024x256_1_0_0_1_n_n.rhsBatch by decide), dif_pos (show (1 : Fin S384x256.rank) ∈ dot_S1024x384_S384x256_S1024x256_1_0_0_1_n_n.rhsNonContracting by decide)]
        rfl)
  rw [el, er]

/-! ## The body's arithmetic at explicit coordinates -/

/-- The reciprocal square root of a vector reads entry by entry. -/
theorem rsqrt_at {s : Shape} {φ : FTy} (a : FVec Ideal s φ) (i : s.Idx) : rsqrt a i = Ideal.rsqrt (a i) := rfl

/-- The tile of the second linear layer at point p and channel o: the 384 rectified normalised inputs of the point
    against column o of the weight, plus entry o of the bias row. -/
theorem pay4_apply (v0 : Vec Ideal S1x1024x384 .bf16) (v3 v5 v7 v9 : Vec Ideal S1x384 .f32) (v24 : Vec Ideal S384x256 .f32)
    (v26 : Vec Ideal S1x256 .f32) (p : Fin 1024) (o : Fin 256) :
    k1_pay4 (F := Ideal) v0 v3 v5 v7 v9 v24 v26 (ix2 p o)
      = (∑ j : Fin 384, max (Spec.norm1 (v0 (ix3 0 p j)) (v3 (ix2 0 j)) (v5 (ix2 0 j)) (v7 (ix2 0 j)) (v9 (ix2 0 j))) 0 * v24 (ix2 j o))
        + v26 (ix2 0 o) := by
  unfold k1_pay4
  refine (addf_apply _ _ _).trans ?_
  refine congrArg₂ (· + ·) ?_ ?_
  · refine (matmul_at _ _ p o).trans (Finset.sum_congr rfl fun j _ => ?_)
    refine congrArg₂ (· * ·) ?_ ?_
    · simp only [truncf_apply, maximumf_apply, addf_apply, mulf_apply, subf_apply, extf_apply, rsqrt_at, broadcast_apply,
        spread384, flat384, shapeCast_self, Ideal.ofBits_def, Ideal.ofBits_zero_f32]
      rfl
    · simp only [truncf_apply, shapeCast_self]
  · refine (spread256 _ _ p o).trans ?_
    rw [shapeCast_self]

/-- The layer's block is the tile, narrowed: the same extended reals. -/
theorem pay3_apply (v32 : FVec Ideal S1024x256 .f32) (p : Fin 1024) (o : Fin 256) :
    k1_pay3 (F := Ideal) v32 (ix3 0 p o) = v32 (ix2 p o) := by
  unfold k1_pay3
  refine (block256 _ _ p o).trans ?_
  rfl

/-- The running row of sums after a tile: what it held plus the tile's column sum. -/
theorem pay1_apply (v32 : FVec Ideal S1024x256 .f32) (v36 : Vec Ideal S1x1x256 .f32) (o : Fin 256) :
    k1_pay1 (F := Ideal) v32 v36 (ix3 0 0 o) = v36 (ix3 0 0 o) + ∑ p : Fin 1024, v32 (ix2 p o) := by
  unfold k1_pay1
  refine (block_of_row _ _ o).trans ?_
  refine (addf_apply _ _ _).trans ?_
  refine congrArg₂ (· + ·) (row_of_block _ _ o) ?_
  refine (row_of_vec _ _ o).trans ?_
  exact colsum v32 _ _ _ o

/-- The running row of sums of squares after a tile: what it held plus the column sum of the tile's squares. -/
theorem pay2_apply (v32 : FVec Ideal S1024x256 .f32) (v44 : Vec Ideal S1x1x256 .f32) (o : Fin 256) :
    k1_pay2 (F := Ideal) v32 v44 (ix3 0 0 o) = v44 (ix3 0 0 o) + ∑ p : Fin 1024, v32 (ix2 p o) * v32 (ix2 p o) := by
  unfold k1_pay2
  refine (block_of_row _ _ o).trans ?_
  refine (addf_apply _ _ _).trans ?_
  refine congrArg₂ (· + ·) (row_of_block _ _ o) ?_
  refine (row_of_vec _ _ o).trans ?_
  exact colsum (mulf v32 v32) _ _ _ o

/-- The row the first tile of a cloud starts the sums from is zero. -/
theorem pay5_apply (i : S1x1x256.Idx) : k1_pay5 (F := Ideal) i = 0 := by
  unfold k1_pay5
  obtain ⟨a, b, o, rfl⟩ : ∃ (a : Fin 1) (b : Fin 1) (o : Fin 256), i = ix3 a b o := ⟨i 0, i 1, i 2, eq_ix3 i⟩
  obtain rfl : a = 0 := Subsingleton.elim _ _
  obtain rfl : b = 0 := Subsingleton.elim _ _
  refine (block_of_row _ _ o).trans ?_
  exact Ideal.ofBits_zero_f32

/-- The row the first tile of a cloud starts the sums of squares from is zero. -/
theorem pay6_apply (i : S1x1x256.Idx) : k1_pay6 (F := Ideal) i = 0 := by
  unfold k1_pay6
  obtain ⟨a, b, o, rfl⟩ : ∃ (a : Fin 1) (b : Fin 1) (o : Fin 256), i = ix3 a b o := ⟨i 0, i 1, i 2, eq_ix3 i⟩
  obtain rfl : a = 0 := Subsingleton.elim _ _
  obtain rfl : b = 0 := Subsingleton.elim _ _
  refine (block_of_row _ _ o).trans ?_
  exact Ideal.ofBits_zero_f32

end Cert.KernelIdeal.R1

end
-- ==== Proof.R1Blk.lean ====
/-
  The blocks the second call's body reads at a grid point, as entries of the arrays the call finds, and the tile it
  computes from them as entries of one function of those arrays.

  The grid has 16 * 4 points; point t works on cloud t / 4 and on its rows 1024 (t % 4), …, 1024 (t % 4) + 1023.
  The first layer's output is read through that block; the mean, variance, scale, shift, weight and bias are read
  whole at every point.  So the tile at point t is rows 1024 (t % 4) … of cloud t / 4 of the second linear layer
  applied to the rectified, normalised first layer.
-/
import proofs.«113022_j46755013984985_2_alg».proof.Proof.Gen.KernelIdeal.Frame
import proofs.«113022_j46755013984985_2_alg».proof.Proof.R1Pay
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

/-! ## Where each input block sits in its array -/

/-- The block of the first layer's output at point t is block (t / 4, t % 4, 0). -/
theorem idx_in0 : ∀ t : Fin cfg1.N, win1_0.index t (0 : Fin 3) = t.val / 4 ∧ win1_0.index t (1 : Fin 3) = t.val % 4
    ∧ win1_0.index t (2 : Fin 3) = 0 :=
  (by decide +kernel : ∀ t : Fin grid1.N, win1_0.index t (0 : Fin 3) = t.val / 4 ∧ win1_0.index t (1 : Fin 3) = t.val % 4
    ∧ win1_0.index t (2 : Fin 3) = 0)
/-- The other inputs are read through block (0, 0) at every point. -/
theorem idx_in1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_in2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_in3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_in4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_in5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_in6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

section Blocks
variable {F : FTy → Type} [FloatOps F]
variable (V : (c : Dev nD) → (b : Ref sig .tc) → Buf (Elt F) ((c : Thread nD τ).loc b))

/-- Entry x of the first layer's block at point t is the entry of the array at cloud t / 4, row 1024 (t % 4) + x₁. -/
theorem blk0_apply (c : Dev nD) (t : Fin cfg1.N) (x : S1x1024x384.Idx) (k : S16x4096x384.Idx)
    (hk0 : (k 0).val = t.val / 4 + (x 0).val) (hk1 : (k 1).val = 1024 * (t.val % 4) + (x 1).val)
    (hk2 : (k 2).val = (x 2).val) :
    (iblk1 V c 0 t : Vec F S1x1024x384 .bf16) x = (V c main_v8_0 : S16x4096x384.Idx → Elt F .bf16) k := by
  obtain ⟨e0, e1, e2⟩ := idx_in0 t
  unfold iblk1
  rw [View.read_apply]
  show V c main_v8_0 _ = V c main_v8_0 k
  congr 1
  funext a
  apply Fin.ext
  match a with
  | ⟨0, _⟩ => show win1_0.index t 0 * 1 + 1 * (x 0).val = (k 0).val; rw [e0, hk0]; omega
  | ⟨1, _⟩ => show win1_0.index t 1 * 1024 + 1 * (x 1).val = (k 1).val; rw [e1, hk1]; omega
  | ⟨2, _⟩ => show win1_0.index t 2 * 384 + 1 * (x 2).val = (k 2).val; rw [e2, hk2]; omega

/-- The mean row is read whole at every point. -/
theorem blk1_eq (c : Dev nD) (t : Fin cfg1.N) :
    (iblk1 V c 1 t : Vec F S1x384 .f32) = (V c main_v11 : S1x384.Idx → Elt F .f32) := by
  obtain ⟨e0, e1⟩ := idx_in1 t
  funext x
  unfold iblk1
  rw [View.read_apply]
  show V c main_v11 _ = V c main_v11 x
  congr 1
  funext a
  apply Fin.ext
  match a with
  | ⟨0, _⟩ => show win1_1.index t 0 * 1 + 1 * (x 0).val = (x 0).val; rw [e0]; omega
  | ⟨1, _⟩ => show win1_1.index t 1 * 384 + 1 * (x 1).val = (x 1).val; rw [e1]; omega

/-- The variance row is read whole at every point. -/
theorem blk2_eq (c : Dev nD) (t : Fin cfg1.N) :
    (iblk1 V c 2 t : Vec F S1x384 .f32) = (V c main_v18 : S1x384.Idx → Elt F .f32) := by
  obtain ⟨e0, e1⟩ := idx_in2 t
  funext x
  unfold iblk1
  rw [View.read_apply]
  show V c main_v18 _ = V c main_v18 x
  congr 1
  funext a
  apply Fin.ext
  match a with
  | ⟨0, _⟩ => show win1_2.index t 0 * 1 + 1 * (x 0).val = (x 0).val; rw [e0]; omega
  | ⟨1, _⟩ => show win1_2.index t 1 * 384 + 1 * (x 1).val = (x 1).val; rw [e1]; omega

/-- The scale row is read whole at every point. -/
theorem blk3_eq (c : Dev nD) (t : Fin cfg1.N) :
    (iblk1 V c 3 t : Vec F S1x384 .f32) = (V c main_v4 : S1x384.Idx → Elt F .f32) := by
  obtain ⟨e0, e1⟩ := idx_in3 t
  funext x
  unfold iblk1
  rw [View.read_apply]
  show V c main_v4 _ = V c main_v4 x
  congr 1
  funext a
  apply Fin.ext
  match a with
  | ⟨0, _⟩ => show win1_3.index t 0 * 1 + 1 * (x 0).val = (x 0).val; rw [e0]; omega
  | ⟨1, _⟩ => show win1_3.index t 1 * 384 + 1 * (x 1).val = (x 1).val; rw [e1]; omega

/-- The shift row is read whole at every point. -/
theorem blk4_eq (c : Dev nD) (t : Fin cfg1.N) :
    (iblk1 V c 4 t : Vec F S1x384 .f32) = (V c main_v5 : S1x384.Idx → Elt F .f32) := by
  obtain ⟨e0, e1⟩ := idx_in4 t
  funext x
  unfold iblk1
  rw [View.read_apply]
  show V c main_v5 _ = V c main_v5 x
  congr 1
  funext a
  apply Fin.ext
  match a with
  | ⟨0, _⟩ => show win1_4.index t 0 * 1 + 1 * (x 0).val = (x 0).val; rw [e0]; omega
  | ⟨1, _⟩ => show win1_4.index t 1 * 384 + 1 * (x 1).val = (x 1).val; rw [e1]; omega

/-- The second weight matrix is read whole at every point. -/
theorem blk5_eq (c : Dev nD) (t : Fin cfg1.N) :
    (iblk1 V c 5 t : Vec F S384x256 .f32) = (V c main_v1 : S384x256.Idx → Elt F .f32) := by
  obtain ⟨e0, e1⟩ := idx_in5 t
  funext x
  unfold iblk1
  rw [View.read_apply]
  show V c main_v1 _ = V c main_v1 x
  congr 1
  funext a
  apply Fin.ext
  match a with
  | ⟨0, _⟩ => show win1_5.index t 0 * 384 + 1 * (x 0).val = (x 0).val; rw [e0]; omega
  | ⟨1, _⟩ => show win1_5.index t 1 * 256 + 1 * (x 1).val = (x 1).val; rw [e1]; omega

/-- The second bias row is read whole at every point. -/
theorem blk6_eq (c : Dev nD) (t : Fin cfg1.N) :
    (iblk1 V c 6 t : Vec F S1x256 .f32) = (V c main_v3 : S1x256.Idx → Elt F .f32) := by
  obtain ⟨e0, e1⟩ := idx_in6 t
  funext x
  unfold iblk1
  rw [View.read_apply]
  show V c main_v3 _ = V c main_v3 x
  congr 1
  funext a
  apply Fin.ext
  match a with
  | ⟨0, _⟩ => show win1_6.index t 0 * 1 + 1 * (x 0).val = (x 0).val; rw [e0]; omega
  | ⟨1, _⟩ => show win1_6.index t 1 * 256 + 1 * (x 1).val = (x 1).val; rw [e1]; omega

end Blocks

/-! ## The tile at a point, over the extended reals -/

section Tile
variable (V : (c : Dev nD) → (b : Ref sig .tc) → Buf (Elt Ideal) ((c : Thread nD τ).loc b))

/-- The first layer normalised with the mean, variance, scale and shift rows the call finds, and rectified. -/
def act (c : Dev nD) (b : Fin 16) (n : Fin 4096) (j : Fin 384) : EReal :=
  max (Spec.norm1 (V c main_v8_0 (ix3 b n j)) (V c main_v11 (ix2 0 j)) (V c main_v18 (ix2 0 j)) (V c main_v4 (ix2 0 j))
    (V c main_v5 (ix2 0 j))) 0

/-- The second linear layer of it, with the weight and bias the call finds. -/
def lay (c : Dev nD) : Fin 16 → Fin 4096 → Fin 256 → EReal :=
  Spec.lin2 (act V c) (fun j o => V c main_v1 (ix2 j o)) (fun o => V c main_v3 (ix2 0 o))

/-- The two definitions spelled out. -/
theorem lay_def (c : Dev nD) : lay V c = Spec.lin2
    (fun (b : Fin 16) (n : Fin 4096) (j : Fin 384) => max (Spec.norm1 (V c main_v8_0 (ix3 b n j)) (V c main_v11 (ix2 0 j))
      (V c main_v18 (ix2 0 j)) (V c main_v4 (ix2 0 j)) (V c main_v5 (ix2 0 j))) 0)
    (fun j o => V c main_v1 (ix2 j o)) (fun o => V c main_v3 (ix2 0 o)) := rfl

/-- The tile at point t, entry (p, o): the second layer at cloud t / 4, row 1024 (t % 4) + p, channel o. -/
theorem tile_eq (c : Dev nD) (t : Fin cfg1.N) (b : Fin 16) (hb : b.val = t.val / 4) (p : Fin 1024) (o : Fin 256)
    (n : Fin 4096) (hn : n.val = 1024 * (t.val % 4) + p.val) :
    k1_pay4 (F := Ideal) (iblk1 V c 0 t) (iblk1 V c 1 t) (iblk1 V c 2 t) (iblk1 V c 3 t) (iblk1 V c 4 t) (iblk1 V c 5 t)
      (iblk1 V c 6 t) (ix2 p o) = lay V c b n o := by
  refine (pay4_apply (iblk1 V c 0 t) (iblk1 V c 1 t) (iblk1 V c 2 t) (iblk1 V c 3 t) (iblk1 V c 4 t) (iblk1 V c 5 t)
    (iblk1 V c 6 t) p o).trans ?_
  unfold lay Spec.lin2 act
  refine congrArg₂ (· + ·) (Finset.sum_congr rfl fun j _ => ?_) (congrFun (blk6_eq V c t) (ix2 0 o))
  rw [blk0_apply V c t (ix3 0 p j) (ix3 b n j) (by show b.val = t.val / 4 + 0; omega) hn rfl,
    congrFun (blk1_eq V c t) (ix2 0 j), congrFun (blk2_eq V c t) (ix2 0 j), congrFun (blk3_eq V c t) (ix2 0 j),
    congrFun (blk4_eq V c t) (ix2 0 j), congrFun (blk5_eq V c t) (ix2 j o)]

end Tile

end Cert.KernelIdeal.R1

end
-- ==== Proof.R1Step.lean ====
/-
  What the three output blocks hold after each grid point of the second call, over the extended reals.

  The block of the layer's output after point t is the tile the body computes at t.  The two running rows after
  point t are the sums, over the tiles of cloud t / 4 met so far (tiles 0, …, t % 4), of the tile's column sums and of
  the column sums of its squares: at the first tile of a cloud the rows start from zero, at a later tile from what
  the tile before left.  After the last tile of a cloud they are the sums over all 4096 points of the cloud.
-/
import proofs.«113022_j46755013984985_2_alg».proof.Proof.Gen.KernelIdeal.Frame
import proofs.«113022_j46755013984985_2_alg».proof.Proof.R1Out
import proofs.«113022_j46755013984985_2_alg».proof.Proof.R1Blk

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

/-! ## Each point's step, in terms of the tile -/

/-- The tile of the second layer the body computes at point t, from the blocks it reads there. -/
def tile (c : Dev nD) (t : Fin cfg1.N) : FVec Ideal S1024x256 .f32 :=
  k1_pay4 (F := Ideal) (iblk1 V c 0 t) (iblk1 V c 1 t) (iblk1 V c 2 t) (iblk1 V c 3 t) (iblk1 V c 4 t) (iblk1 V c 5 t) (iblk1 V c 6 t)

/-- After any point the layer's block is that point's tile, narrowed. -/
theorem out7_eq (c : Dev nD) (t : Fin cfg1.N) : (outsAt1 V c t.val t.isLt).1 = k1_pay3 (tile V c t) := by
  by_cases h0 : t.val % 4 = 0
  · rw [outsAt1_A V c t h0]
    dsimp only
    unfold tile
    exact outA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]
    dsimp only
    unfold tile
    exact outB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- After the first tile of a cloud the row of sums is zero plus the tile's column sums. -/
theorem first8 (c : Dev nD) (t : Fin cfg1.N) (h0 : t.val % 4 = 0) :
    (outsAt1 V c t.val t.isLt).2.1 = k1_pay1 (tile V c t) (k1_pay5 (F := Ideal)) := by
  rw [outsAt1_A V c t h0]
  dsimp only
  unfold tile
  exact outA8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)

/-- After the first tile of a cloud the row of sums of squares is zero plus the column sums of the tile's squares. -/
theorem first9 (c : Dev nD) (t : Fin cfg1.N) (h0 : t.val % 4 = 0) :
    (outsAt1 V c t.val t.isLt).2.2 = k1_pay2 (tile V c t) (k1_pay6 (F := Ideal)) := by
  rw [outsAt1_A V c t h0]
  dsimp only
  unfold tile
  exact outA9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)

/-- After a later tile the row of sums is what the tile before left plus the tile's column sums. -/
theorem next8 (c : Dev nD) (t : Fin cfg1.N) (h0 : ¬t.val % 4 = 0) :
    (outsAt1 V c t.val t.isLt).2.1 = k1_pay1 (tile V c t) (outsAt1 V c (t.val - 1) (Nat.lt_of_le_of_lt (Nat.sub_le _ _) t.isLt)).2.1 := by
  rw [outsAt1_B V c t h0]
  dsimp only
  unfold tile
  exact outB8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- After a later tile the row of sums of squares is what the tile before left plus the column sums of the tile's squares. -/
theorem next9 (c : Dev nD) (t : Fin cfg1.N) (h0 : ¬t.val % 4 = 0) :
    (outsAt1 V c t.val t.isLt).2.2 = k1_pay2 (tile V c t) (outsAt1 V c (t.val - 1) (Nat.lt_of_le_of_lt (Nat.sub_le _ _) t.isLt)).2.2 := by
  rw [outsAt1_B V c t h0]
  dsimp only
  unfold tile
  exact outB9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

end Cert.KernelIdeal.R1

end
-- ==== Proof.R1Sum.lean ====
/-
  Summing 4096 terms in four consecutive runs of 1024: n = 1024 q + r.  The sum over all n is the sum over the runs
  q of the sum over the places r in the run.  Only commutativity and associativity of addition are used, so this holds in
  any additive commutative monoid, the extended reals among them.
-/
import Mathlib.Algebra.BigOperators.Fin
import Mathlib.Algebra.BigOperators.Intervals
import Mathlib.Logic.Equiv.Fin.Basic

open scoped BigOperators

namespace Cert.KernelIdeal.R1

variable {M : Type*} [AddCommMonoid M]

/-- The sum of f over run q: the places 1024 q, …, 1024 q + 1023 (nothing for a run that does not exist). -/
def tileSum (f : Fin 4096 → M) (q : ℕ) : M :=
  ∑ r : Fin 1024, if h : 1024 * q + r.val < 4096 then f ⟨1024 * q + r.val, h⟩ else 0

/-- For one of the four runs every place exists. -/
theorem tileSum_of_lt (f : Fin 4096 → M) (q : ℕ) (hq : q < 4) :
    tileSum f q = ∑ r : Fin 1024, f ⟨1024 * q + r.val, by have := r.isLt; omega⟩ :=
  Finset.sum_congr rfl fun r _ => dif_pos (by have := r.isLt; omega)

/-- The whole sum, run by run. -/
theorem sum_eq_sum_tiles (f : Fin 4096 → M) :
    ∑ n : Fin 4096, f n = ∑ q : Fin 4, ∑ r : Fin 1024, f ⟨1024 * q.val + r.val, by have := q.isLt; have := r.isLt; omega⟩ := by
  rw [← Equiv.sum_comp (finProdFinEquiv (m := 4) (n := 1024)) f, Fintype.sum_prod_type]
  refine Finset.sum_congr rfl fun q _ => Finset.sum_congr rfl fun r _ => congrArg f (Fin.ext ?_)
  show r.val + 1024 * q.val = 1024 * q.val + r.val
  omega

/-- The four runs together are the whole sum. -/
theorem sum_range_tileSum (f : Fin 4096 → M) : ∑ q ∈ Finset.range 4, tileSum f q = ∑ n : Fin 4096, f n := by
  rw [Finset.sum_range, sum_eq_sum_tiles]
  exact Finset.sum_congr rfl fun q _ => tileSum_of_lt f q.val q.isLt

end Cert.KernelIdeal.R1
-- ==== Proof.R1Acc.lean ====
/-
  The closed form of what the second call's output blocks hold after each grid point, over the extended reals.

  Write lay b n o for the second linear layer at cloud b, point n, channel o.  After point t (cloud b = t / 4, tile
  t % 4) the layer's block holds lay b (1024 (t % 4) + p) o, and the two running rows hold the sums of lay b n o and
  of its square over the points n of the tiles 0, …, t % 4.  The proof is by induction on the point: a first tile
  starts from zero, a later tile adds its column sums to what the tile before left.  After the fourth tile the sums
  run over all 4096 points of the cloud.
-/
import proofs.«113022_j46755013984985_2_alg».proof.Proof.R1Step
import proofs.«113022_j46755013984985_2_alg».proof.Proof.R1Sum

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

/-! ## The tile's entries and column sums -/

/-- Entry (p, o) of the tile at point t is the layer at cloud t / 4 and point 1024 (t % 4) + p. -/
theorem tile_apply (c : Dev nD) (t : Fin cfg1.N) (b : Fin 16) (hb : b.val = t.val / 4) (p : Fin 1024) (o : Fin 256)
    (n : Fin 4096) (hn : n.val = 1024 * (t.val % 4) + p.val) : tile V c t (ix2 p o) = lay V c b n o :=
  tile_eq V c t b hb p o n hn

/-- The tile's column sum is the sum of the layer over run t % 4 of the cloud's points. -/
theorem tile_colsum (c : Dev nD) (t : Fin cfg1.N) (b : Fin 16) (hb : b.val = t.val / 4) (o : Fin 256) :
    ∑ p : Fin 1024, tile V c t (ix2 p o) = tileSum (fun n => lay V c b n o) (t.val % 4) := by
  rw [tileSum_of_lt _ _ (Nat.mod_lt _ (by decide))]
  exact Finset.sum_congr rfl fun p _ => tile_apply V c t b hb p o ⟨1024 * (t.val % 4) + p.val, _⟩ rfl

/-- The column sum of the tile's squares likewise. -/
theorem tile_colsum_sq (c : Dev nD) (t : Fin cfg1.N) (b : Fin 16) (hb : b.val = t.val / 4) (o : Fin 256) :
    ∑ p : Fin 1024, tile V c t (ix2 p o) * tile V c t (ix2 p o)
      = tileSum (fun n => lay V c b n o * lay V c b n o) (t.val % 4) := by
  rw [tileSum_of_lt _ _ (Nat.mod_lt _ (by decide))]
  refine Finset.sum_congr rfl fun p _ => ?_
  rw [tile_apply V c t b hb p o ⟨1024 * (t.val % 4) + p.val, _⟩ rfl]

/-! ## The running rows after each point -/

/-- The running rows after point n: the sums over the tiles 0, …, n % 4 of cloud n / 4. -/
theorem acc_eq (c : Dev nD) (n : ℕ) : ∀ (h : n < cfg1.N) (b : Fin 16) (_ : b.val = n / 4) (o : Fin 256),
    (outsAt1 V c n h).2.1 (ix3 0 0 o) = ∑ q ∈ Finset.range (n % 4 + 1), tileSum (fun m => lay V c b m o) q
    ∧ (outsAt1 V c n h).2.2 (ix3 0 0 o)
        = ∑ q ∈ Finset.range (n % 4 + 1), tileSum (fun m => lay V c b m o * lay V c b m o) q := by
  induction n using Nat.strong_induction_on with
  | _ n ih =>
    intro h b hb o
    by_cases h0 : n % 4 = 0
    · constructor
      · refine (congrFun (first8 V c ⟨n, h⟩ h0) (ix3 0 0 o)).trans ?_
        refine (pay1_apply (tile V c ⟨n, h⟩) (k1_pay5 (F := Ideal)) o).trans ?_
        rw [pay5_apply, zero_add]
        refine (tile_colsum V c ⟨n, h⟩ b hb o).trans ?_
        show tileSum _ (n % 4) = _
        rw [h0, Finset.sum_range_one]
      · refine (congrFun (first9 V c ⟨n, h⟩ h0) (ix3 0 0 o)).trans ?_
        refine (pay2_apply (tile V c ⟨n, h⟩) (k1_pay6 (F := Ideal)) o).trans ?_
        rw [pay6_apply, zero_add]
        refine (tile_colsum_sq V c ⟨n, h⟩ b hb o).trans ?_
        show tileSum _ (n % 4) = _
        rw [h0, Finset.sum_range_one]
    · have hn1 : n - 1 < n := by omega
      have hb' : b.val = (n - 1) / 4 := by omega
      have hq : (n - 1) % 4 + 1 = n % 4 := by omega
      obtain ⟨i8, i9⟩ := ih (n - 1) hn1 (Nat.lt_of_le_of_lt (Nat.sub_le _ _) h) b hb' o
      rw [hq] at i8 i9
      constructor
      · refine (congrFun (next8 V c ⟨n, h⟩ h0) (ix3 0 0 o)).trans ?_
        refine (pay1_apply (tile V c ⟨n, h⟩) _ o).trans ?_
        rw [Finset.sum_range_succ]
        exact congrArg₂ (· + ·) i8 (tile_colsum V c ⟨n, h⟩ b hb o)
      · refine (congrFun (next9 V c ⟨n, h⟩ h0) (ix3 0 0 o)).trans ?_
        refine (pay2_apply (tile V c ⟨n, h⟩) _ o).trans ?_
        rw [Finset.sum_range_succ]
        exact congrArg₂ (· + ·) i9 (tile_colsum_sq V c ⟨n, h⟩ b hb o)

/-- After the last tile of a cloud the running rows hold the sums over all its 4096 points. -/
theorem acc_last (c : Dev nD) (t : Fin cfg1.N) (h3 : t.val % 4 = 3) (b : Fin 16) (hb : b.val = t.val / 4) (o : Fin 256) :
    (outsAt1 V c t.val t.isLt).2.1 (ix3 0 0 o) = ∑ n : Fin 4096, lay V c b n o
    ∧ (outsAt1 V c t.val t.isLt).2.2 (ix3 0 0 o) = ∑ n : Fin 4096, lay V c b n o * lay V c b n o := by
  obtain ⟨e8, e9⟩ := acc_eq V c t.val t.isLt b hb o
  rw [h3] at e8 e9
  exact ⟨e8.trans (sum_range_tileSum _), e9.trans (sum_range_tileSum _)⟩

/-- The layer's block after point t, entry (0, p, o): the layer at cloud t / 4 and point 1024 (t % 4) + p. -/
theorem out7_apply (c : Dev nD) (t : Fin cfg1.N) (b : Fin 16) (hb : b.val = t.val / 4) (p : Fin 1024) (o : Fin 256)
    (n : Fin 4096) (hn : n.val = 1024 * (t.val % 4) + p.val) :
    (outsAt1 V c t.val t.isLt).1 (ix3 0 p o) = lay V c b n o := by
  rw [out7_eq V c t]
  exact (pay3_apply (tile V c t) p o).trans (tile_apply V c t b hb p o n hn)

end Cert.KernelIdeal.R1

end
-- ==== Proof.R1Arr.lean ====
/-
  What the second call leaves in its three output arrays, over the extended reals, whatever the arrays it reads hold.

  Write lay b n o for the second linear layer (of the rectified, normalised first layer) at cloud b, point n, channel
  o.  The grid's 64 points are the 16 clouds times the 4 tiles of 1024 points.  Point t writes the layer's block back
  to rows 1024 (t % 4) … of cloud t / 4 of the first array: these 64 blocks tile it, so it ends holding lay.  The
  two running rows are written back after the fourth tile of each cloud, to row b of the second and third array:
  they end holding the sums over the 4096 points of cloud b of lay and of its square.
-/
import proofs.«113022_j46755013984985_2_alg».proof.Proof.R1Acc
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

/-! ## Where each output block sits in its array -/

/-- The layer's block at point t is block (t / 4, t % 4, 0) of its array. -/
theorem idx_out7 : ∀ t : Fin cfg1.N, win1_7.index t (0 : Fin 3) = t.val / 4 ∧ win1_7.index t (1 : Fin 3) = t.val % 4
    ∧ win1_7.index t (2 : Fin 3) = 0 :=
  (by decide +kernel : ∀ t : Fin grid1.N, win1_7.index t (0 : Fin 3) = t.val / 4 ∧ win1_7.index t (1 : Fin 3) = t.val % 4
    ∧ win1_7.index t (2 : Fin 3) = 0)
/-- The running row of sums at point t is row t / 4 of its array. -/
theorem idx_out8 : ∀ t : Fin cfg1.N, win1_8.index t (0 : Fin 3) = t.val / 4 ∧ win1_8.index t (1 : Fin 3) = 0
    ∧ win1_8.index t (2 : Fin 3) = 0 :=
  (by decide +kernel : ∀ t : Fin grid1.N, win1_8.index t (0 : Fin 3) = t.val / 4 ∧ win1_8.index t (1 : Fin 3) = 0
    ∧ win1_8.index t (2 : Fin 3) = 0)
/-- The running row of sums of squares likewise. -/
theorem idx_out9 : ∀ t : Fin cfg1.N, win1_9.index t (0 : Fin 3) = t.val / 4 ∧ win1_9.index t (1 : Fin 3) = 0
    ∧ win1_9.index t (2 : Fin 3) = 0 :=
  (by decide +kernel : ∀ t : Fin grid1.N, win1_9.index t (0 : Fin 3) = t.val / 4 ∧ win1_9.index t (1 : Fin 3) = 0
    ∧ win1_9.index t (2 : Fin 3) = 0)

/-- An index of the layer's array is in point t's block iff each coordinate is in the block's range. -/
theorem mem_blk7 (t : Fin cfg1.N) (i : S16x4096x256.Idx) :
    i ∈ ((cfg1.win 7).blk t).view.set ↔ ∀ a : Fin 3, win1_7.index t a * S1x1024x256.size a ≤ (i a).val
      ∧ (i a).val < win1_7.index t a * S1x1024x256.size a + S1x1024x256.size a := by
  show i ∈ ((View.whole main_v19_0).slice (win1_7.rect t)).set ↔ _
  rw [View.set_slice_whole, Rect.mem_set_unit]
  exact Iff.rfl
/-- The same for the array of sums. -/
theorem mem_blk8 (t : Fin cfg1.N) (i : S16x1x256.Idx) :
    i ∈ ((cfg1.win 8).blk t).view.set ↔ ∀ a : Fin 3, win1_8.index t a * S1x1x256.size a ≤ (i a).val
      ∧ (i a).val < win1_8.index t a * S1x1x256.size a + S1x1x256.size a := by
  show i ∈ ((View.whole main_v19_1).slice (win1_8.rect t)).set ↔ _
  rw [View.set_slice_whole, Rect.mem_set_unit]
  exact Iff.rfl
/-- The same for the array of sums of squares. -/
theorem mem_blk9 (t : Fin cfg1.N) (i : S16x1x256.Idx) :
    i ∈ ((cfg1.win 9).blk t).view.set ↔ ∀ a : Fin 3, win1_9.index t a * S1x1x256.size a ≤ (i a).val
      ∧ (i a).val < win1_9.index t a * S1x1x256.size a + S1x1x256.size a := by
  show i ∈ ((View.whole main_v19_2).slice (win1_9.rect t)).set ↔ _
  rw [View.set_slice_whole, Rect.mem_set_unit]
  exact Iff.rfl

variable (V : (c : Dev nD) → (b : Ref sig .tc) → Buf (Elt Ideal) ((c : Thread nD τ).loc b))

/-! ## The three arrays as functions of what the call finds -/

/-- The second linear layer, as an array over (cloud, point, channel). -/
def G7 (c : Dev nD) : S16x4096x256.Idx → EReal := fun i =>
  lay V c ⟨(i 0).val, (i 0).isLt⟩ ⟨(i 1).val, (i 1).isLt⟩ ⟨(i 2).val, (i 2).isLt⟩

/-- Its sum over the points of each cloud, as an array over (cloud, 0, channel). -/
def G8 (c : Dev nD) : S16x1x256.Idx → EReal := fun i =>
  ∑ n : Fin 4096, lay V c ⟨(i 0).val, (i 0).isLt⟩ n ⟨(i 2).val, (i 2).isLt⟩

/-- The sum of its squares over the points of each cloud. -/
def G9 (c : Dev nD) : S16x1x256.Idx → EReal := fun i =>
  ∑ n : Fin 4096, lay V c ⟨(i 0).val, (i 0).isLt⟩ n ⟨(i 2).val, (i 2).isLt⟩ * lay V c ⟨(i 0).val, (i 0).isLt⟩ n ⟨(i 2).val, (i 2).isLt⟩

/-! ## The layer's array -/

/-- What point t writes back to the layer's array is block t of the layer. -/
theorem flushed7 (c : Dev nD) (t : Fin cfg1.N) :
    (dat1 V c).flushed 7 t = ((cfg1.win 7).blk t).view.read (Elt Ideal) (G7 V c) := by
  obtain ⟨e0, e1, e2⟩ := idx_out7 t
  show (cfg1.win 7).cut (grid1.coords t) ((dat1 V c).after 7 t) = _
  rw [after1_7]
  funext y
  rw [View.read_apply]
  have y0 : (y 0).val < 1 := (y 0).isLt
  have y1 : (y 1).val < 1024 := (y 1).isLt
  have y2 : (y 2).val < 256 := (y 2).isLt
  have k0 : ((((cfg1.win 7).blk t).view.emb y) 0).val = t.val / 4 := by
    show win1_7.index t 0 * 1 + 1 * (y 0).val = t.val / 4
    rw [e0]; omega
  have k1 : ((((cfg1.win 7).blk t).view.emb y) 1).val = 1024 * (t.val % 4) + (y 1).val := by
    show win1_7.index t 1 * 1024 + 1 * (y 1).val = 1024 * (t.val % 4) + (y 1).val
    rw [e1]; omega
  have k2 : ((((cfg1.win 7).blk t).view.emb y) 2).val = (y 2).val := by
    show win1_7.index t 2 * 256 + 1 * (y 2).val = (y 2).val
    rw [e2]; omega
  have hy : (cfg1.win 7).xinj (grid1.coords t) y
      = ix3 (0 : Fin 1) (⟨(y 1).val, y1⟩ : Fin 1024) (⟨((((cfg1.win 7).blk t).view.emb y) 2).val, ((((cfg1.win 7).blk t).view.emb y) 2).isLt⟩ : Fin 256) :=
    funext fun a => Fin.ext (by
      match a with
      | ⟨0, _⟩ => show (y 0).val = 0; omega
      | ⟨1, _⟩ => rfl
      | ⟨2, _⟩ => exact k2.symm)
  show (outsAt1 V c t.val t.isLt).1 ((cfg1.win 7).xinj (grid1.coords t) y) = G7 V c (((cfg1.win 7).blk t).view.emb y)
  rw [hy]
  exact out7_apply V c t ⟨((((cfg1.win 7).blk t).view.emb y) 0).val, ((((cfg1.win 7).blk t).view.emb y) 0).isLt⟩ k0
    ⟨(y 1).val, y1⟩ ⟨((((cfg1.win 7).blk t).view.emb y) 2).val, ((((cfg1.win 7).blk t).view.emb y) 2).isLt⟩
    ⟨((((cfg1.win 7).blk t).view.emb y) 1).val, ((((cfg1.win 7).blk t).view.emb y) 1).isLt⟩ k1

/-- Every entry of the layer's array is in the block of the point of its cloud and tile. -/
theorem cover7 (i : S16x4096x256.Idx) :
    ∃ t : Fin cfg1.N, (cfg1.win 7).flush t = true ∧ i ∈ ((cfg1.win 7).blk t).view.set := by
  have hN : cfg1.N = 64 := N_1
  have h0 : (i 0).val < 16 := (i 0).isLt
  have h1 : (i 1).val < 4096 := (i 1).isLt
  have h2 : (i 2).val < 256 := (i 2).isLt
  obtain ⟨t, ht⟩ : ∃ t : Fin cfg1.N, t.val = 4 * (i 0).val + (i 1).val / 1024 :=
    ⟨⟨4 * (i 0).val + (i 1).val / 1024, by omega⟩, rfl⟩
  obtain ⟨e0, e1, e2⟩ := idx_out7 t
  refine ⟨t, flush1_7 t, ?_⟩
  rw [mem_blk7]
  intro a
  match a with
  | ⟨0, _⟩ =>
    show win1_7.index t 0 * 1 ≤ (i 0).val ∧ (i 0).val < win1_7.index t 0 * 1 + 1
    rw [e0]; omega
  | ⟨1, _⟩ =>
    show win1_7.index t 1 * 1024 ≤ (i 1).val ∧ (i 1).val < win1_7.index t 1 * 1024 + 1024
    rw [e1]; omega
  | ⟨2, _⟩ =>
    show win1_7.index t 2 * 256 ≤ (i 2).val ∧ (i 2).val < win1_7.index t 2 * 256 + 256
    rw [e2]; omega

/-- The layer's array after the call: the second linear layer, entry by entry. -/
theorem arr7' (c : Dev nD) : (dat1 V c).arrAt 7 cfg1.N = G7 V c :=
  (dat1 V c).arrAt_eq_of_cover 7 (G7 V c) (fun t _ => flushed7 V c t) cover7

/-! ## The array of sums -/

/-- What the last tile of a cloud writes back is the row of sums over the whole cloud. -/
theorem flushed8 (c : Dev nD) (t : Fin cfg1.N) (hf : (cfg1.win 8).flush t = true) :
    (dat1 V c).flushed 8 t = ((cfg1.win 8).blk t).view.read (Elt Ideal) (G8 V c) := by
  have h3 : t.val % 4 = 3 := (flush1_8 t).mp hf
  obtain ⟨e0, e1, e2⟩ := idx_out8 t
  show (cfg1.win 8).cut (grid1.coords t) ((dat1 V c).after 8 t) = _
  rw [after1_8]
  funext y
  rw [View.read_apply]
  have y0 : (y 0).val < 1 := (y 0).isLt
  have y1 : (y 1).val < 1 := (y 1).isLt
  have y2 : (y 2).val < 256 := (y 2).isLt
  have k0 : ((((cfg1.win 8).blk t).view.emb y) 0).val = t.val / 4 := by
    show win1_8.index t 0 * 1 + 1 * (y 0).val = t.val / 4
    rw [e0]; omega
  have k2 : ((((cfg1.win 8).blk t).view.emb y) 2).val = (y 2).val := by
    show win1_8.index t 2 * 256 + 1 * (y 2).val = (y 2).val
    rw [e2]; omega
  have hy : (cfg1.win 8).xinj (grid1.coords t) y
      = ix3 (0 : Fin 1) (0 : Fin 1) (⟨((((cfg1.win 8).blk t).view.emb y) 2).val, ((((cfg1.win 8).blk t).view.emb y) 2).isLt⟩ : Fin 256) :=
    funext fun a => Fin.ext (by
      match a with
      | ⟨0, _⟩ => show (y 0).val = 0; omega
      | ⟨1, _⟩ => show (y 1).val = 0; omega
      | ⟨2, _⟩ => exact k2.symm)
  show (outsAt1 V c t.val t.isLt).2.1 ((cfg1.win 8).xinj (grid1.coords t) y) = G8 V c (((cfg1.win 8).blk t).view.emb y)
  rw [hy]
  exact (acc_last V c t h3 ⟨((((cfg1.win 8).blk t).view.emb y) 0).val, ((((cfg1.win 8).blk t).view.emb y) 0).isLt⟩ k0
    ⟨((((cfg1.win 8).blk t).view.emb y) 2).val, ((((cfg1.win 8).blk t).view.emb y) 2).isLt⟩).1

/-- Every entry of the array is in the block the last tile of its cloud writes back. -/
theorem cover8 (i : S16x1x256.Idx) :
    ∃ t : Fin cfg1.N, (cfg1.win 8).flush t = true ∧ i ∈ ((cfg1.win 8).blk t).view.set := by
  have hN : cfg1.N = 64 := N_1
  have h0 : (i 0).val < 16 := (i 0).isLt
  have h1 : (i 1).val < 1 := (i 1).isLt
  have h2 : (i 2).val < 256 := (i 2).isLt
  obtain ⟨t, ht⟩ : ∃ t : Fin cfg1.N, t.val = 4 * (i 0).val + 3 := ⟨⟨4 * (i 0).val + 3, by omega⟩, rfl⟩
  obtain ⟨e0, e1, e2⟩ := idx_out8 t
  refine ⟨t, (flush1_8 t).mpr (by omega), ?_⟩
  rw [mem_blk8]
  intro a
  match a with
  | ⟨0, _⟩ =>
    show win1_8.index t 0 * 1 ≤ (i 0).val ∧ (i 0).val < win1_8.index t 0 * 1 + 1
    rw [e0]; omega
  | ⟨1, _⟩ =>
    show win1_8.index t 1 * 1 ≤ (i 1).val ∧ (i 1).val < win1_8.index t 1 * 1 + 1
    rw [e1]; omega
  | ⟨2, _⟩ =>
    show win1_8.index t 2 * 256 ≤ (i 2).val ∧ (i 2).val < win1_8.index t 2 * 256 + 256
    rw [e2]; omega

/-- The array after the call: for each cloud and channel, the sum of the layer over the cloud's 4096 points. -/
theorem arr8' (c : Dev nD) : (dat1 V c).arrAt 8 cfg1.N = G8 V c :=
  (dat1 V c).arrAt_eq_of_cover 8 (G8 V c) (flushed8 V c) cover8

/-! ## The array of sums of squares -/

/-- What the last tile of a cloud writes back is the row of sums of squares over the whole cloud. -/
theorem flushed9 (c : Dev nD) (t : Fin cfg1.N) (hf : (cfg1.win 9).flush t = true) :
    (dat1 V c).flushed 9 t = ((cfg1.win 9).blk t).view.read (Elt Ideal) (G9 V c) := by
  have h3 : t.val % 4 = 3 := (flush1_9 t).mp hf
  obtain ⟨e0, e1, e2⟩ := idx_out9 t
  show (cfg1.win 9).cut (grid1.coords t) ((dat1 V c).after 9 t) = _
  rw [after1_9]
  funext y
  rw [View.read_apply]
  have y0 : (y 0).val < 1 := (y 0).isLt
  have y1 : (y 1).val < 1 := (y 1).isLt
  have y2 : (y 2).val < 256 := (y 2).isLt
  have k0 : ((((cfg1.win 9).blk t).view.emb y) 0).val = t.val / 4 := by
    show win1_9.index t 0 * 1 + 1 * (y 0).val = t.val / 4
    rw [e0]; omega
  have k2 : ((((cfg1.win 9).blk t).view.emb y) 2).val = (y 2).val := by
    show win1_9.index t 2 * 256 + 1 * (y 2).val = (y 2).val
    rw [e2]; omega
  have hy : (cfg1.win 9).xinj (grid1.coords t) y
      = ix3 (0 : Fin 1) (0 : Fin 1) (⟨((((cfg1.win 9).blk t).view.emb y) 2).val, ((((cfg1.win 9).blk t).view.emb y) 2).isLt⟩ : Fin 256) :=
    funext fun a => Fin.ext (by
      match a with
      | ⟨0, _⟩ => show (y 0).val = 0; omega
      | ⟨1, _⟩ => show (y 1).val = 0; omega
      | ⟨2, _⟩ => exact k2.symm)
  show (outsAt1 V c t.val t.isLt).2.2 ((cfg1.win 9).xinj (grid1.coords t) y) = G9 V c (((cfg1.win 9).blk t).view.emb y)
  rw [hy]
  exact (acc_last V c t h3 ⟨((((cfg1.win 9).blk t).view.emb y) 0).val, ((((cfg1.win 9).blk t).view.emb y) 0).isLt⟩ k0
    ⟨((((cfg1.win 9).blk t).view.emb y) 2).val, ((((cfg1.win 9).blk t).view.emb y) 2).isLt⟩).2

/-- Every entry of the array is in the block the last tile of its cloud writes back. -/
theorem cover9 (i : S16x1x256.Idx) :
    ∃ t : Fin cfg1.N, (cfg1.win 9).flush t = true ∧ i ∈ ((cfg1.win 9).blk t).view.set := by
  have hN : cfg1.N = 64 := N_1
  have h0 : (i 0).val < 16 := (i 0).isLt
  have h1 : (i 1).val < 1 := (i 1).isLt
  have h2 : (i 2).val < 256 := (i 2).isLt
  obtain ⟨t, ht⟩ : ∃ t : Fin cfg1.N, t.val = 4 * (i 0).val + 3 := ⟨⟨4 * (i 0).val + 3, by omega⟩, rfl⟩
  obtain ⟨e0, e1, e2⟩ := idx_out9 t
  refine ⟨t, (flush1_9 t).mpr (by omega), ?_⟩
  rw [mem_blk9]
  intro a
  match a with
  | ⟨0, _⟩ =>
    show win1_9.index t 0 * 1 ≤ (i 0).val ∧ (i 0).val < win1_9.index t 0 * 1 + 1
    rw [e0]; omega
  | ⟨1, _⟩ =>
    show win1_9.index t 1 * 1 ≤ (i 1).val ∧ (i 1).val < win1_9.index t 1 * 1 + 1
    rw [e1]; omega
  | ⟨2, _⟩ =>
    show win1_9.index t 2 * 256 ≤ (i 2).val ∧ (i 2).val < win1_9.index t 2 * 256 + 256
    rw [e2]; omega

/-- The array after the call: for each cloud and channel, the sum of the layer's square over the cloud's 4096 points. -/
theorem arr9' (c : Dev nD) : (dat1 V c).arrAt 9 cfg1.N = G9 V c :=
  (dat1 V c).arrAt_eq_of_cover 9 (G9 V c) (flushed9 V c) cover9

/-! ## The three results, spelled out -/

/-- The layer's array, with the layer written over the arrays the call finds. -/
theorem arr7 (c : Dev nD) : (dat1 V c).arrAt 7 cfg1.N = (fun i : S16x4096x256.Idx =>
    lay V c ⟨(i 0).val, (i 0).isLt⟩ ⟨(i 1).val, (i 1).isLt⟩ ⟨(i 2).val, (i 2).isLt⟩) := arr7' V c

/-- The array of sums. -/
theorem arr8 (c : Dev nD) : (dat1 V c).arrAt 8 cfg1.N = (fun i : S16x1x256.Idx =>
    ∑ n : Fin 4096, lay V c ⟨(i 0).val, (i 0).isLt⟩ n ⟨(i 2).val, (i 2).isLt⟩) := arr8' V c

/-- The array of sums of squares. -/
theorem arr9 (c : Dev nD) : (dat1 V c).arrAt 9 cfg1.N = (fun i : S16x1x256.Idx =>
    ∑ n : Fin 4096, lay V c ⟨(i 0).val, (i 0).isLt⟩ n ⟨(i 2).val, (i 2).isLt⟩ * lay V c ⟨(i 0).val, (i 0).isLt⟩ n ⟨(i 2).val, (i 2).isLt⟩) :=
  arr9' V c

/-! ## The same three results with the layer written out over the arrays the call finds -/

/-- The layer's array: the second linear layer of the rectified, normalised first layer. -/
theorem arr7_spec (c : Dev nD) : (dat1 V c).arrAt 7 cfg1.N = (fun i : S16x4096x256.Idx =>
    Spec.lin2 (fun (b : Fin 16) (n : Fin 4096) (j : Fin 384) => max (Spec.norm1 (V c main_v8_0 (ix3 b n j)) (V c main_v11 (ix2 0 j)) (V c main_v18 (ix2 0 j)) (V c main_v4 (ix2 0 j)) (V c main_v5 (ix2 0 j))) 0) (fun j o => V c main_v1 (ix2 j o)) (fun o => V c main_v3 (ix2 0 o))
      ⟨(i 0).val, (i 0).isLt⟩ ⟨(i 1).val, (i 1).isLt⟩ ⟨(i 2).val, (i 2).isLt⟩) := arr7 V c

/-- The array of sums of that layer over each cloud's points. -/
theorem arr8_spec (c : Dev nD) : (dat1 V c).arrAt 8 cfg1.N = (fun i : S16x1x256.Idx =>
    ∑ n : Fin 4096, Spec.lin2 (fun (b : Fin 16) (n : Fin 4096) (j : Fin 384) => max (Spec.norm1 (V c main_v8_0 (ix3 b n j)) (V c main_v11 (ix2 0 j)) (V c main_v18 (ix2 0 j)) (V c main_v4 (ix2 0 j)) (V c main_v5 (ix2 0 j))) 0) (fun j o => V c main_v1 (ix2 j o)) (fun o => V c main_v3 (ix2 0 o))
      ⟨(i 0).val, (i 0).isLt⟩ n ⟨(i 2).val, (i 2).isLt⟩) := arr8 V c

/-- The array of sums of its squares over each cloud's points. -/
theorem arr9_spec (c : Dev nD) : (dat1 V c).arrAt 9 cfg1.N = (fun i : S16x1x256.Idx =>
    ∑ n : Fin 4096, Spec.lin2 (fun (b : Fin 16) (n : Fin 4096) (j : Fin 384) => max (Spec.norm1 (V c main_v8_0 (ix3 b n j)) (V c main_v11 (ix2 0 j)) (V c main_v18 (ix2 0 j)) (V c main_v4 (ix2 0 j)) (V c main_v5 (ix2 0 j))) 0) (fun j o => V c main_v1 (ix2 j o)) (fun o => V c main_v3 (ix2 0 o))
        ⟨(i 0).val, (i 0).isLt⟩ n ⟨(i 2).val, (i 2).isLt⟩
      * Spec.lin2 (fun (b : Fin 16) (n : Fin 4096) (j : Fin 384) => max (Spec.norm1 (V c main_v8_0 (ix3 b n j)) (V c main_v11 (ix2 0 j)) (V c main_v18 (ix2 0 j)) (V c main_v4 (ix2 0 j)) (V c main_v5 (ix2 0 j))) 0) (fun j o => V c main_v1 (ix2 j o)) (fun o => V c main_v3 (ix2 0 o))
        ⟨(i 0).val, (i 0).isLt⟩ n ⟨(i 2).val, (i 2).isLt⟩) := arr9 V c

end Cert.KernelIdeal.R1

end
-- ==== Proof.lean ====
/-
  The kernel and its reference compute one function.

  A point cloud's coarse features are interpolated at the fine points with inverse squared-distance
  weights, joined with the fine features, and passed through two per-point linear layers, each
  followed by a batch normalisation over all 16 · 4096 points (the first also by a rectifier).  The
  kernel does this in three launches — the distance as a sum of squared coordinate differences, the
  layers tile by tile, the batch statistics from running sums of the values and of their squares —
  and the reference in one straight line, the distance by the polarisation identity and the variance
  as a mean squared deviation.  Over the extended reals both are the same chain of operations
  (`Spec.OUT`), at two spellings of the distance and of the variance which agree on finite inputs:
  that is where the precondition is used.  The kernel's side: what each launch leaves of the arrays it
  finds, read through the host operations between the launches.  The reference's side: its
  operations read one at a time.  The idealization rewrote nothing, and the three programs' frames are
  their runs with the results dropped.
-/
import proofs.«113022_j46755013984985_2_alg».proof.Defs
import proofs.«113022_j46755013984985_2_alg».proof.Proof.Gen.Kernel
import proofs.«113022_j46755013984985_2_alg».proof.Proof.Gen.Kernel.Skeleton
import proofs.«113022_j46755013984985_2_alg».proof.Proof.Gen.Kernel.Launch
import proofs.«113022_j46755013984985_2_alg».proof.Proof.Gen.Kernel.Points
import proofs.«113022_j46755013984985_2_alg».proof.Proof.Gen.Kernel.Frame
import proofs.«113022_j46755013984985_2_alg».proof.Proof.Gen.KernelIdeal
import proofs.«113022_j46755013984985_2_alg».proof.Proof.Gen.KernelIdeal.Skeleton
import proofs.«113022_j46755013984985_2_alg».proof.Proof.Gen.KernelIdeal.Launch
import proofs.«113022_j46755013984985_2_alg».proof.Proof.Gen.KernelIdeal.Points
import proofs.«113022_j46755013984985_2_alg».proof.Proof.Gen.KernelIdeal.Frame
import proofs.«113022_j46755013984985_2_alg».proof.Proof.Gen.ReferenceIdeal
import proofs.«113022_j46755013984985_2_alg».proof.Proof.Gen.Pre_finite_inputs
import proofs.«113022_j46755013984985_2_alg».proof.Proof.Spec
import proofs.«113022_j46755013984985_2_alg».proof.Proof.MathOut
import proofs.«113022_j46755013984985_2_alg».proof.Proof.FinPre
import proofs.«113022_j46755013984985_2_alg».proof.Proof.KRun
import proofs.«113022_j46755013984985_2_alg».proof.Proof.GlueRun
import proofs.«113022_j46755013984985_2_alg».proof.Proof.RefReadP
import proofs.«113022_j46755013984985_2_alg».proof.Proof.RefOut
import proofs.«113022_j46755013984985_2_alg».proof.Proof.R0Arr
import proofs.«113022_j46755013984985_2_alg».proof.Proof.R1Arr
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- What the two accumulating launches leave, whatever arrays they find. -/
theorem regions : Cert.KernelIdeal.Glue.Regions where
  a6 := fun V c b n o => congrFun (Cert.KernelIdeal.R0.arr6 V c) (ix3 b n o)
  a7 := fun V c b u o => congrFun (Cert.KernelIdeal.R0.arr7 V c) (ix3 b u o)
  a8 := fun V c b u o => congrFun (Cert.KernelIdeal.R0.arr8 V c) (ix3 b u o)
  b7 := fun V c b n o => congrFun (Cert.KernelIdeal.R1.arr7 V c) (ix3 b n o)
  b8 := fun V c b u o => congrFun (Cert.KernelIdeal.R1.arr8 V c) (ix3 b u o)
  b9 := fun V c b u o => congrFun (Cert.KernelIdeal.R1.arr9 V c) (ix3 b u o)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the chain of the (agreeing, finite) arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v30), Cert.KernelIdeal.KRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  obtain ⟨r0, r1, r2, r3, r4, r5, r6, r7, r8, r9, r10, r11⟩ := Cert.KernelIdeal.Finite.real_of_pre m hpre c
  rw [Cert.ReferenceIdeal.ReadP.val_main_v79_eq, Cert.ReferenceIdeal.RefValue.ref_eq, a0, a1, a2, a3, a4, a5, a6, a7, a8, a9, a10, a11]
  refine Eq.trans ?_ (Cert.KernelIdeal.Glue.result m ρ c regions).symm
  exact (Spec.OUT_eq _ _ _ _ _ _ _ _ _ _ _ _ r0 r1 r2 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
